-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x512x512 : Shape := ⟨4, ![8, 3, 512, 512]⟩
abbrev S_ : Shape := ⟨0, ![]⟩

class Facts : Prop where
  bcast_S_S8x3x512x512 : S_.BroadcastsInDim S8x3x512x512 (![] : Fin 0 → Fin S8x3x512x512.rank)
  reducesTo_S8x3x512x512_S_d0_1_2_3 : S8x3x512x512.ReducesTo [0, 1, 2, 3] S_
  h_S_ : 0 < S_.numel

variable [Facts]

def fn {F : FTy → Type} [FloatOps F] (main_arg0 : FVec F S8x3x512x512 .f32) (main_arg1 : FVec F S8x3x512x512 .f32) : IVec S_ 1 :=
  let main_v0 : FVec F S8x3x512x512 .f32 := Host.absf main_arg0
  let main_cst : FVec F S_ .f32 := constant S_ .f32 0x7F800000#32
  let main_v1 : FVec F S8x3x512x512 .f32 := broadcastInDim S8x3x512x512 ![] bcast_S_S8x3x512x512 main_cst
  let main_v2 : IVec S8x3x512x512 1 := cmpf .olt main_v0 main_v1
  let main_c : IVec S_ 1 := constantI S_ 1 1#1
  let main_v3 : IVec S_ 1 := (fun x v => Host.reduce IntOp.andi x v reducesTo_S8x3x512x512_S_d0_1_2_3 h_S_) main_v2 main_c
  let main_v4 : FVec F S8x3x512x512 .f32 := Host.absf main_arg1
  let main_cst_0 : FVec F S_ .f32 := constant S_ .f32 0x7F800000#32
  let main_v5 : FVec F S8x3x512x512 .f32 := broadcastInDim S8x3x512x512 ![] bcast_S_S8x3x512x512 main_cst_0
  let main_v6 : IVec S8x3x512x512 1 := cmpf .olt main_v4 main_v5
  let main_c_1 : IVec S_ 1 := constantI S_ 1 1#1
  let main_v7 : IVec S_ 1 := (fun x v => Host.reduce IntOp.andi x v reducesTo_S8x3x512x512_S_d0_1_2_3 h_S_) main_v6 main_c_1
  let main_v8 : IVec S_ 1 := andi main_v3 main_v7
  main_v8
-- ==== Kernel.lean ====
abbrev S8x3x512x512 : Shape := ⟨4, ![8, 3, 512, 512]⟩
abbrev S2x1x1 : Shape := ⟨3, ![2, 1, 1]⟩
abbrev S1x3x512x512 : Shape := ⟨4, ![1, 3, 512, 512]⟩
abbrev S1x1x1 : Shape := ⟨3, ![1, 1, 1]⟩
abbrev S512x512 : Shape := ⟨2, ![512, 512]⟩
abbrev S3x512x512 : Shape := ⟨3, ![3, 512, 512]⟩
abbrev S3x1x512 : Shape := ⟨3, ![3, 1, 512]⟩
abbrev S3x514x512 : Shape := ⟨3, ![3, 514, 512]⟩
abbrev S3x514x1 : Shape := ⟨3, ![3, 514, 1]⟩
abbrev S3x514x514 : Shape := ⟨3, ![3, 514, 514]⟩
abbrev S1x512x512 : Shape := ⟨3, ![1, 512, 512]⟩
abbrev S1 : Shape := ⟨1, ![1]⟩
abbrev S1x1 : Shape := ⟨2, ![1, 1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S8x3x512x512, .f32⟩
  | .hbm, ⟨1, _⟩ => ⟨S8x3x512x512, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S1x1x1, .f32⟩
  | .local _ .vmem, ⟨5, _⟩ => ⟨S1x1x1, .f32⟩
  | .local _ .vmem, ⟨6, _⟩ => ⟨S512x512, .f32⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v286 : BitVec 1 := Scalar.cmpi .eq arg1 c3_i32
  let v287 : BitVec 32 := Scalar.extui v286
  let c0_i32_81 : BitVec 32 := 0#32
  let v288 : BitVec 1 := Scalar.cmpi .ne v287 c0_i32_81
  v288

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  slices_S3x512x512_o0_1_0_S3x1x512 : S3x512x512.Slices ![0, 1, 0] S3x1x512
  slices_S3x512x512_o0_510_0_S3x1x512 : S3x512x512.Slices ![0, 510, 0] S3x1x512
  concatenates_S3x1x512_S3x512x512_S3x1x512_S3x514x512_d1 : Shape.Concatenates [S3x1x512, S3x512x512, S3x1x512] S3x514x512 1
  slices_S3x514x512_o0_0_1_S3x514x1 : S3x514x512.Slices ![0, 0, 1] S3x514x1
  slices_S3x514x512_o0_0_510_S3x514x1 : S3x514x512.Slices ![0, 0, 510] S3x514x1
  concatenates_S3x514x1_S3x514x512_S3x514x1_S3x514x514_d2 : Shape.Concatenates [S3x514x1, S3x514x512, S3x514x1] S3x514x514 2
  slices_S3x514x514_o0_1_1_S3x512x512 : S3x514x514.Slices ![0, 1, 1] S3x512x512
  slices_S3x514x514_o0_2_1_S3x512x512 : S3x514x514.Slices ![0, 2, 1] S3x512x512
  slices_S3x514x514_o0_1_2_S3x512x512 : S3x514x514.Slices ![0, 1, 2] S3x512x512
  reduces_S3x512x512_S512x512 : S3x512x512.Reduces [0] S512x512
  shapeCasts_S512x512_S1x512x512 : S512x512.ShapeCasts S1x512x512
  slices_S3x514x514_o0_0_0_S3x512x512 : S3x514x514.Slices ![0, 0, 0] S3x512x512
  broadcasts_S1x512x512_S3x512x512 : S1x512x512.Broadcasts S3x512x512
  slices_S3x514x514_o0_0_1_S3x512x512 : S3x514x514.Slices ![0, 0, 1] S3x512x512
  slices_S3x514x514_o0_0_2_S3x512x512 : S3x514x514.Slices ![0, 0, 2] S3x512x512
  slices_S3x514x514_o0_1_0_S3x512x512 : S3x514x514.Slices ![0, 1, 0] S3x512x512
  slices_S3x514x514_o0_2_0_S3x512x512 : S3x514x514.Slices ![0, 2, 0] S3x512x512
  slices_S3x514x514_o0_2_2_S3x512x512 : S3x514x514.Slices ![0, 2, 2] S3x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S8x3x512x512.size a
  hwx0_0 : ∀ i : grid0.Coords, EltTy.bits .f32 = 32 ∨ (Rect.block (s := S8x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S8x3x512x512.size a
  hwx0_1 : ∀ i : grid0.Coords, EltTy.bits .f32 = 32 ∨ (Rect.block (s := S8x3x512x512) S1x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg1) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x3x512x512 : Shape := ⟨4, ![8, 3, 512, 512]⟩
abbrev S9 : Shape := ⟨1, ![9]⟩
abbrev S_ : Shape := ⟨0, ![]⟩
abbrev S8x3x1x512 : Shape := ⟨4, ![8, 3, 1, 512]⟩
abbrev S8x3x513x512 : Shape := ⟨4, ![8, 3, 513, 512]⟩
abbrev S8x3x514x512 : Shape := ⟨4, ![8, 3, 514, 512]⟩
abbrev S8x3x514x1 : Shape := ⟨4, ![8, 3, 514, 1]⟩
abbrev S8x3x514x513 : Shape := ⟨4, ![8, 3, 514, 513]⟩
abbrev S8x3x514x514 : Shape := ⟨4, ![8, 3, 514, 514]⟩
abbrev S8x1x3x512x512 : Shape := ⟨5, ![8, 1, 3, 512, 512]⟩
abbrev S8x9x3x512x512 : Shape := ⟨5, ![8, 9, 3, 512, 512]⟩
abbrev S8x9x512x512 : Shape := ⟨4, ![8, 9, 512, 512]⟩
abbrev S8x9x1x512x512 : Shape := ⟨5, ![8, 9, 1, 512, 512]⟩
abbrev S1x9x1x1x1 : Shape := ⟨5, ![1, 9, 1, 1, 1]⟩
abbrev S8x512x512 : Shape := ⟨3, ![8, 512, 512]⟩
abbrev S8x1x1x512x512 : Shape := ⟨5, ![8, 1, 1, 512, 512]⟩

abbrev nBuf : Space → Nat
  | .hbm => 193
  | .vmem => 0
  | .smem => 0
  | _ => 0

abbrev hbmTy0_0 (i : Nat) : BufTy := match i % 128 with
  | 0 => ⟨S8x3x512x512, .f32⟩
  | 1 => ⟨S8x3x512x512, .f32⟩
  | 2 => ⟨S9, .f32⟩
  | 3 => ⟨S_, .i32⟩
  | 4 => ⟨S8x3x1x512, .f32⟩
  | 5 => ⟨S8x3x1x512, .f32⟩
  | 6 => ⟨S8x3x1x512, .f32⟩
  | 7 => ⟨S8x3x513x512, .f32⟩
  | 8 => ⟨S8x3x1x512, .f32⟩
  | 9 => ⟨S8x3x1x512, .f32⟩
  | 10 => ⟨S8x3x1x512, .f32⟩
  | 11 => ⟨S8x3x514x512, .f32⟩
  | 12 => ⟨S8x3x514x1, .f32⟩
  | 13 => ⟨S8x3x514x1, .f32⟩
  | 14 => ⟨S8x3x514x1, .f32⟩
  | 15 => ⟨S8x3x514x513, .f32⟩
  | 16 => ⟨S8x3x514x1, .f32⟩
  | 17 => ⟨S8x3x514x1, .f32⟩
  | 18 => ⟨S8x3x514x1, .f32⟩
  | 19 => ⟨S8x3x514x514, .f32⟩
  | 20 => ⟨S8x3x512x512, .f32⟩
  | 21 => ⟨S8x3x512x512, .f32⟩
  | 22 => ⟨S8x3x512x512, .f32⟩
  | 23 => ⟨S8x3x512x512, .f32⟩
  | 24 => ⟨S8x3x512x512, .f32⟩
  | 25 => ⟨S8x3x512x512, .f32⟩
  | 26 => ⟨S8x3x512x512, .f32⟩
  | 27 => ⟨S8x3x512x512, .f32⟩
  | 28 => ⟨S8x3x512x512, .f32⟩
  | 29 => ⟨S8x3x512x512, .f32⟩
  | 30 => ⟨S8x3x512x512, .f32⟩
  | 31 => ⟨S8x3x512x512, .f32⟩
  | 32 => ⟨S8x3x512x512, .f32⟩
  | 33 => ⟨S8x3x512x512, .f32⟩
  | 34 => ⟨S8x3x512x512, .f32⟩
  | 35 => ⟨S8x3x512x512, .f32⟩
  | 36 => ⟨S8x3x512x512, .f32⟩
  | 37 => ⟨S8x3x512x512, .f32⟩
  | 38 => ⟨S8x1x3x512x512, .f32⟩
  | 39 => ⟨S8x1x3x512x512, .f32⟩
  | 40 => ⟨S8x1x3x512x512, .f32⟩
  | 41 => ⟨S8x1x3x512x512, .f32⟩
  | 42 => ⟨S8x1x3x512x512, .f32⟩
  | 43 => ⟨S8x1x3x512x512, .f32⟩
  | 44 => ⟨S8x1x3x512x512, .f32⟩
  | 45 => ⟨S8x1x3x512x512, .f32⟩
  | 46 => ⟨S8x1x3x512x512, .f32⟩
  | 47 => ⟨S8x9x3x512x512, .f32⟩
  | 48 => ⟨S8x9x3x512x512, .f32⟩
  | 49 => ⟨S_, .i32⟩
  | 50 => ⟨S8x3x1x512, .f32⟩
  | 51 => ⟨S8x3x1x512, .f32⟩
  | 52 => ⟨S8x3x1x512, .f32⟩
  | 53 => ⟨S8x3x513x512, .f32⟩
  | 54 => ⟨S8x3x1x512, .f32⟩
  | 55 => ⟨S8x3x1x512, .f32⟩
  | 56 => ⟨S8x3x1x512, .f32⟩
  | 57 => ⟨S8x3x514x512, .f32⟩
  | 58 => ⟨S8x3x514x1, .f32⟩
  | 59 => ⟨S8x3x514x1, .f32⟩
  | 60 => ⟨S8x3x514x1, .f32⟩
  | 61 => ⟨S8x3x514x513, .f32⟩
  | 62 => ⟨S8x3x514x1, .f32⟩
  | 63 => ⟨S8x3x514x1, .f32⟩
  | 64 => ⟨S8x3x514x1, .f32⟩
  | 65 => ⟨S8x3x514x514, .f32⟩
  | 66 => ⟨S8x3x512x512, .f32⟩
  | 67 => ⟨S8x3x512x512, .f32⟩
  | 68 => ⟨S8x3x512x512, .f32⟩
  | 69 => ⟨S8x3x512x512, .f32⟩
  | 70 => ⟨S8x3x512x512, .f32⟩
  | 71 => ⟨S8x3x512x512, .f32⟩
  | 72 => ⟨S8x3x512x512, .f32⟩
  | 73 => ⟨S8x3x512x512, .f32⟩
  | 74 => ⟨S8x3x512x512, .f32⟩
  | 75 => ⟨S8x3x512x512, .f32⟩
  | 76 => ⟨S8x3x512x512, .f32⟩
  | 77 => ⟨S8x3x512x512, .f32⟩
  | 78 => ⟨S8x3x512x512, .f32⟩
  | 79 => ⟨S8x3x512x512, .f32⟩
  | 80 => ⟨S8x3x512x512, .f32⟩
  | 81 => ⟨S8x3x512x512, .f32⟩
  | 82 => ⟨S8x3x512x512, .f32⟩
  | 83 => ⟨S8x3x512x512, .f32⟩
  | 84 => ⟨S8x1x3x512x512, .f32⟩
  | 85 => ⟨S8x1x3x512x512, .f32⟩
  | 86 => ⟨S8x1x3x512x512, .f32⟩
  | 87 => ⟨S8x1x3x512x512, .f32⟩
  | 88 => ⟨S8x1x3x512x512, .f32⟩
  | 89 => ⟨S8x1x3x512x512, .f32⟩
  | 90 => ⟨S8x1x3x512x512, .f32⟩
  | 91 => ⟨S8x1x3x512x512, .f32⟩
  | 92 => ⟨S8x1x3x512x512, .f32⟩
  | 93 => ⟨S8x9x3x512x512, .f32⟩
  | 94 => ⟨S_, .f32⟩
  | 95 => ⟨S8x9x3x512x512, .f32⟩
  | 96 => ⟨S8x9x3x512x512, .f32⟩
  | 97 => ⟨S8x9x3x512x512, .f32⟩
  | 98 => ⟨S_, .f32⟩
  | 99 => ⟨S8x9x512x512, .f32⟩
  | 100 => ⟨S8x9x1x512x512, .f32⟩
  | 101 => ⟨S8x9x1x512x512, .f32⟩
  | 102 => ⟨S1x9x1x1x1, .f32⟩
  | 103 => ⟨S_, .i32⟩
  | 104 => ⟨S8x3x1x512, .f32⟩
  | 105 => ⟨S8x3x1x512, .f32⟩
  | 106 => ⟨S8x3x1x512, .f32⟩
  | 107 => ⟨S8x3x513x512, .f32⟩
  | 108 => ⟨S8x3x1x512, .f32⟩
  | 109 => ⟨S8x3x1x512, .f32⟩
  | 110 => ⟨S8x3x1x512, .f32⟩
  | 111 => ⟨S8x3x514x512, .f32⟩
  | 112 => ⟨S8x3x514x1, .f32⟩
  | 113 => ⟨S8x3x514x1, .f32⟩
  | 114 => ⟨S8x3x514x1, .f32⟩
  | 115 => ⟨S8x3x514x513, .f32⟩
  | 116 => ⟨S8x3x514x1, .f32⟩
  | 117 => ⟨S8x3x514x1, .f32⟩
  | 118 => ⟨S8x3x514x1, .f32⟩
  | 119 => ⟨S8x3x514x514, .f32⟩
  | 120 => ⟨S8x3x512x512, .f32⟩
  | 121 => ⟨S8x3x512x512, .f32⟩
  | 122 => ⟨S8x3x512x512, .f32⟩
  | 123 => ⟨S8x3x512x512, .f32⟩
  | 124 => ⟨S8x3x512x512, .f32⟩
  | 125 => ⟨S8x3x512x512, .f32⟩
  | 126 => ⟨S8x3x512x512, .f32⟩
  | 127 => ⟨S_, .f32⟩
  | _ => ⟨S8x3x512x512, .f32⟩

abbrev hbmTy0_1 (i : Nat) : BufTy := match i % 128 with
  | 0 => ⟨S8x512x512, .f32⟩
  | 1 => ⟨S_, .i32⟩
  | 2 => ⟨S8x3x1x512, .f32⟩
  | 3 => ⟨S8x3x1x512, .f32⟩
  | 4 => ⟨S8x3x1x512, .f32⟩
  | 5 => ⟨S8x3x513x512, .f32⟩
  | 6 => ⟨S8x3x1x512, .f32⟩
  | 7 => ⟨S8x3x1x512, .f32⟩
  | 8 => ⟨S8x3x1x512, .f32⟩
  | 9 => ⟨S8x3x514x512, .f32⟩
  | 10 => ⟨S8x3x514x1, .f32⟩
  | 11 => ⟨S8x3x514x1, .f32⟩
  | 12 => ⟨S8x3x514x1, .f32⟩
  | 13 => ⟨S8x3x514x513, .f32⟩
  | 14 => ⟨S8x3x514x1, .f32⟩
  | 15 => ⟨S8x3x514x1, .f32⟩
  | 16 => ⟨S8x3x514x1, .f32⟩
  | 17 => ⟨S8x3x514x514, .f32⟩
  | 18 => ⟨S8x3x512x512, .f32⟩
  | 19 => ⟨S8x3x512x512, .f32⟩
  | 20 => ⟨S8x3x512x512, .f32⟩
  | 21 => ⟨S8x3x512x512, .f32⟩
  | 22 => ⟨S8x3x512x512, .f32⟩
  | 23 => ⟨S8x3x512x512, .f32⟩
  | 24 => ⟨S8x3x512x512, .f32⟩
  | 25 => ⟨S_, .f32⟩
  | 26 => ⟨S8x512x512, .f32⟩
  | 27 => ⟨S_, .f32⟩
  | 28 => ⟨S8x512x512, .f32⟩
  | 29 => ⟨S8x512x512, .i1⟩
  | 30 => ⟨S8x512x512, .f32⟩
  | 31 => ⟨S_, .f32⟩
  | 32 => ⟨S8x512x512, .f32⟩
  | 33 => ⟨S8x512x512, .i1⟩
  | 34 => ⟨S8x512x512, .i1⟩
  | 35 => ⟨S8x1x1x512x512, .i1⟩
  | 36 => ⟨S8x1x1x512x512, .f32⟩
  | 37 => ⟨S_, .f32⟩
  | 38 => ⟨S8x9x3x512x512, .f32⟩
  | 39 => ⟨S8x9x3x512x512, .f32⟩
  | 40 => ⟨S_, .f32⟩
  | 41 => ⟨S8x9x3x512x512, .f32⟩
  | 42 => ⟨S8x9x3x512x512, .f32⟩
  | 43 => ⟨S8x9x3x512x512, .f32⟩
  | 44 => ⟨S8x9x3x512x512, .f32⟩
  | 45 => ⟨S_, .f32⟩
  | 46 => ⟨S8x9x3x512x512, .f32⟩
  | 47 => ⟨S8x9x3x512x512, .f32⟩
  | 48 => ⟨S_, .f32⟩
  | 49 => ⟨S8x9x3x512x512, .f32⟩
  | 50 => ⟨S8x9x3x512x512, .f32⟩
  | 51 => ⟨S8x9x3x512x512, .f32⟩
  | 52 => ⟨S8x9x3x512x512, .f32⟩
  | 53 => ⟨S8x9x3x512x512, .f32⟩
  | 54 => ⟨S8x9x3x512x512, .f32⟩
  | 55 => ⟨S_, .f32⟩
  | 56 => ⟨S8x1x1x512x512, .f32⟩
  | 57 => ⟨S8x1x1x512x512, .f32⟩
  | 58 => ⟨S8x9x3x512x512, .f32⟩
  | 59 => ⟨S8x9x3x512x512, .f32⟩
  | 60 => ⟨S8x9x3x512x512, .f32⟩
  | 61 => ⟨S_, .f32⟩
  | 62 => ⟨S_, .f32⟩
  | 63 => ⟨S_, .f32⟩
  | 64 => ⟨S_, .f32⟩
  | _ => ⟨S8x3x512x512, .f32⟩

abbrev hbmTy (i : Nat) : BufTy := match i / 128 with
  | 0 => hbmTy0_0 i
  | 1 => hbmTy0_1 i
  | _ => ⟨S8x3x512x512, .f32⟩

abbrev bufTy : (tb : Table) → Fin (tcTables nBuf tb) → BufTy
  | .hbm, ⟨i, _⟩ => hbmTy i
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_v14 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_1 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_2 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_3 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_v12 : Ref sig .tc := ⟨.hbm, 116, rfl⟩
abbrev main_call2_v13 : Ref sig .tc := ⟨.hbm, 117, rfl⟩
abbrev main_call2_v14 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_4 : Ref sig .tc := ⟨.hbm, 127, rfl⟩
abbrev main_v74 : Ref sig .tc := ⟨.hbm, 128, rfl⟩
abbrev main_c_5 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_v7 : Ref sig .tc := ⟨.hbm, 137, rfl⟩
abbrev main_call3_v8 : Ref sig .tc := ⟨.hbm, 138, rfl⟩
abbrev main_call3_v9 : Ref sig .tc := ⟨.hbm, 139, rfl⟩
abbrev main_call3_v10 : Ref sig .tc := ⟨.hbm, 140, rfl⟩
abbrev main_call3_v11 : Ref sig .tc := ⟨.hbm, 141, rfl⟩
abbrev main_call3_v12 : Ref sig .tc := ⟨.hbm, 142, rfl⟩
abbrev main_call3_v13 : Ref sig .tc := ⟨.hbm, 143, rfl⟩
abbrev main_call3_v14 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_cst_6 : Ref sig .tc := ⟨.hbm, 153, rfl⟩
abbrev main_v83 : Ref sig .tc := ⟨.hbm, 154, rfl⟩
abbrev main_cst_7 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_cst_8 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_cst_9 : Ref sig .tc := ⟨.hbm, 165, rfl⟩
abbrev main_v92 : Ref sig .tc := ⟨.hbm, 166, rfl⟩
abbrev main_v93 : Ref sig .tc := ⟨.hbm, 167, rfl⟩
abbrev main_cst_10 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_cst_11 : Ref sig .tc := ⟨.hbm, 173, rfl⟩
abbrev main_v98 : Ref sig .tc := ⟨.hbm, 174, rfl⟩
abbrev main_v99 : Ref sig .tc := ⟨.hbm, 175, rfl⟩
abbrev main_cst_12 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_cst_13 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_cst_14 : Ref sig .tc := ⟨.hbm, 189, rfl⟩
abbrev main_v111 : Ref sig .tc := ⟨.hbm, 190, rfl⟩
abbrev main_cst_15 : Ref sig .tc := ⟨.hbm, 191, rfl⟩
abbrev main_v112 : Ref sig .tc := ⟨.hbm, 192, rfl⟩

abbrev nD : Nat := 1
abbrev τ : Topo := Topo.v7x

variable {F : FTy → Type} [FloatOps F]

class Facts₀ : Prop where
  slices_S8x3x512x512_S8x3x1x512_0_0_0_0 : S8x3x512x512.Slices ![0, 0, 0, 0] S8x3x1x512
  slices_S8x3x512x512_S8x3x1x512_0_0_1_0 : S8x3x512x512.Slices ![0, 0, 1, 0] S8x3x1x512
  concatenates_S8x3x1x512_S8x3x512x512_S8x3x513x512_d2 : Shape.Concatenates [S8x3x1x512, S8x3x512x512] S8x3x513x512 2
  slices_S8x3x513x512_S8x3x1x512_0_0_512_0 : S8x3x513x512.Slices ![0, 0, 512, 0] S8x3x1x512
  slices_S8x3x513x512_S8x3x1x512_0_0_511_0 : S8x3x513x512.Slices ![0, 0, 511, 0] S8x3x1x512
  concatenates_S8x3x513x512_S8x3x1x512_S8x3x514x512_d2 : Shape.Concatenates [S8x3x513x512, S8x3x1x512] S8x3x514x512 2
  slices_S8x3x514x512_S8x3x514x1_0_0_0_0 : S8x3x514x512.Slices ![0, 0, 0, 0] S8x3x514x1
  slices_S8x3x514x512_S8x3x514x1_0_0_0_1 : S8x3x514x512.Slices ![0, 0, 0, 1] S8x3x514x1
  concatenates_S8x3x514x1_S8x3x514x512_S8x3x514x513_d3 : Shape.Concatenates [S8x3x514x1, S8x3x514x512] S8x3x514x513 3
  slices_S8x3x514x513_S8x3x514x1_0_0_0_512 : S8x3x514x513.Slices ![0, 0, 0, 512] S8x3x514x1
  slices_S8x3x514x513_S8x3x514x1_0_0_0_511 : S8x3x514x513.Slices ![0, 0, 0, 511] S8x3x514x1
  concatenates_S8x3x514x513_S8x3x514x1_S8x3x514x514_d3 : Shape.Concatenates [S8x3x514x513, S8x3x514x1] S8x3x514x514 3
  slices_S8x3x514x514_S8x3x512x512_0_0_0_0 : S8x3x514x514.Slices ![0, 0, 0, 0] S8x3x512x512
  slices_S8x3x514x514_S8x3x512x512_0_0_1_0 : S8x3x514x514.Slices ![0, 0, 1, 0] S8x3x512x512
  slices_S8x3x514x514_S8x3x512x512_0_0_2_0 : S8x3x514x514.Slices ![0, 0, 2, 0] S8x3x512x512
  slices_S8x3x514x514_S8x3x512x512_0_0_0_1 : S8x3x514x514.Slices ![0, 0, 0, 1] S8x3x512x512
  slices_S8x3x514x514_S8x3x512x512_0_0_1_1 : S8x3x514x514.Slices ![0, 0, 1, 1] S8x3x512x512
  slices_S8x3x514x514_S8x3x512x512_0_0_2_1 : S8x3x514x514.Slices ![0, 0, 2, 1] S8x3x512x512
  slices_S8x3x514x514_S8x3x512x512_0_0_0_2 : S8x3x514x514.Slices ![0, 0, 0, 2] S8x3x512x512
  slices_S8x3x514x514_S8x3x512x512_0_0_1_2 : S8x3x514x514.Slices ![0, 0, 1, 2] S8x3x512x512
  slices_S8x3x514x514_S8x3x512x512_0_0_2_2 : S8x3x514x514.Slices ![0, 0, 2, 2] S8x3x512x512
  bcast_S8x3x512x512_S8x1x3x512x512_0_2_3_4 : S8x3x512x512.BroadcastsInDim S8x1x3x512x512 (![0, 2, 3, 4] : Fin 4 → Fin S8x1x3x512x512.rank)
  concatenates_S8x1x3x512x512_S8x1x3x512x512_S8x1x3x512x512_S8x1x3x512x512_S8x1x3x512x512_S8x1x3x512x512_S8x1x3x512x512_S8x1x3x512x512_S8x1x3x512x512_S8x9x3x512x512_d1 : Shape.Concatenates [S8x1x3x512x512, S8x1x3x512x512, S8x1x3x512x512, S8x1x3x512x512, S8x1x3x512x512, S8x1x3x512x512, S8x1x3x512x512, S8x1x3x512x512, S8x1x3x512x512] S8x9x3x512x512 1
  bcast_S_S8x9x3x512x512 : S_.BroadcastsInDim S8x9x3x512x512 (![] : Fin 0 → Fin S8x9x3x512x512.rank)
  reducesTo_S8x9x3x512x512_S8x9x512x512_d2 : S8x9x3x512x512.ReducesTo [2] S8x9x512x512
  h_S_ : 0 < S_.numel
  bcast_S8x9x512x512_S8x9x1x512x512_0_1_3_4 : S8x9x512x512.BroadcastsInDim S8x9x1x512x512 (![0, 1, 3, 4] : Fin 4 → Fin S8x9x1x512x512.rank)
  bcast_S9_S1x9x1x1x1_1 : S9.BroadcastsInDim S1x9x1x1x1 (![1] : Fin 1 → Fin S1x9x1x1x1.rank)
  reducesTo_S8x3x512x512_S8x512x512_d1 : S8x3x512x512.ReducesTo [1] S8x512x512
  bcast_S_S8x512x512 : S_.BroadcastsInDim S8x512x512 (![] : Fin 0 → Fin S8x512x512.rank)
  bcast_S8x512x512_S8x1x1x512x512_0_3_4 : S8x512x512.BroadcastsInDim S8x1x1x512x512 (![0, 3, 4] : Fin 3 → Fin S8x1x1x512x512.rank)
  bcast_S1x9x1x1x1_S8x9x3x512x512_0_1_2_3_4 : S1x9x1x1x1.BroadcastsInDim S8x9x3x512x512 (![0, 1, 2, 3, 4] : Fin 5 → Fin S8x9x3x512x512.rank)
  bcast_S8x9x1x512x512_S8x9x3x512x512_0_1_2_3_4 : S8x9x1x512x512.BroadcastsInDim S8x9x3x512x512 (![0, 1, 2, 3, 4] : Fin 5 → Fin S8x9x3x512x512.rank)
  bcast_S8x1x1x512x512_S8x9x3x512x512_0_1_2_3_4 : S8x1x1x512x512.BroadcastsInDim S8x9x3x512x512 (![0, 1, 2, 3, 4] : Fin 5 → Fin S8x9x3x512x512.rank)
  bcast_S_S8x1x1x512x512 : S_.BroadcastsInDim S8x1x1x512x512 (![] : Fin 0 → Fin S8x1x1x512x512.rank)
  reducesTo_S8x9x3x512x512_S_d0_1_2_3_4 : S8x9x3x512x512.ReducesTo [0, 1, 2, 3, 4] S_

variable [Facts₀]

class Facts : Prop extends Facts₀ where

variable [Facts]
-- ==== Proof.KernDag.lean ====
/-
  What one grid point of the kernel adds to its accumulator, as a pure function of the two blocks it loads.

  The body reads one block of the smooth stack (`x0`) and one of the original stack (`x1`), pads each by one pixel
  of reflection, forms the two edge responses and the flat mask, and for each of the nine offsets the weighted
  power of the shifted absolute difference summed over the channels; the nine sums are added up. `stepDag` names
  the three values the last addition is made of, in the pieces the body's stores are stated over; `accK` is what
  the body then stores: the accumulator it loaded plus that step sum.
-/
import proofs.«122793_j4587025072325_2_alg».proof.Proof.Gen.KernelIdeal.Skeleton

noncomputable section

namespace Cert.KernelIdeal.Fn

open Idealize.ShloMosaic Cert.KernelIdeal Cert.KernelIdeal.Gen

variable {F : FTy → Type} [FloatOps F] [Facts]

/-- The running sum over the first eight offsets, and the two factors of the ninth offset's product, from
    the smooth block `x0` and the original block `x1`. -/
def stepDag (x0 x1 : Vec F S1x3x512x512 .f32) :
    FVec F S512x512 .f32 × FVec F S3x512x512 .f32 × FVec F S3x512x512 .f32 :=
  let v12 := k0_pay4 x0
  let v18 := k0_pay5 x1
  let v19 := k0_pay6 x0
  let v20 := k0_pay7 x1
  let v40 := k0_pay9 x1
  let v41 := k0_pay10 x0 x1
  let v45 := k0_pay11 v40 v41
  let v72 := k0_pay12 v12 v18 v19 v20 v40 v41
  let v82 := k0_pay13 v18 v20
  let v85 := k0_pay14 v12 v19
  let v86 := k0_pay15 (F := F)
  let v87 := k0_pay16 (F := F)
  let v124 := k0_pay17 v12 v18 v19 v20 v45 v72 v82 v85 v86 v87
  let v129 := k0_pay18 v12 v19
  let v134 := k0_pay19 v18 v20
  let v135 := k0_pay20 (F := F)
  let v176 := k0_pay21 v12 v18 v19 v20 v45 v124 v129 v134 v135
  let v181 := k0_pay22 v12 v19
  let v183 := k0_pay23 v18 v20
  let v228 := k0_pay24 v12 v18 v19 v20 v45 v176 v181 v183
  let v230 := k0_pay25 v18 v20
  (k0_pay26 v12 v19 v45 v228 v230, k0_pay27 v12 v19 v45, k0_pay28 v18 v20 v45)

/-- What the body stores into the accumulator: the accumulator it loaded, `xs0`, plus the point's step sum. -/
def accK (xs0 : Vec F S512x512 .f32) (x0 x1 : Vec F S1x3x512x512 .f32) : FVec F S512x512 .f32 :=
  k0_pay1 (stepDag x0 x1).1 (stepDag x0 x1).2.1 (stepDag x0 x1).2.2 xs0

end Cert.KernelIdeal.Fn

end
-- ==== Proof.KernPieces.lean ====
/-
  What one grid point of the kernel leaves behind, case by case.

  The body's stores cover the buffers they write, so each buffer ends at its store's value. At every point the
  accumulator ends at what it held when the body began plus the point's step sum (`accK`); at a core's first step
  "what it held" is the zero block the body has just stored there; and at a core's last step the one-element output
  block ends at the sum over both axes of the accumulator just stored.
-/
import proofs.«122793_j4587025072325_2_alg».proof.Proof.Gen.KernelIdeal.Frame
import proofs.«122793_j4587025072325_2_alg».proof.Proof.KernDag
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Fn

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Between the first and the last step of a core the body leaves in the accumulator what it held plus the
    point's step sum: its one store covers the buffer, and its loads read the whole buffers. -/
theorem sout_B (c : Dev nD) (i : grid0.Coords) (arg2 : Memref sig .tc .vmem S1x3x512x512 .f32) (harg2 : arg2.IsWhole) (arg3 : Memref sig .tc .vmem S1x3x512x512 .f32) (harg3 : arg3.IsWhole) (arg4 : Memref sig .tc .vmem S1x1x1 .f32) (harg4 : arg4.IsWhole) (arg5 : Memref sig .tc .vmem S512x512 .f32) (harg5 : arg5.IsWhole) (hc0 : ¬cond0_0 i) (hc1 : ¬cond0_1 i)
    (x0 : Vec F S1x3x512x512 .f32) (x1 : Vec F S1x3x512x512 .f32) (xs0 : Vec F S512x512 .f32) :
    sout0_B_0 c i arg2 harg2 arg3 harg3 arg4 harg4 arg5 harg5 hc0 hc1 x0 x1 xs0 = accK xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S512x512) hz2, View.ld_unit_zero (S := S1x3x512x512) hz4]
  rfl

/-- At a core's last step the accumulator is left the same way, -/
theorem sout_C (c : Dev nD) (i : grid0.Coords) (arg2 : Memref sig .tc .vmem S1x3x512x512 .f32) (harg2 : arg2.IsWhole) (arg3 : Memref sig .tc .vmem S1x3x512x512 .f32) (harg3 : arg3.IsWhole) (arg4 : Memref sig .tc .vmem S1x1x1 .f32) (harg4 : arg4.IsWhole) (arg5 : Memref sig .tc .vmem S512x512 .f32) (harg5 : arg5.IsWhole) (hc0 : ¬cond0_0 i) (hc1 : cond0_1 i)
    (x0 : Vec F S1x3x512x512 .f32) (x1 : Vec F S1x3x512x512 .f32) (xs0 : Vec F S512x512 .f32) :
    sout0_C_0 c i arg2 harg2 arg3 harg3 arg4 harg4 arg5 harg5 hc0 hc1 x0 x1 xs0 = accK xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S512x512) hz2, View.ld_unit_zero (S := S1x3x512x512) hz4]
  rfl

/-- and the output block is the sum over both axes of the accumulator just stored (the store is read back). -/
theorem out_C (c : Dev nD) (i : grid0.Coords) (arg2 : Memref sig .tc .vmem S1x3x512x512 .f32) (harg2 : arg2.IsWhole) (arg3 : Memref sig .tc .vmem S1x3x512x512 .f32) (harg3 : arg3.IsWhole) (arg4 : Memref sig .tc .vmem S1x1x1 .f32) (harg4 : arg4.IsWhole) (arg5 : Memref sig .tc .vmem S512x512 .f32) (harg5 : arg5.IsWhole) (hc0 : ¬cond0_0 i) (hc1 : cond0_1 i)
    (x0 : Vec F S1x3x512x512 .f32) (x1 : Vec F S1x3x512x512 .f32) (xs0 : Vec F S512x512 .f32) :
    out0_C_2 c i arg2 harg2 arg3 harg3 arg4 harg4 arg5 harg5 hc0 hc1 x0 x1 xs0 = k0_pay2 (accK xs0 x0 x1) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S512x512) _ hz2]
  simp only [View.readAt_eq_ld, harg2.read_unread, harg3.read_unread, harg5.read_unread,
    View.ld_unit_zero (S := S512x512) hz2, View.ld_unit_zero (S := S1x3x512x512) hz4]
  rfl

/-- At a core's first step the accumulator is first zeroed: the body leaves the zero block plus the step sum. -/
theorem sout_A (c : Dev nD) (i : grid0.Coords) (arg2 : Memref sig .tc .vmem S1x3x512x512 .f32) (harg2 : arg2.IsWhole) (arg3 : Memref sig .tc .vmem S1x3x512x512 .f32) (harg3 : arg3.IsWhole) (arg4 : Memref sig .tc .vmem S1x1x1 .f32) (harg4 : arg4.IsWhole) (arg5 : Memref sig .tc .vmem S512x512 .f32) (harg5 : arg5.IsWhole) (hc0 : cond0_0 i) (hc1 : ¬cond0_1 i)
    (x0 : Vec F S1x3x512x512 .f32) (x1 : Vec F S1x3x512x512 .f32) :
    sout0_A_0 c i arg2 harg2 arg3 harg3 arg4 harg4 arg5 harg5 hc0 hc1 x0 x1 = accK (k0_pay3 (F := F)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x512) hz2, View.readCov_unit_zero (S := S512x512) _ hz2]
  simp only [View.readAt_eq_ld, harg2.read_unread, harg3.read_unread, harg5.read_unread,
    View.ld_unit_zero (S := S512x512) hz2, View.ld_unit_zero (S := S1x3x512x512) hz4]
  rfl

end Cert.KernelIdeal.Value
end
-- ==== Proof.Spec.lean ====
/-
  The loss both programs compute, as one function of the two image stacks, element by element over the extended reals.

  For an image stack `x : [8, 3, 512, 512]`, a batch member `b`, a channel `c`, a pixel `(h, w)` and an offset
  `o = (o.1, o.2) ∈ {0,1,2}²` (the shift `(o.1 - 1, o.2 - 1)`), the neighbour of the pixel is the entry of the
  image padded by one pixel of reflection on each side of its two last axes: padded row `k` is source row
  `refl k`, with `refl 0 = 1`, `refl 513 = 510` and `refl k = k - 1` between. `dif` is the pixel minus that
  neighbour. The edge response `edge` sums over the channels the squares of the differences to the neighbour below
  and to the neighbour on the right. A pixel is FLAT (`flat`) when the original's edge response is below one and the
  smooth image's exceeds it by more than one. The colour weight `wr` of an offset is the exponential of minus
  one half of the summed squared differences of the original. The value of one (offset, channel, pixel) is
  the weight — the offset's Gaussian constant on a flat pixel, the colour weight elsewhere — times
  `(|Δ smooth| + ε)` raised to the power 2 on a flat pixel and 0.8 elsewhere, the power written as
  `exp (p · log ·)`. The loss is the sum of all of them divided by their number, 8 · 9 · 3 · 512 · 512.
  Every constant is kept as the word both programs print.
-/
import Idealize.ShloMosaic.PureOps.Ideal
import Idealize.ShloMosaic.Lib.ValueIdx

noncomputable section

open scoped BigOperators

namespace Cert.Smooth

open Idealize.ShloMosaic Idealize.ShloMosaic.ValueIdx

/-- The shape of an image stack. -/
abbrev SImg : Shape := ⟨4, ![8, 3, 512, 512]⟩

/-- An image stack at the ideal instance: an extended real per index. -/
abbrev Img : Type := FVec Ideal SImg .f32

/-- Reflection padding by one: the source coordinate of padded coordinate `k`. -/
def refl (k : Fin 514) : Fin 512 :=
  ⟨if k.val = 0 then 1 else if k.val = 513 then 510 else k.val - 1, by
    have := k.isLt; split_ifs <;> omega⟩

/-- The neighbour of pixel `(h, w)` at offset `o` in the reflection-padded image. -/
def nbr (x : Img) (o : Fin 3 × Fin 3) (b : Fin 8) (c : Fin 3) (h w : Fin 512) : EReal :=
  x (ix4 b c (refl ⟨h.val + o.1.val, by have := h.isLt; have := o.1.isLt; omega⟩)
    (refl ⟨w.val + o.2.val, by have := w.isLt; have := o.2.isLt; omega⟩))

/-- The pixel minus its neighbour at offset `o`. -/
def dif (x : Img) (o : Fin 3 × Fin 3) (b : Fin 8) (c : Fin 3) (h w : Fin 512) : EReal :=
  x (ix4 b c h w) - nbr x o b c h w

/-- minus one half -/
def cHalf : EReal := Ideal.ofBits .f32 0xBF000000#32
/-- the small shift ε -/
def cEps : EReal := Ideal.ofBits .f32 0x322BCC77#32
/-- the exponent on flat pixels, two -/
def cTwo : EReal := Ideal.ofBits .f32 0x40000000#32
/-- the exponent elsewhere, the word nearest 0.8 -/
def cP : EReal := Ideal.ofBits .f32 0x3F4CCCCD#32
/-- one -/
def cOne : EReal := Ideal.ofBits .f32 0x3F800000#32
/-- the number of summands, 8 · 9 · 3 · 512 · 512 -/
def cN : EReal := Ideal.ofBits .f32 0x4C580000#32

/-- The Gaussian constant of an offset: the words nearest `exp (-(dr² + dc²)/2)` for the shift `(dr, dc)`. -/
def wsLit (o : Fin 3 × Fin 3) : EReal :=
  if o.1.val = 1 ∧ o.2.val = 1 then Ideal.ofBits .f32 0x3F800000#32
  else if o.1.val = 1 ∨ o.2.val = 1 then Ideal.ofBits .f32 0x3F1B4598#32
  else Ideal.ofBits .f32 0x3EBC5AB2#32

/-- The summed squared differences over the channels at one offset. -/
def sq (x : Img) (o : Fin 3 × Fin 3) (b : Fin 8) (h w : Fin 512) : EReal :=
  ∑ c : Fin 3, dif x o b c h w * dif x o b c h w

/-- The edge response: the neighbour below and the neighbour on the right. -/
def edge (x : Img) (b : Fin 8) (h w : Fin 512) : EReal :=
  sq x (2, 1) b h w + sq x (1, 2) b h w

/-- A flat pixel: the original's edge response below one, the smooth image's more than one above it. -/
def flat (x y : Img) (b : Fin 8) (h w : Fin 512) : Bool :=
  decide (edge x b h w < cOne) && decide (cOne < edge y b h w - edge x b h w)

/-- The colour weight of an offset. -/
def wr (x : Img) (o : Fin 3 × Fin 3) (b : Fin 8) (h w : Fin 512) : EReal :=
  Ideal.exp (cHalf * sq x o b h w)

/-- The absolute difference of the smooth image, shifted by ε. -/
def base (y : Img) (o : Fin 3 × Fin 3) (b : Fin 8) (c : Fin 3) (h w : Fin 512) : EReal :=
  max (dif y o b c h w) (-(dif y o b c h w)) + cEps

/-- One summand: `x` the original stack, `y` the smooth one. -/
def val (x y : Img) (o : Fin 3 × Fin 3) (b : Fin 8) (c : Fin 3) (h w : Fin 512) : EReal :=
  (if flat x y b h w then wsLit o else wr x o b h w)
    * Ideal.exp ((if flat x y b h w then cTwo else cP) * Ideal.log (base y o b c h w))

/-- All offsets and channels of one pixel. -/
def pix (x y : Img) (b : Fin 8) (h w : Fin 512) : EReal :=
  ∑ o : Fin 3 × Fin 3, ∑ c : Fin 3, val x y o b c h w

/-- Everything. -/
def total (x y : Img) : EReal :=
  ∑ b : Fin 8, ∑ h : Fin 512, ∑ w : Fin 512, pix x y b h w

/-- The loss. -/
def loss (x y : Img) : EReal := Ideal.div (total x y) cN

end Cert.Smooth

end
-- ==== Proof.KernMirror.lean ====
/-
  One grid point of the kernel as a plain function of the two blocks it loads.

  `padK` pads an image of shape [3, 512, 512] by one pixel of reflection on each side of its two last axes, by
  concatenation: first the rows (row 1 above, row 510 below), then the columns of the result (column 1 on the
  left, column 510 on the right). `edgeK` is the edge response of a padded image and its centre: the channel sums
  of the squared differences to the neighbour below and to the neighbour on the right, added. `maskK` is the flat
  mask of the two edge responses. `offK` is one offset's term: the weight — the offset's constant on the mask, the
  exponential of minus one half of the original's summed squared differences elsewhere — times
  `exp (p · log (|Δ smooth| + ε))`, summed over the channel. `stepK` adds the nine terms onto zero, in the order
  (0,0), (0,1), …, (2,2). The last theorem says that what the body stores into its accumulator is the accumulator
  it loaded plus `stepK`.
-/
import proofs.«122793_j4587025072325_2_alg».proof.Proof.KernDag

noncomputable section

namespace Cert.KernelIdeal.Fn

open Idealize.ShloMosaic Cert.KernelIdeal Cert.KernelIdeal.Gen

variable {F : FTy → Type} [FloatOps F] [Facts]

/-- Reflection padding by one pixel of the two last axes, rows first. -/
def padK (v : FVec F S3x512x512 .f32) : FVec F S3x514x514 .f32 :=
  concatenate S3x514x514 2
    [⟨S3x514x1, extractStridedSlice S3x514x1 ![0, 0, 1]
        (concatenate S3x514x512 1
          [⟨S3x1x512, extractStridedSlice S3x1x512 ![0, 1, 0] v slices_S3x512x512_o0_1_0_S3x1x512⟩,
           ⟨S3x512x512, v⟩,
           ⟨S3x1x512, extractStridedSlice S3x1x512 ![0, 510, 0] v slices_S3x512x512_o0_510_0_S3x1x512⟩]
          concatenates_S3x1x512_S3x512x512_S3x1x512_S3x514x512_d1)
        slices_S3x514x512_o0_0_1_S3x514x1⟩,
     ⟨S3x514x512,
        concatenate S3x514x512 1
          [⟨S3x1x512, extractStridedSlice S3x1x512 ![0, 1, 0] v slices_S3x512x512_o0_1_0_S3x1x512⟩,
           ⟨S3x512x512, v⟩,
           ⟨S3x1x512, extractStridedSlice S3x1x512 ![0, 510, 0] v slices_S3x512x512_o0_510_0_S3x1x512⟩]
          concatenates_S3x1x512_S3x512x512_S3x1x512_S3x514x512_d1⟩,
     ⟨S3x514x1, extractStridedSlice S3x514x1 ![0, 0, 510]
        (concatenate S3x514x512 1
          [⟨S3x1x512, extractStridedSlice S3x1x512 ![0, 1, 0] v slices_S3x512x512_o0_1_0_S3x1x512⟩,
           ⟨S3x512x512, v⟩,
           ⟨S3x1x512, extractStridedSlice S3x1x512 ![0, 510, 0] v slices_S3x512x512_o0_510_0_S3x1x512⟩]
          concatenates_S3x1x512_S3x512x512_S3x1x512_S3x514x512_d1)
        slices_S3x514x512_o0_0_510_S3x514x1⟩]
    concatenates_S3x514x1_S3x514x512_S3x514x1_S3x514x514_d2

/-- The window of a padded image at the offsets `o`. -/
def sliceK (o : Fin 3 → ℕ) (hs : S3x514x514.Slices o S3x512x512) (p : FVec F S3x514x514 .f32) :
    FVec F S3x512x512 .f32 :=
  extractStridedSlice S3x512x512 o p hs

/-- The channel sum of the squared difference of the centre and the window at `o`. -/
def sqK (o : Fin 3 → ℕ) (hs : S3x514x514.Slices o S3x512x512) (p : FVec F S3x514x514 .f32)
    (c : FVec F S3x512x512 .f32) : FVec F S512x512 .f32 :=
  multiReduction .add [0] S512x512 (mulf (subf c (sliceK o hs p)) (subf c (sliceK o hs p))) 0x00000000#32
    reduces_S3x512x512_S512x512 (.inl rfl) rfl

/-- The edge response: the neighbour below and the neighbour on the right. -/
def edgeK (p : FVec F S3x514x514 .f32) (c : FVec F S3x512x512 .f32) : FVec F S512x512 .f32 :=
  addf (sqK ![0, 2, 1] slices_S3x514x514_o0_2_1_S3x512x512 p c)
    (sqK ![0, 1, 2] slices_S3x514x514_o0_1_2_S3x512x512 p c)

/-- The flat mask: the original's edge response `eo` below one, the smooth image's `es` more than one above it. -/
def maskK (eo es : FVec F S512x512 .f32) : IVec S1x512x512 1 :=
  shapeCast S1x512x512
    (andi (cmpf .olt eo (broadcast S512x512 (Scalar.ofBits .f32 0x3F800000#32)))
      (cmpf .ogt (subf es eo) (broadcast S512x512 (Scalar.ofBits .f32 0x3F800000#32))))
    shapeCasts_S512x512_S1x512x512

/-- The colour weight of an offset: the exponential of minus one half of the summed squared differences. -/
def wrK (o : Fin 3 → ℕ) (hs : S3x514x514.Slices o S3x512x512) (opad : FVec F S3x514x514 .f32)
    (oc : FVec F S3x512x512 .f32) : FVec F S512x512 .f32 :=
  exp (mulf (broadcast S512x512 (Scalar.ofBits .f32 0xBF000000#32)) (sqK o hs opad oc))

/-- The logarithm of the shifted absolute difference of the smooth image at an offset. -/
def lgK (o : Fin 3 → ℕ) (hs : S3x514x514.Slices o S3x512x512) (spad : FVec F S3x514x514 .f32)
    (sc : FVec F S3x512x512 .f32) : FVec F S3x512x512 .f32 :=
  log (addf (absf (subf sc (sliceK o hs spad))) (broadcast S3x512x512 (Scalar.ofBits .f32 0x322BCC77#32)))

/-- The power factor `exp (p · log ·)`, the exponent chosen by the mask. -/
def powK (m : IVec S1x512x512 1) (lg : FVec F S3x512x512 .f32) : FVec F S3x512x512 .f32 :=
  exp (mulf
    (broadcastTo S3x512x512
      (select m (broadcast S1x512x512 (Scalar.ofBits .f32 0x40000000#32))
        (broadcast S1x512x512 (Scalar.ofBits .f32 0x3F4CCCCD#32)))
      broadcasts_S1x512x512_S3x512x512)
    lg)

/-- The weight factor: the constant `wsw` on the mask, the colour weight elsewhere. -/
def wgtK (wsw : BitVec 32) (m : IVec S1x512x512 1) (wr : FVec F S512x512 .f32) : FVec F S3x512x512 .f32 :=
  broadcastTo S3x512x512
    (select m (broadcast S1x512x512 (Scalar.ofBits .f32 wsw))
      (shapeCast S1x512x512 wr shapeCasts_S512x512_S1x512x512))
    broadcasts_S1x512x512_S3x512x512

/-- One offset's term, summed over the channel. -/
def offK (o : Fin 3 → ℕ) (hs : S3x514x514.Slices o S3x512x512) (wsw : BitVec 32)
    (spad opad : FVec F S3x514x514 .f32) (sc oc : FVec F S3x512x512 .f32) (m : IVec S1x512x512 1) :
    FVec F S512x512 .f32 :=
  multiReduction .add [0] S512x512
    (mulf (wgtK wsw m (wrK o hs opad oc)) (powK m (lgK o hs spad sc))) 0x00000000#32
    reduces_S3x512x512_S512x512 (.inl rfl) rfl

/-- The nine terms added onto zero, from the two padded images, their centres and the mask. -/
def sumK (spad opad : FVec F S3x514x514 .f32) (sc oc : FVec F S3x512x512 .f32) (m : IVec S1x512x512 1) :
    FVec F S512x512 .f32 :=
  addf (addf (addf (addf (addf (addf (addf (addf (addf
    (broadcast S512x512 (Scalar.ofBits .f32 0x00000000#32))
    (offK ![0, 0, 0] slices_S3x514x514_o0_0_0_S3x512x512 0x3EBC5AB2#32 spad opad sc oc m))
    (offK ![0, 0, 1] slices_S3x514x514_o0_0_1_S3x512x512 0x3F1B4598#32 spad opad sc oc m))
    (offK ![0, 0, 2] slices_S3x514x514_o0_0_2_S3x512x512 0x3EBC5AB2#32 spad opad sc oc m))
    (offK ![0, 1, 0] slices_S3x514x514_o0_1_0_S3x512x512 0x3F1B4598#32 spad opad sc oc m))
    (offK ![0, 1, 1] slices_S3x514x514_o0_1_1_S3x512x512 0x3F800000#32 spad opad sc oc m))
    (offK ![0, 1, 2] slices_S3x514x514_o0_1_2_S3x512x512 0x3F1B4598#32 spad opad sc oc m))
    (offK ![0, 2, 0] slices_S3x514x514_o0_2_0_S3x512x512 0x3EBC5AB2#32 spad opad sc oc m))
    (offK ![0, 2, 1] slices_S3x514x514_o0_2_1_S3x512x512 0x3F1B4598#32 spad opad sc oc m))
    (offK ![0, 2, 2] slices_S3x514x514_o0_2_2_S3x512x512 0x3EBC5AB2#32 spad opad sc oc m)

/-- The padded smooth image of a grid point, from the block `x0` it loads. -/
def spadK (x0 : Vec F S1x3x512x512 .f32) : FVec F S3x514x514 .f32 :=
  padK (shapeCast S3x512x512 x0 shapeCasts_S1x3x512x512_S3x512x512)

/-- The centre of a padded image. -/
def ctrK (p : FVec F S3x514x514 .f32) : FVec F S3x512x512 .f32 :=
  sliceK ![0, 1, 1] slices_S3x514x514_o0_1_1_S3x512x512 p

/-- What one grid point adds to the accumulator: `x0` the smooth block, `x1` the original block. -/
def stepK (x0 x1 : Vec F S1x3x512x512 .f32) : FVec F S512x512 .f32 :=
  sumK (spadK x0) (spadK x1) (ctrK (spadK x0)) (ctrK (spadK x1))
    (maskK (edgeK (spadK x1) (ctrK (spadK x1)))
      (edgeK (spadK x0) (ctrK (spadK x0))))

/-- What the body stores into the accumulator is the accumulator it loaded plus the step sum: both sides are the
    same tree of operations. -/
theorem accK_eq (xs0 : Vec F S512x512 .f32) (x0 x1 : Vec F S1x3x512x512 .f32) :
    accK xs0 x0 x1 = shapeCast S512x512 (addf xs0 (stepK x0 x1)) shapeCasts_S512x512_S512x512 := rfl

end Cert.KernelIdeal.Fn

end
-- ==== Proof.KernReadPad.lean ====
/-
  The kernel's reflection pad, read entry by entry.

  The body pads an image of shape [3, 512, 512] by concatenating, along the rows, its row 1, the image and its row
  510, and then, along the columns of that, its column 1, itself and its column 510. Read at an entry `(c, r, s)` of
  the [3, 514, 514] result this is the image at `(c, refl r, refl s)`, where `refl` sends `0` to `1`, `513` to
  `510` and every other `k` to `k - 1`: in each concatenation the coordinate along the axis falls in the first piece
  (coordinate `0`), in the last (coordinate `513`) or in the middle one.
-/
import proofs.«122793_j4587025072325_2_alg».proof.Proof.Spec
import proofs.«122793_j4587025072325_2_alg».proof.Proof.KernMirror
import Idealize.ShloMosaic.Lib.ValueLayout
import Idealize.ShloMosaic.PureOps.Ideal.Laws

noncomputable section

open scoped BigOperators

namespace Cert.KernelIdeal.Fn

open Idealize.ShloMosaic Idealize.ShloMosaic.ValueIdx Cert.KernelIdeal Cert.KernelIdeal.Gen Cert.Smooth

variable [Facts]

/-! ## The padded image at an index -/

/-- The image with its rows padded: row 1 above, the image, row 510 below. -/
def rowsK (v : FVec Ideal S3x512x512 .f32) : FVec Ideal S3x514x512 .f32 :=
  concatenate S3x514x512 1
    [⟨S3x1x512, extractStridedSlice S3x1x512 ![0, 1, 0] v slices_S3x512x512_o0_1_0_S3x1x512⟩,
     ⟨S3x512x512, v⟩,
     ⟨S3x1x512, extractStridedSlice S3x1x512 ![0, 510, 0] v slices_S3x512x512_o0_510_0_S3x1x512⟩]
    concatenates_S3x1x512_S3x512x512_S3x1x512_S3x514x512_d1

/-- The padding reflects: padded coordinate `0` comes from source coordinate `1`, … -/
theorem refl_zero (k : Fin 514) (h : k.val = 0) : refl k = (1 : Fin 512) := by
  apply Fin.ext
  show (if k.val = 0 then 1 else if k.val = 513 then 510 else k.val - 1) = 1
  rw [if_pos h]

/-- … padded coordinate `513` from source coordinate `510`, … -/
theorem refl_last (k : Fin 514) (h : k.val = 513) : refl k = (510 : Fin 512) := by
  apply Fin.ext
  show (if k.val = 0 then 1 else if k.val = 513 then 510 else k.val - 1) = 510
  rw [if_neg (by omega), if_pos h]

/-- … and the ones between from the coordinate one less. -/
theorem refl_mid (k : Fin 514) (h0 : ¬k.val = 0) (h1 : ¬k.val = 513) (hk : k.val - 1 < 512) :
    refl k = (⟨k.val - 1, hk⟩ : Fin 512) := by
  apply Fin.ext
  show (if k.val = 0 then 1 else if k.val = 513 then 510 else k.val - 1) = k.val - 1
  rw [if_neg h0, if_neg h1]

/-- Padded row `r` is source row `refl r`. -/
theorem rowsK_apply (v : FVec Ideal S3x512x512 .f32) (c : Fin 3) (r : Fin 514) (w : Fin 512) :
    rowsK v (ix3 c r w) = v (ix3 c (refl r) w) := by
  unfold rowsK
  by_cases h0 : r.val = 0
  · refine (concatenate_apply_piece _ _ _ (ix3 c r w) 0 (by show (0 : ℕ) < 3; omega) S3x1x512 _ rfl rfl 0 rfl
      (ix3 c (0 : Fin 1) w) ?_ ?_).trans ?_
    · intro b hb
      match b with
      | ⟨0, _⟩ => rfl
      | ⟨1, _⟩ => exact absurd rfl hb
      | ⟨2, _⟩ => rfl
    · show 0 + 0 = r.val
      omega
    · refine (extractStridedSlice_apply _ v _ (ix3 c (0 : Fin 1) w) (ix3 c (1 : Fin 512) w) ?_).trans ?_
      · intro a
        match a with
        | ⟨0, _⟩ => show c.val = 0 + c.val; omega
        | ⟨1, _⟩ => rfl
        | ⟨2, _⟩ => show w.val = 0 + w.val; omega
      · rw [refl_zero r h0]
  · by_cases h1 : r.val = 513
    · refine (concatenate_apply_piece _ _ _ (ix3 c r w) 2 (by show (2 : ℕ) < 3; omega) S3x1x512 _ rfl rfl 513 rfl
        (ix3 c (0 : Fin 1) w) ?_ ?_).trans ?_
      · intro b hb
        match b with
        | ⟨0, _⟩ => rfl
        | ⟨1, _⟩ => exact absurd rfl hb
        | ⟨2, _⟩ => rfl
      · show 513 + 0 = r.val
        omega
      · refine (extractStridedSlice_apply _ v _ (ix3 c (0 : Fin 1) w) (ix3 c (510 : Fin 512) w) ?_).trans ?_
        · intro a
          match a with
          | ⟨0, _⟩ => show c.val = 0 + c.val; omega
          | ⟨1, _⟩ => rfl
          | ⟨2, _⟩ => show w.val = 0 + w.val; omega
        · rw [refl_last r h1]
    · have hk : r.val - 1 < 512 := by have := r.isLt; omega
      refine (concatenate_apply_piece _ _ _ (ix3 c r w) 1 (by show (1 : ℕ) < 3; omega) S3x512x512 _ rfl rfl 1 rfl
        (ix3 c (⟨r.val - 1, hk⟩ : Fin 512) w) ?_ ?_).trans ?_
      · intro b hb
        match b with
        | ⟨0, _⟩ => rfl
        | ⟨1, _⟩ => exact absurd rfl hb
        | ⟨2, _⟩ => rfl
      · show 1 + (r.val - 1) = r.val
        omega
      · rw [refl_mid r h0 h1 hk]

/-- The padded image is the row-padded one with its columns padded: column 1 on the left, column 510 on the right. -/
theorem padK_eq (v : FVec Ideal S3x512x512 .f32) :
    padK v = concatenate S3x514x514 2
      [⟨S3x514x1, extractStridedSlice S3x514x1 ![0, 0, 1] (rowsK v) slices_S3x514x512_o0_0_1_S3x514x1⟩,
       ⟨S3x514x512, rowsK v⟩,
       ⟨S3x514x1, extractStridedSlice S3x514x1 ![0, 0, 510] (rowsK v) slices_S3x514x512_o0_0_510_S3x514x1⟩]
      concatenates_S3x514x1_S3x514x512_S3x514x1_S3x514x514_d2 := rfl

/-- The padded image at `(c, r, s)` is the image at `(c, refl r, refl s)`. -/
theorem padK_apply (v : FVec Ideal S3x512x512 .f32) (c : Fin 3) (r s : Fin 514) :
    padK v (ix3 c r s) = v (ix3 c (refl r) (refl s)) := by
  refine (congrFun (padK_eq v) (ix3 c r s)).trans ?_
  by_cases h0 : s.val = 0
  · refine (concatenate_apply_piece _ _ _ (ix3 c r s) 0 (by show (0 : ℕ) < 3; omega) S3x514x1 _ rfl rfl 0 rfl
      (ix3 c r (0 : Fin 1)) ?_ ?_).trans ?_
    · intro b hb
      match b with
      | ⟨0, _⟩ => rfl
      | ⟨1, _⟩ => rfl
      | ⟨2, _⟩ => exact absurd rfl hb
    · show 0 + 0 = s.val
      omega
    · refine (extractStridedSlice_apply _ (rowsK v) _ (ix3 c r (0 : Fin 1)) (ix3 c r (1 : Fin 512)) ?_).trans ?_
      · intro a
        match a with
        | ⟨0, _⟩ => show c.val = 0 + c.val; omega
        | ⟨1, _⟩ => show r.val = 0 + r.val; omega
        | ⟨2, _⟩ => rfl
      · rw [rowsK_apply, refl_zero s h0]
  · by_cases h1 : s.val = 513
    · refine (concatenate_apply_piece _ _ _ (ix3 c r s) 2 (by show (2 : ℕ) < 3; omega) S3x514x1 _ rfl rfl 513 rfl
        (ix3 c r (0 : Fin 1)) ?_ ?_).trans ?_
      · intro b hb
        match b with
        | ⟨0, _⟩ => rfl
        | ⟨1, _⟩ => rfl
        | ⟨2, _⟩ => exact absurd rfl hb
      · show 513 + 0 = s.val
        omega
      · refine (extractStridedSlice_apply _ (rowsK v) _ (ix3 c r (0 : Fin 1)) (ix3 c r (510 : Fin 512)) ?_).trans ?_
        · intro a
          match a with
          | ⟨0, _⟩ => show c.val = 0 + c.val; omega
          | ⟨1, _⟩ => show r.val = 0 + r.val; omega
          | ⟨2, _⟩ => rfl
        · rw [rowsK_apply, refl_last s h1]
    · have hk : s.val - 1 < 512 := by have := s.isLt; omega
      refine (concatenate_apply_piece _ _ _ (ix3 c r s) 1 (by show (1 : ℕ) < 3; omega) S3x514x512 _ rfl rfl 1 rfl
        (ix3 c r (⟨s.val - 1, hk⟩ : Fin 512)) ?_ ?_).trans ?_
      · intro b hb
        match b with
        | ⟨0, _⟩ => rfl
        | ⟨1, _⟩ => rfl
        | ⟨2, _⟩ => exact absurd rfl hb
      · show 1 + (s.val - 1) = s.val
        omega
      · rw [rowsK_apply, refl_mid s h0 h1 hk]

end Cert.KernelIdeal.Fn

end
-- ==== Proof.KernRead.lean ====
/-
  One grid point of the kernel read entry by entry, at the extended reals, against the specification.

  The block a grid point loads from the smooth stack is batch member `b` of that stack, the block it loads from the
  original stack is batch member `b` of the original one. The padded images are then the stacks read through the
  reflection `refl`, their centres the images themselves, a window of a padded image at the offsets `(0, p.1, p.2)`
  the neighbour of each pixel at the offset `p`. So the centre minus the window is the specification's difference
  `dif`, its square summed over the channel is `sq`, the two edge responses are `edge`, the mask is the bit of
  `flat`, and one offset's term at a pixel is the sum over the three channels of the specification's summand `val`:
  the selects on the mask are the `if`s of `val`, the channel reduction a sum over `Fin 3`. Adding the nine terms
  onto zero gives the sum over the nine offsets, the specification's `pix`. What the body stores into the
  accumulator is therefore what it loaded there plus `pix`; the value it stores at the first step of a core is zero;
  and at the last step it stores the sum of the accumulator over both axes.
-/
import proofs.«122793_j4587025072325_2_alg».proof.Proof.KernReadPad
import Idealize.ShloMosaic.Lib.WordArith

noncomputable section

open scoped BigOperators

namespace Cert.KernelIdeal.Fn

open Idealize.ShloMosaic Idealize.ShloMosaic.ValueIdx Cert.KernelIdeal Cert.KernelIdeal.Gen Cert.Smooth

variable [Facts]

/-! ## Windows of a padded image, and the channel sum -/

/-- The window at the offsets `(0, p.1, p.2)` of a padded image reads it shifted by `(p.1, p.2)`. -/
theorem sliceK_apply (o : Fin 3 → ℕ) (hs : S3x514x514.Slices o S3x512x512) (p : Fin 3 × Fin 3)
    (h0 : o 0 = 0) (h1 : o 1 = p.1.val) (h2 : o 2 = p.2.val) (P : FVec Ideal S3x514x514 .f32)
    (c : Fin 3) (h w : Fin 512) :
    sliceK o hs P (ix3 c h w)
      = P (ix3 c (⟨h.val + p.1.val, by have := h.isLt; have := p.1.isLt; omega⟩ : Fin 514)
          (⟨w.val + p.2.val, by have := w.isLt; have := p.2.isLt; omega⟩ : Fin 514)) := by
  unfold sliceK
  refine extractStridedSlice_apply o P hs (ix3 c h w) _ ?_
  intro a
  match a with
  | ⟨0, _⟩ => show c.val = o 0 + c.val; rw [h0]; omega
  | ⟨1, _⟩ => show h.val + p.1.val = o 1 + h.val; rw [h1]; omega
  | ⟨2, _⟩ => show w.val + p.2.val = o 2 + w.val; rw [h2]; omega

/-- A `vector.multi_reduction <add>` over the channel axis, at a pixel, is the sum over the three channels. -/
theorem chan_apply (src : FVec Ideal S3x512x512 .f32) (h w : Fin 512) :
    multiReduction .add [0] S512x512 src 0x00000000#32 reduces_S3x512x512_S512x512 (.inl rfl) rfl (ix2 h w)
      = ∑ c : Fin 3, src (ix3 c h w) := by
  refine (Ideal.multiReduction_add_single src _ _ _ _ (ix2 h w)).trans ?_
  refine Finset.sum_congr rfl fun c _ => congrArg src (funext fun a => ?_)
  match a with
  | ⟨0, _⟩ => rfl
  | ⟨1, _⟩ => rfl
  | ⟨2, _⟩ => rfl

/-! ## One image: its pad, its centre, its differences

`P` is the padded image of batch member `b` of the stack `Z`, `C` its centre. -/

section OneImage
variable (Z : Img) (b : Fin 8) (P : FVec Ideal S3x514x514 .f32) (C : FVec Ideal S3x512x512 .f32)
  (hP : ∀ (c : Fin 3) (r s : Fin 514), P (ix3 c r s) = Z (ix4 b c (refl r) (refl s)))
  (hC : ∀ (c : Fin 3) (h w : Fin 512), C (ix3 c h w) = Z (ix4 b c h w))
  (o : Fin 3 → ℕ) (hs : S3x514x514.Slices o S3x512x512) (p : Fin 3 × Fin 3)
  (h0 : o 0 = 0) (h1 : o 1 = p.1.val) (h2 : o 2 = p.2.val)

include hP h0 h1 h2 in
/-- The window at an offset is the neighbour at that offset. -/
theorem sliceK_nbr (c : Fin 3) (h w : Fin 512) : sliceK o hs P (ix3 c h w) = nbr Z p b c h w :=
  (sliceK_apply o hs p h0 h1 h2 P c h w).trans (hP c _ _)

include hP hC h0 h1 h2 in
/-- The centre minus the window is the pixel minus its neighbour. -/
theorem subK_dif (c : Fin 3) (h w : Fin 512) : subf C (sliceK o hs P) (ix3 c h w) = dif Z p b c h w := by
  show C (ix3 c h w) - sliceK o hs P (ix3 c h w) = Z (ix4 b c h w) - nbr Z p b c h w
  rw [hC, sliceK_nbr Z b P hP o hs p h0 h1 h2]

include hP hC h0 h1 h2 in
/-- The channel sum of the squared differences. -/
theorem sqK_apply (h w : Fin 512) : sqK o hs P C (ix2 h w) = sq Z p b h w := by
  unfold sqK
  refine (chan_apply _ h w).trans (Finset.sum_congr rfl fun c _ => ?_)
  show subf C (sliceK o hs P) (ix3 c h w) * subf C (sliceK o hs P) (ix3 c h w) = dif Z p b c h w * dif Z p b c h w
  rw [subK_dif Z b P C hP hC o hs p h0 h1 h2]

include hP hC h0 h1 h2 in
/-- The colour weight. -/
theorem wrK_apply (h w : Fin 512) : wrK o hs P C (ix2 h w) = wr Z p b h w := by
  show Ideal.exp (Ideal.ofBits .f32 0xBF000000#32 * sqK o hs P C (ix2 h w)) = Ideal.exp (cHalf * sq Z p b h w)
  rw [sqK_apply Z b P C hP hC o hs p h0 h1 h2]
  rfl

include hP hC h0 h1 h2 in
/-- The logarithm of the shifted absolute difference. -/
theorem lgK_apply (c : Fin 3) (h w : Fin 512) : lgK o hs P C (ix3 c h w) = Ideal.log (base Z p b c h w) := by
  show Ideal.log (max (subf C (sliceK o hs P) (ix3 c h w)) (-(subf C (sliceK o hs P) (ix3 c h w)))
      + Ideal.ofBits .f32 0x322BCC77#32) = Ideal.log (max (dif Z p b c h w) (-(dif Z p b c h w)) + cEps)
  rw [subK_dif Z b P C hP hC o hs p h0 h1 h2]
  rfl

end OneImage

section Edge
variable (Z : Img) (b : Fin 8) (P : FVec Ideal S3x514x514 .f32) (C : FVec Ideal S3x512x512 .f32)
  (hP : ∀ (c : Fin 3) (r s : Fin 514), P (ix3 c r s) = Z (ix4 b c (refl r) (refl s)))
  (hC : ∀ (c : Fin 3) (h w : Fin 512), C (ix3 c h w) = Z (ix4 b c h w))

include hP hC in
/-- The edge response. -/
theorem edgeK_apply (h w : Fin 512) : edgeK P C (ix2 h w) = edge Z b h w := by
  show sqK ![0, 2, 1] slices_S3x514x514_o0_2_1_S3x512x512 P C (ix2 h w)
      + sqK ![0, 1, 2] slices_S3x514x514_o0_1_2_S3x512x512 P C (ix2 h w) = sq Z (2, 1) b h w + sq Z (1, 2) b h w
  rw [sqK_apply Z b P C hP hC ![0, 2, 1] _ (2, 1) rfl rfl rfl, sqK_apply Z b P C hP hC ![0, 1, 2] _ (1, 2) rfl rfl rfl]

end Edge

/-! ## The mask, the weight and the power at a pixel -/

/-- A select on a Boolean's bit is the `if`. -/
theorem select_ofBool {α : Type} (fl : Bool) (A B : α) :
    Scalar.select (BitVec.ofBool fl) A B = if fl then A else B := by
  cases fl
  · exact select_zero A B
  · exact select_one A B

/-- The flat mask at a pixel: the first edge response below one, the second more than one above the first. -/
theorem maskK_apply (eo es : FVec Ideal S512x512 .f32) (u : Fin 1) (h w : Fin 512) :
    maskK eo es (ix3 u h w)
      = BitVec.ofBool (decide (eo (ix2 h w) < cOne) && decide (cOne < es (ix2 h w) - eo (ix2 h w))) := by
  unfold maskK
  refine (shapeCast_ab_1ab_apply _ _ u h w).trans ?_
  exact WordArith.andi_ofBool _ _

/-- A [1, 512, 512] array broadcast over the channels reads its one channel. -/
theorem bcastK_apply {α : Type} (x : S1x512x512.Idx → α) (c : Fin 3) (h w : Fin 512) :
    broadcastTo S3x512x512 x broadcasts_S1x512x512_S3x512x512 (ix3 c h w) = x (ix3 (0 : Fin 1) h w) := by
  refine broadcastTo_apply x _ (ix3 c h w) (ix3 (0 : Fin 1) h w) ?_
  intro a
  match a with
  | ⟨0, _⟩ => rfl
  | ⟨1, _⟩ => rfl
  | ⟨2, _⟩ => rfl

/-- The weight factor at an entry: the constant on the mask, the colour weight elsewhere. -/
theorem wgtK_apply (wsw : BitVec 32) (m : IVec S1x512x512 1) (wrv : FVec Ideal S512x512 .f32) (fl : Bool)
    (c : Fin 3) (h w : Fin 512) (hm : m (ix3 (0 : Fin 1) h w) = BitVec.ofBool fl) :
    wgtK wsw m wrv (ix3 c h w) = if fl then Ideal.ofBits .f32 wsw else wrv (ix2 h w) := by
  unfold wgtK
  refine (bcastK_apply _ c h w).trans ?_
  show Scalar.select (m (ix3 (0 : Fin 1) h w)) (Ideal.ofBits .f32 wsw)
      (shapeCast S1x512x512 wrv shapeCasts_S512x512_S1x512x512 (ix3 (0 : Fin 1) h w)) = _
  rw [hm, select_ofBool, shapeCast_ab_1ab_apply]

/-- The power factor at an entry: the exponent two on the mask, the other exponent elsewhere. -/
theorem powK_apply (m : IVec S1x512x512 1) (lg : FVec Ideal S3x512x512 .f32) (fl : Bool)
    (c : Fin 3) (h w : Fin 512) (hm : m (ix3 (0 : Fin 1) h w) = BitVec.ofBool fl) :
    powK m lg (ix3 c h w) = Ideal.exp ((if fl then cTwo else cP) * lg (ix3 c h w)) := by
  have e : broadcastTo S3x512x512
        (select m (broadcast S1x512x512 (Scalar.ofBits (F := Ideal) .f32 0x40000000#32))
          (broadcast S1x512x512 (Scalar.ofBits (F := Ideal) .f32 0x3F4CCCCD#32)))
        broadcasts_S1x512x512_S3x512x512 (ix3 c h w) = if fl then cTwo else cP := by
    refine (bcastK_apply _ c h w).trans ?_
    show Scalar.select (m (ix3 (0 : Fin 1) h w)) cTwo cP = _
    rw [hm, select_ofBool]
  exact congrArg (fun t => Ideal.exp (t * lg (ix3 c h w))) e

/-! ## One offset's term at a pixel -/

/-- One offset's term at a pixel is the sum over the channels of the specification's summand: `spad`, `sc` the padded
    smooth image and its centre, `opad`, `oc` the original's, `m` the flat mask. -/
theorem offK_apply (X Y : Img) (b : Fin 8) (spad opad : FVec Ideal S3x514x514 .f32) (sc oc : FVec Ideal S3x512x512 .f32)
    (hsp : ∀ (c : Fin 3) (r s : Fin 514), spad (ix3 c r s) = Y (ix4 b c (refl r) (refl s)))
    (hop : ∀ (c : Fin 3) (r s : Fin 514), opad (ix3 c r s) = X (ix4 b c (refl r) (refl s)))
    (hsc : ∀ (c : Fin 3) (h w : Fin 512), sc (ix3 c h w) = Y (ix4 b c h w))
    (hoc : ∀ (c : Fin 3) (h w : Fin 512), oc (ix3 c h w) = X (ix4 b c h w))
    (m : IVec S1x512x512 1) (h w : Fin 512) (hm : m (ix3 (0 : Fin 1) h w) = BitVec.ofBool (flat X Y b h w))
    (o : Fin 3 → ℕ) (hs : S3x514x514.Slices o S3x512x512) (p : Fin 3 × Fin 3)
    (h0 : o 0 = 0) (h1 : o 1 = p.1.val) (h2 : o 2 = p.2.val)
    (wsw : BitVec 32) (hw : Ideal.ofBits .f32 wsw = wsLit p) :
    offK o hs wsw spad opad sc oc m (ix2 h w) = ∑ c : Fin 3, val X Y p b c h w := by
  unfold offK
  refine (chan_apply _ h w).trans (Finset.sum_congr rfl fun c _ => ?_)
  show wgtK wsw m (wrK o hs opad oc) (ix3 c h w) * powK m (lgK o hs spad sc) (ix3 c h w) = _
  rw [wgtK_apply wsw m _ (flat X Y b h w) c h w hm, powK_apply m _ (flat X Y b h w) c h w hm,
    wrK_apply X b opad oc hop hoc o hs p h0 h1 h2, lgK_apply Y b spad sc hsp hsc o hs p h0 h1 h2, hw]
  rfl

/-- A sum over the nine offsets, written out in the kernel's order onto zero. -/
theorem sum_nine (g : Fin 3 × Fin 3 → EReal) :
    0 + g (0, 0) + g (0, 1) + g (0, 2) + g (1, 0) + g (1, 1) + g (1, 2) + g (2, 0) + g (2, 1) + g (2, 2)
      = ∑ o : Fin 3 × Fin 3, g o := by
  rw [Fintype.sum_prod_type, Fin.sum_univ_three, Fin.sum_univ_three, Fin.sum_univ_three, Fin.sum_univ_three, zero_add]
  simp only [add_assoc]

/-- The nine terms added onto zero are the specification's pixel value. -/
theorem sumK_apply (X Y : Img) (b : Fin 8) (spad opad : FVec Ideal S3x514x514 .f32) (sc oc : FVec Ideal S3x512x512 .f32)
    (hsp : ∀ (c : Fin 3) (r s : Fin 514), spad (ix3 c r s) = Y (ix4 b c (refl r) (refl s)))
    (hop : ∀ (c : Fin 3) (r s : Fin 514), opad (ix3 c r s) = X (ix4 b c (refl r) (refl s)))
    (hsc : ∀ (c : Fin 3) (h w : Fin 512), sc (ix3 c h w) = Y (ix4 b c h w))
    (hoc : ∀ (c : Fin 3) (h w : Fin 512), oc (ix3 c h w) = X (ix4 b c h w))
    (m : IVec S1x512x512 1) (h w : Fin 512) (hm : m (ix3 (0 : Fin 1) h w) = BitVec.ofBool (flat X Y b h w)) :
    sumK spad opad sc oc m (ix2 h w) = pix X Y b h w := by
  unfold sumK
  show Ideal.ofBits .f32 0x00000000#32
      + offK ![0, 0, 0] slices_S3x514x514_o0_0_0_S3x512x512 0x3EBC5AB2#32 spad opad sc oc m (ix2 h w)
      + offK ![0, 0, 1] slices_S3x514x514_o0_0_1_S3x512x512 0x3F1B4598#32 spad opad sc oc m (ix2 h w)
      + offK ![0, 0, 2] slices_S3x514x514_o0_0_2_S3x512x512 0x3EBC5AB2#32 spad opad sc oc m (ix2 h w)
      + offK ![0, 1, 0] slices_S3x514x514_o0_1_0_S3x512x512 0x3F1B4598#32 spad opad sc oc m (ix2 h w)
      + offK ![0, 1, 1] slices_S3x514x514_o0_1_1_S3x512x512 0x3F800000#32 spad opad sc oc m (ix2 h w)
      + offK ![0, 1, 2] slices_S3x514x514_o0_1_2_S3x512x512 0x3F1B4598#32 spad opad sc oc m (ix2 h w)
      + offK ![0, 2, 0] slices_S3x514x514_o0_2_0_S3x512x512 0x3EBC5AB2#32 spad opad sc oc m (ix2 h w)
      + offK ![0, 2, 1] slices_S3x514x514_o0_2_1_S3x512x512 0x3F1B4598#32 spad opad sc oc m (ix2 h w)
      + offK ![0, 2, 2] slices_S3x514x514_o0_2_2_S3x512x512 0x3EBC5AB2#32 spad opad sc oc m (ix2 h w)
      = pix X Y b h w
  rw [offK_apply X Y b spad opad sc oc hsp hop hsc hoc m h w hm ![0, 0, 0] _ (0, 0) rfl rfl rfl 0x3EBC5AB2#32 rfl,
    offK_apply X Y b spad opad sc oc hsp hop hsc hoc m h w hm ![0, 0, 1] _ (0, 1) rfl rfl rfl 0x3F1B4598#32 rfl,
    offK_apply X Y b spad opad sc oc hsp hop hsc hoc m h w hm ![0, 0, 2] _ (0, 2) rfl rfl rfl 0x3EBC5AB2#32 rfl,
    offK_apply X Y b spad opad sc oc hsp hop hsc hoc m h w hm ![0, 1, 0] _ (1, 0) rfl rfl rfl 0x3F1B4598#32 rfl,
    offK_apply X Y b spad opad sc oc hsp hop hsc hoc m h w hm ![0, 1, 1] _ (1, 1) rfl rfl rfl 0x3F800000#32 rfl,
    offK_apply X Y b spad opad sc oc hsp hop hsc hoc m h w hm ![0, 1, 2] _ (1, 2) rfl rfl rfl 0x3F1B4598#32 rfl,
    offK_apply X Y b spad opad sc oc hsp hop hsc hoc m h w hm ![0, 2, 0] _ (2, 0) rfl rfl rfl 0x3EBC5AB2#32 rfl,
    offK_apply X Y b spad opad sc oc hsp hop hsc hoc m h w hm ![0, 2, 1] _ (2, 1) rfl rfl rfl 0x3F1B4598#32 rfl,
    offK_apply X Y b spad opad sc oc hsp hop hsc hoc m h w hm ![0, 2, 2] _ (2, 2) rfl rfl rfl 0x3EBC5AB2#32 rfl,
    Ideal.ofBits_zero_f32]
  exact sum_nine fun o => ∑ c : Fin 3, val X Y o b c h w

/-! ## The step sum and the stores -/

/-- The reflection of a padded coordinate one past a source coordinate is that source coordinate: the centre of the
    padded image is the image. -/
theorem refl_succ (k : Fin 512) (hk : k.val + 1 < 514) : refl (⟨k.val + 1, hk⟩ : Fin 514) = k := by
  apply Fin.ext
  show (if k.val + 1 = 0 then 1 else if k.val + 1 = 513 then 510 else k.val + 1 - 1) = k.val
  have := k.isLt
  rw [if_neg (by omega), if_neg (by omega)]
  omega

/-- The padded image of a loaded block, entry by entry: `x` is batch member `b` of the stack `Z`. -/
theorem spadK_apply (x : FVec Ideal S1x3x512x512 .f32) (Z : Img) (b : Fin 8)
    (hx : ∀ (c : Fin 3) (h w : Fin 512), x (ix4 (0 : Fin 1) c h w) = Z (ix4 b c h w))
    (c : Fin 3) (r s : Fin 514) : spadK (F := Ideal) x (ix3 c r s) = Z (ix4 b c (refl r) (refl s)) := by
  unfold spadK
  rw [padK_apply, shapeCast_1abc_abc_apply, hx]

/-- The centre of that padded image is the image. -/
theorem ctrK_apply (x : FVec Ideal S1x3x512x512 .f32) (Z : Img) (b : Fin 8)
    (hx : ∀ (c : Fin 3) (h w : Fin 512), x (ix4 (0 : Fin 1) c h w) = Z (ix4 b c h w))
    (c : Fin 3) (h w : Fin 512) : ctrK (spadK (F := Ideal) x) (ix3 c h w) = Z (ix4 b c h w) := by
  unfold ctrK
  refine (sliceK_apply ![0, 1, 1] _ (1, 1) rfl rfl rfl (spadK (F := Ideal) x) c h w).trans ?_
  refine (spadK_apply x Z b hx c _ _).trans ?_
  show Z (ix4 b c (refl (⟨h.val + 1, by have := h.isLt; omega⟩ : Fin 514))
    (refl (⟨w.val + 1, by have := w.isLt; omega⟩ : Fin 514))) = _
  rw [refl_succ, refl_succ]

/-- What one grid point adds to the accumulator, at a pixel: the specification's pixel value of the batch member
    whose smooth image is `x0` and whose original image is `x1`. -/
theorem stepK_apply (x0 x1 : FVec Ideal S1x3x512x512 .f32) (X Y : Img) (b : Fin 8)
    (hx0 : ∀ (c : Fin 3) (h w : Fin 512), x0 (ix4 (0 : Fin 1) c h w) = Y (ix4 b c h w))
    (hx1 : ∀ (c : Fin 3) (h w : Fin 512), x1 (ix4 (0 : Fin 1) c h w) = X (ix4 b c h w))
    (h w : Fin 512) : stepK (F := Ideal) x0 x1 (ix2 h w) = pix X Y b h w := by
  unfold stepK
  refine sumK_apply X Y b _ _ _ _ (spadK_apply x0 Y b hx0) (spadK_apply x1 X b hx1) (ctrK_apply x0 Y b hx0)
    (ctrK_apply x1 X b hx1) _ h w ?_
  rw [maskK_apply, edgeK_apply X b _ _ (spadK_apply x1 X b hx1) (ctrK_apply x1 X b hx1),
    edgeK_apply Y b _ _ (spadK_apply x0 Y b hx0) (ctrK_apply x0 Y b hx0)]
  rfl

/-- What the body stores into the accumulator, at a pixel: what it loaded there plus the pixel value. -/
theorem accK_apply (xs0 : FVec Ideal S512x512 .f32) (x0 x1 : FVec Ideal S1x3x512x512 .f32) (X Y : Img) (b : Fin 8)
    (hx0 : ∀ (c : Fin 3) (h w : Fin 512), x0 (ix4 (0 : Fin 1) c h w) = Y (ix4 b c h w))
    (hx1 : ∀ (c : Fin 3) (h w : Fin 512), x1 (ix4 (0 : Fin 1) c h w) = X (ix4 b c h w))
    (h w : Fin 512) :
    accK (F := Ideal) xs0 x0 x1 (ix2 h w) = xs0 (ix2 h w) + pix X Y b h w := by
  rw [accK_eq, shapeCast_self]
  show xs0 (ix2 h w) + stepK (F := Ideal) x0 x1 (ix2 h w) = _
  rw [stepK_apply x0 x1 X Y b hx0 hx1 h w]

/-- What the body stores into the accumulator at the first step of a core is zero everywhere. -/
theorem pay3_apply (h w : Fin 512) : k0_pay3 (F := Ideal) (ix2 h w) = 0 := by
  unfold k0_pay3
  rw [shapeCast_self]
  exact Ideal.ofBits_zero_f32

/-- What the body stores into the output block at the last step of a core: the sum of the accumulator over both axes. -/
theorem pay2_apply (a : FVec Ideal S512x512 .f32) :
    k0_pay2 (F := Ideal) a = fun _ => ∑ h : Fin 512, ∑ w : Fin 512, a (ix2 h w) := by
  funext i
  unfold k0_pay2
  -- the [1, 1, 1] block is a one-entry broadcast of the one entry of the reduction
  refine (shapeCast_apply _ _ i (ix2 (0 : Fin 1) (0 : Fin 1)) ?_).trans ?_
  · have h0 : (i 0).val < 1 := (i 0).isLt
    have h1 : (i 1).val < 1 := (i 1).isLt
    have h2 : (i 2).val < 1 := (i 2).isLt
    rw [Shape.rowMajor_val_two, Shape.rowMajor_val_three]
    show 0 * 1 + 0 = ((i 0).val * 1 + (i 1).val) * 1 + (i 2).val
    omega
  · refine (broadcast_apply _ _).trans ?_
    unfold extractAt
    refine (shapeCast_apply _ _ _ (ix1 (0 : Fin 1)) ?_).trans ?_
    · rw [Shape.rowMajor_val_one, Shape.rowMajor_val_three]
      rfl
    · refine (Ideal.multiReduction_add_total _ _ _ (fun b => ?_) _ _ _).trans ?_
      · match b with
        | ⟨0, _⟩ => rfl
      · refine (Equiv.sum_comp (Shape.reshapeEquiv shapeCasts_S512x512_S1x512x512) a).trans ?_
        exact sum_idx2 a

end Cert.KernelIdeal.Fn

end
-- ==== Proof.KernValue.lean ====
/-
  The kernel's result is the loss.

  The grid has eight points, `t = 4·core + step`; point `t` loads member `t` of the smooth stack (window 0) and of
  the original stack (window 1). Each point adds to a carried accumulator, at every pixel, the pixel sum of its member
  (the accumulator zeroed at a core's first step), so after point `n` the accumulator holds the pixel sums of the
  core's members up to `n` (induction on the point). At a core's last step the accumulator is summed over all pixels
  into the core's entry of the `[2, 1, 1]` result array, and that is the only write-back of the entry; so the array
  ends at the two cores' totals. After the region the host adds the two totals to zero and divides by the number of
  summands. Regrouping the eight members by core, that is the loss of the two stacks. Sums are reordered in the
  commutative monoid of the extended reals; nothing here needs the inputs finite.
-/
import proofs.«122793_j4587025072325_2_alg».proof.Proof.KernPieces
import proofs.«122793_j4587025072325_2_alg».proof.Proof.Spec
import proofs.«122793_j4587025072325_2_alg».proof.Proof.KernRead
import Idealize.ShloMosaic.Lib.Pipeline.Value
import Idealize.ShloMosaic.Lib.ValueIdx
import Idealize.ShloMosaic.Lib.IdealHost
import Idealize.ShloMosaic.PureOps.Ideal.Laws
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Fn Idealize.ShloMosaic.ValueIdx

variable (m : (ℓ : Loc nD τ sig) → Buf (Elt Ideal) ℓ) (ρ : Dev nD → PrngReg)

/-- The original stack on core `c`. -/
abbrev imgX (c : Dev nD) : Cert.Smooth.Img := m ((c : Thread nD τ).loc main_arg0)
/-- The smooth stack on core `c`. -/
abbrev imgY (c : Dev nD) : Cert.Smooth.Img := m ((c : Thread nD τ).loc main_arg1)

theorem hN8 : cfg0.N = 8 := N_0

/-- Grid point `t` as a batch member: the two input windows' index maps send point `t = 4·core + step` to member `t`. -/
def mem (t : Fin cfg0.N) : Fin 8 := ⟨t.val, lt_of_lt_of_eq t.isLt hN8⟩

theorem idx_in0 (t : Fin cfg0.N) : win0_0.index t (0 : Fin 4) = t.val ∧ win0_0.index t (1 : Fin 4) = 0
    ∧ win0_0.index t (2 : Fin 4) = 0 ∧ win0_0.index t (3 : Fin 4) = 0 := by
  rcases fin_N0 t with rfl | rfl | rfl | rfl | rfl | rfl | rfl | rfl <;> decide
theorem idx_in1 (t : Fin cfg0.N) : win0_1.index t (0 : Fin 4) = t.val ∧ win0_1.index t (1 : Fin 4) = 0
    ∧ win0_1.index t (2 : Fin 4) = 0 ∧ win0_1.index t (3 : Fin 4) = 0 := by
  rcases fin_N0 t with rfl | rfl | rfl | rfl | rfl | rfl | rfl | rfl <;> decide
theorem idx_out (t : Fin cfg0.N) : win0_2.index t (0 : Fin 3) = t.val / 4 ∧ win0_2.index t (1 : Fin 3) = 0
    ∧ win0_2.index t (2 : Fin 3) = 0 := by
  rcases fin_N0 t with rfl | rfl | rfl | rfl | rfl | rfl | rfl | rfl <;> decide

/-- Window 0's block at point `t` is member `t` of the smooth stack. -/
theorem iblk0_apply (c : Dev nD) (t : Fin cfg0.N) (ch : Fin 3) (h w : Fin 512) :
    (iblk m c 0 t : Vec Ideal S1x3x512x512 .f32) (ix4 (0 : Fin 1) ch h w) = imgY m c (ix4 (mem t) ch h w) := by
  unfold iblk
  rw [View.read_apply]
  show V m c main_arg1 _ = m (c.tc.loc main_arg1) _
  unfold V
  congr 1
  funext a
  apply Fin.ext
  match a with
  | ⟨0, _⟩ => show win0_0.index t 0 * 1 + 1 * 0 = t.val; rw [(idx_in0 t).1]; omega
  | ⟨1, _⟩ => show win0_0.index t 1 * 3 + 1 * ch.val = ch.val; rw [(idx_in0 t).2.1]; omega
  | ⟨2, _⟩ => show win0_0.index t 2 * 512 + 1 * h.val = h.val; rw [(idx_in0 t).2.2.1]; omega
  | ⟨3, _⟩ => show win0_0.index t 3 * 512 + 1 * w.val = w.val; rw [(idx_in0 t).2.2.2]; omega

/-- Window 1's block at point `t` is member `t` of the original stack. -/
theorem iblk1_apply (c : Dev nD) (t : Fin cfg0.N) (ch : Fin 3) (h w : Fin 512) :
    (iblk m c 1 t : Vec Ideal S1x3x512x512 .f32) (ix4 (0 : Fin 1) ch h w) = imgX m c (ix4 (mem t) ch h w) := by
  unfold iblk
  rw [View.read_apply]
  show V m c main_arg0 _ = m (c.tc.loc main_arg0) _
  unfold V
  congr 1
  funext a
  apply Fin.ext
  match a with
  | ⟨0, _⟩ => show win0_1.index t 0 * 1 + 1 * 0 = t.val; rw [(idx_in1 t).1]; omega
  | ⟨1, _⟩ => show win0_1.index t 1 * 3 + 1 * ch.val = ch.val; rw [(idx_in1 t).2.1]; omega
  | ⟨2, _⟩ => show win0_1.index t 2 * 512 + 1 * h.val = h.val; rw [(idx_in1 t).2.2.1]; omega
  | ⟨3, _⟩ => show win0_1.index t 3 * 512 + 1 * w.val = w.val; rw [(idx_in1 t).2.2.2]; omega

/-- The pixel sum of member number `n` (zero beyond the batch). -/
def pixN (c : Dev nD) (n : ℕ) (h w : Fin 512) : EReal :=
  if hn : n < 8 then Cert.Smooth.pix (imgX m c) (imgY m c) ⟨n, hn⟩ h w else 0

theorem pixN_mem (c : Dev nD) (t : Fin cfg0.N) (h w : Fin 512) :
    pixN m c t.val h w = Cert.Smooth.pix (imgX m c) (imgY m c) (mem t) h w := by
  unfold pixN mem
  rw [dif_pos (lt_of_lt_of_eq t.isLt hN8)]

set_option backward.isDefEq.respectTransparency.types false in
set_option maxHeartbeats 1000000 in
/-- One point's store at a pixel: what the accumulator held plus the pixel sum of the point's member. -/
theorem step_apply (c : Dev nD) (t : Fin cfg0.N) (xs0 : FVec Ideal S512x512 .f32) (h w : Fin 512) :
    accK (F := Ideal) xs0 (iblk m c 0 t) (iblk m c 1 t) (ix2 h w) = xs0 (ix2 h w) + pixN m c t.val h w := by
  rw [pixN_mem]
  exact accK_apply xs0 (iblk m c 0 t) (iblk m c 1 t) (imgX m c) (imgY m c) (mem t) (iblk0_apply m c t) (iblk1_apply m c t) h w

set_option backward.isDefEq.respectTransparency.types false in
set_option maxHeartbeats 1000000 in
/-- The accumulator after a core's first step. -/
theorem scr_A (c : Dev nD) (t : Fin cfg0.N) (h0 : t.val % 4 = 0) (h1 : ¬t.val % 4 = 3) :
    (outsAt0 m c t.val t.isLt).2 = accK (k0_pay3 (F := Ideal)) (iblk m c 0 t) (iblk m c 1 t) := by
  rw [outsAt0_A m c t h0 h1]
  exact sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

set_option backward.isDefEq.respectTransparency.types false in
set_option maxHeartbeats 1000000 in
/-- The accumulator after a middle step, from what the step before left. -/
theorem scr_B (c : Dev nD) (t : Fin cfg0.N) (h0 : ¬t.val % 4 = 0) (h1 : ¬t.val % 4 = 3) :
    (outsAt0 m c t.val t.isLt).2
      = accK ((outsAt0 m c (t.val - 1) (Nat.lt_of_le_of_lt (Nat.sub_le _ _) t.isLt)).2) (iblk m c 0 t) (iblk m c 1 t) := by
  rw [outsAt0_B m c t h0 h1]
  exact sout_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) _

set_option backward.isDefEq.respectTransparency.types false in
set_option maxHeartbeats 1000000 in
/-- The accumulator after a core's last step, -/
theorem scr_C (c : Dev nD) (t : Fin cfg0.N) (h0 : ¬t.val % 4 = 0) (h1 : t.val % 4 = 3) :
    (outsAt0 m c t.val t.isLt).2
      = accK ((outsAt0 m c (t.val - 1) (Nat.lt_of_le_of_lt (Nat.sub_le _ _) t.isLt)).2) (iblk m c 0 t) (iblk m c 1 t) := by
  rw [outsAt0_C m c t h0 h1]
  exact sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _

set_option backward.isDefEq.respectTransparency.types false in
set_option maxHeartbeats 1000000 in
/-- and the output block there: the accumulator summed over both axes. -/
theorem blk_C (c : Dev nD) (t : Fin cfg0.N) (h0 : ¬t.val % 4 = 0) (h1 : t.val % 4 = 3) :
    (outsAt0 m c t.val t.isLt).1 = k0_pay2 ((outsAt0 m c t.val t.isLt).2) := by
  rw [scr_C m c t h0 h1, outsAt0_C m c t h0 h1]
  exact out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _

set_option backward.isDefEq.respectTransparency.types false in
set_option maxHeartbeats 1000000 in
/-- After point `n` the accumulator holds, at every pixel, the pixel sums of the core's members up to `n`:
    by induction on the point. -/
theorem acc_eq (c : Dev nD) : ∀ (n : ℕ) (hn : n < cfg0.N) (h w : Fin 512),
    (outsAt0 m c n hn).2 (ix2 h w) = ∑ j ∈ Finset.range (n % 4 + 1), pixN m c (4 * (n / 4) + j) h w
  | 0, hn, h, w => by
    have e := scr_A m c ⟨0, hn⟩ rfl (by show ¬(0 % 4 = 3); decide)
    dsimp only at e
    rw [e, step_apply, pay3_apply]
    simp
  | n + 1, hn, h, w => by
    have hN : n + 1 < 8 := lt_of_lt_of_eq hn hN8
    by_cases h0 : (n + 1) % 4 = 0
    · have h1 : ¬(n + 1) % 4 = 3 := by omega
      have e := scr_A m c ⟨n + 1, hn⟩ h0 h1
      dsimp only at e
      rw [e, step_apply, pay3_apply, h0]
      have : 4 * ((n + 1) / 4) = n + 1 := by omega
      simp [this]
    · have e : (outsAt0 m c (n + 1) hn).2
          = accK ((outsAt0 m c n (Nat.lt_of_succ_lt hn)).2) (iblk m c 0 ⟨n + 1, hn⟩) (iblk m c 1 ⟨n + 1, hn⟩) := by
        by_cases h1 : (n + 1) % 4 = 3
        · exact scr_C m c ⟨n + 1, hn⟩ h0 h1
        · exact scr_B m c ⟨n + 1, hn⟩ h0 h1
      rw [e, step_apply, acc_eq c n (Nat.lt_of_succ_lt hn) h w]
      have hq : (n + 1) / 4 = n / 4 := by omega
      have hr : (n + 1) % 4 = n % 4 + 1 := by omega
      rw [hq, hr, Finset.sum_range_succ _ (n % 4 + 1)]
      congr 2
      show n + 1 = 4 * (n / 4) + (n % 4 + 1)
      omega

/-- The region's result array: entry `(k, 0, 0)` is core `k`'s total, the pixel sums of its four members over all pixels. -/
def resArr (c : Dev nD) : FVec Ideal S2x1x1 .f32 := fun i =>
  ∑ h : Fin 512, ∑ w : Fin 512, ∑ j ∈ Finset.range 4, pixN m c (4 * (i 0).val + j) h w

set_option backward.isDefEq.respectTransparency.types false in
set_option maxHeartbeats 1000000 in
/-- What a core's last step writes back is its entry of the result array. -/
theorem flushed_eq (c : Dev nD) (t : Fin cfg0.N) (hf : (cfg0.win 2).flush t = true) :
    (dats m 0 c).flushed 2 t = ((cfg0.win 2).blk t).view.read (Elt Ideal) (resArr m c) := by
  have h3 : t.val % 4 = 3 := (flush0_2 t).mp hf
  have h0 : ¬t.val % 4 = 0 := by omega
  show (cfg0.win 2).cut (grid0.coords t) ((dats m 0 c).after 2 t) = _
  rw [after0_2, blk_C m c t h0 h3, pay2_apply]
  funext y
  show (∑ h : Fin 512, ∑ w : Fin 512, (outsAt0 m c t.val t.isLt).2 (ix2 h w)) = resArr m c (((cfg0.win 2).blk t).view.emb y)
  have he : ((((cfg0.win 2).blk t).view.emb y) 0).val = t.val / 4 := by
    show win0_2.index t (0 : Fin 3) * 1 + 1 * (y 0).val = t.val / 4
    have hy : (y 0).val < 1 := (y 0).isLt
    rw [(idx_out t).1]; omega
  unfold resArr
  dsimp only
  rw [he]
  refine Finset.sum_congr rfl fun h _ => Finset.sum_congr rfl fun w _ => ?_
  rw [acc_eq m c t.val t.isLt h w, h3]

/-- An index of the result array lies in point `t`'s block iff each coordinate lies in the block's range. -/
theorem mem_blk (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0).slice (win0_2.rect t)).set ↔ _
  rw [View.set_slice_whole, Rect.mem_set_unit]
  exact Iff.rfl

/-- Every entry is written back by its core's last step. -/
theorem cover (i : S2x1x1.Idx) : ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hlt : 4 * (i 0).val + 3 < cfg0.N := by rw [hN8]; omega
  obtain ⟨e0, e1, e2⟩ := idx_out ⟨4 * (i 0).val + 3, hlt⟩
  refine ⟨⟨4 * (i 0).val + 3, hlt⟩, (flush0_2 _).mpr (by show (4 * (i 0).val + 3) % 4 = 3; omega), ?_⟩
  rw [mem_blk]
  intro a
  match a with
  | ⟨0, _⟩ =>
    show win0_2.index _ (0 : Fin 3) * 1 ≤ (i 0).val ∧ (i 0).val < win0_2.index _ (0 : Fin 3) * 1 + 1
    rw [e0]; dsimp only; omega
  | ⟨1, _⟩ =>
    show win0_2.index _ (1 : Fin 3) * 1 ≤ (i 1).val ∧ (i 1).val < win0_2.index _ (1 : Fin 3) * 1 + 1
    rw [e1]; omega
  | ⟨2, _⟩ =>
    show win0_2.index _ (2 : Fin 3) * 1 ≤ (i 2).val ∧ (i 2).val < win0_2.index _ (2 : Fin 3) * 1 + 1
    rw [e2]; omega

/-- So the result array ends at the cores' totals. -/
theorem final_res (c : Dev nD) : (dats m 0 c).arrAt 2 cfg0.N = resArr m c :=
  (dats m 0 c).arrAt_eq_of_cover 2 (resArr m c) (flushed_eq m c) cover

/-- A core's number as an index of the `[2, 1, 1]` result array, and back. -/
def coreIdx : Fin 2 ≃ S2x1x1.Idx where
  toFun k := ix3 k (0 : Fin 1) (0 : Fin 1)
  invFun i := i 0
  left_inv k := rfl
  right_inv i := by
    funext a
    match a with
    | ⟨0, _⟩ => rfl
    | ⟨1, _⟩ => exact Fin.ext (by have h1 : (i 1).val < 1 := (i 1).isLt; show (0 : ℕ) = (i 1).val; omega)
    | ⟨2, _⟩ => exact Fin.ext (by have h2 : (i 2).val < 1 := (i 2).isLt; show (0 : ℕ) = (i 2).val; omega)

/-- All pixels of member number `n`. -/
def gN (c : Dev nD) (n : ℕ) : EReal := ∑ h : Fin 512, ∑ w : Fin 512, pixN m c n h w

theorem gN_lt (c : Dev nD) (n : ℕ) (hn : n < 8) :
    gN m c n = ∑ h : Fin 512, ∑ w : Fin 512, Cert.Smooth.pix (imgX m c) (imgY m c) ⟨n, hn⟩ h w := by
  unfold gN pixN
  simp only [dif_pos hn]

/-- A core's total is its four members'. -/
theorem res_core (c : Dev nD) (k : Fin 2) :
    resArr m c (coreIdx k) = gN m c (4 * k.val) + gN m c (4 * k.val + 1) + gN m c (4 * k.val + 2) + gN m c (4 * k.val + 3) := by
  show (∑ h : Fin 512, ∑ w : Fin 512, ∑ j ∈ Finset.range 4, pixN m c (4 * k.val + j) h w) = _
  unfold gN
  simp only [Finset.sum_range_succ, Finset.sum_range_zero, zero_add, Finset.sum_add_distrib, add_zero]

/-- The two cores' totals are the whole sum: the eight members, regrouped. -/
theorem sum_res (c : Dev nD) : ∑ i : S2x1x1.Idx, resArr m c i = Cert.Smooth.total (imgX m c) (imgY m c) := by
  rw [← Equiv.sum_comp coreIdx (resArr m c), Fin.sum_univ_two, res_core, res_core]
  unfold Cert.Smooth.total
  rw [Fin.sum_univ_eight]
  rw [gN_lt m c _ (by norm_num : 4 * (0 : Fin 2).val < 8), gN_lt m c _ (by norm_num : 4 * (0 : Fin 2).val + 1 < 8),
    gN_lt m c _ (by norm_num : 4 * (0 : Fin 2).val + 2 < 8), gN_lt m c _ (by norm_num : 4 * (0 : Fin 2).val + 3 < 8),
    gN_lt m c _ (by norm_num : 4 * (1 : Fin 2).val < 8), gN_lt m c _ (by norm_num : 4 * (1 : Fin 2).val + 1 < 8),
    gN_lt m c _ (by norm_num : 4 * (1 : Fin 2).val + 2 < 8), gN_lt m c _ (by norm_num : 4 * (1 : Fin 2).val + 3 < 8)]
  simp only [add_assoc]
  rfl

/-- After the region the host adds the two cores' totals to zero and divides by the count: the loss. -/
theorem tail_eq (c : Dev nD) :
    Pipeline.afterTail₀ cfgs (dats m) 0 (V0 m) [hostOps1] c main_v2 = fun _ => Cert.Smooth.loss (imgX m c) (imgY m c) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v0)
      = resArr m c :=
    (Pipeline.withArrays_arr spec0 launch0.win.arr_inj c _ _ 2).trans (final_res m c)
  rw [hA]
  funext j
  rw [hostDivf_apply, hostReduceAdd_apply, Ideal.hostReduceAdd_total _ (fun b => b.elim0), sum_res]
  show Ideal.div (Ideal.ofBits .f32 0x00000000#32 + _) (Ideal.ofBits .f32 0x4C580000#32) = _
  rw [Ideal.ofBits_zero_f32, zero_add]
  rfl

/-- The kernel's run, read: the result at the loss of the two stacks, the stacks unchanged. -/
theorem run : θ_run defs (onTc (τ := τ) (main (F := Ideal))) ⟨m, fun _ => 0, ρ⟩ fun r => ∀ c : Dev nD,
      r.2.mem ((c.tc : Thread nD τ).loc main_v2) = (fun _ => Cert.Smooth.loss (imgX m c) (imgY m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 (by decide)).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩)
    (run_main m ρ)

end Cert.KernelIdeal.Value
end
-- ==== Proof.RefFn.lean ====
/-
  The reference program as ONE pure function of its two arguments' contents: every operation of
  @main, and of the functions it calls (the reflection padding and its flips), applied in the
  printed order to the printed operands, with the printed literals and shape relations.

  Reading guide (x the original stack, y the smooth one, both [8,3,512,512]):
  * `padFn`   — reflection padding by one pixel on the two image axes, [8,3,514,514]:
                 rows first (a flipped copy of row 1 above, of row 510 below), then columns alike;
  * `shiftFn` — an image minus its padded copy read at an offset (r, c) ∈ {0,1,2}²: the pixel
                 minus its neighbour at displacement (r-1, c-1);
  * `stackFn` — the nine differences stacked on a new axis 1, the row offset varying fastest;
  * `wrFn`    — the colour weight exp(-½ Σ_channels d²) of the ORIGINAL image's differences;
  * `wsFn`    — the 3×3 Gaussian table, on the offset axis;
  * `edgeFn`  — Σ_channels (d_(2,1)² + d_(1,2)²): the squared forward gradient;
  * `flatFn`  — the 0/1 mask "original edge < 1 and smooth edge − original edge > 1";
  * `sqTerm`, `pTerm` — the two penalties (|d|+ε)² weighted by the table and (|d|+ε)^0.8
                 weighted by the colour weight, of the SMOOTH image's differences;
  * `blendFn` — mask · sqTerm + (1 − mask) · pTerm;  `refFn` — its sum over all five axes divided by
                 the literal 56 623 104 = 8·9·3·512·512, the number of summands.
-/
import proofs.«122793_j4587025072325_2_alg».proof.ReferenceIdeal

noncomputable section

namespace Cert.ReferenceIdeal.Fn

open Idealize.ShloMosaic Idealize.SL.Sem
open Cert.ReferenceIdeal

variable {F : FTy → Type} [FloatOps F] [Facts]
open Facts₀ Facts

/-! ## Reflection padding -/

/-- One row above: row 1, flipped along the (length-one) row axis, then the image. -/
def padTop (x : FVec F S8x3x512x512 .f32) : FVec F S8x3x513x512 .f32 :=
  concatenate S8x3x513x512 2
    [⟨S8x3x1x512, Host.reverse [2] (extractStridedSlice S8x3x1x512 ![0, 0, 1, 0] x slices_S8x3x512x512_S8x3x1x512_0_0_1_0)⟩,
     ⟨S8x3x512x512, x⟩]
    concatenates_S8x3x1x512_S8x3x512x512_S8x3x513x512_d2

/-- And one row below: row 511 of the 513 (the image's row 510), flipped likewise. -/
def padRows (x : FVec F S8x3x512x512 .f32) : FVec F S8x3x514x512 .f32 :=
  concatenate S8x3x514x512 2
    [⟨S8x3x513x512, padTop x⟩,
     ⟨S8x3x1x512, Host.reverse [2] (extractStridedSlice S8x3x1x512 ![0, 0, 511, 0] (padTop x) slices_S8x3x513x512_S8x3x1x512_0_0_511_0)⟩]
    concatenates_S8x3x513x512_S8x3x1x512_S8x3x514x512_d2

/-- One column to the left: column 1, flipped along the (length-one) column axis, then the rows. -/
def padLeft (z : FVec F S8x3x514x512 .f32) : FVec F S8x3x514x513 .f32 :=
  concatenate S8x3x514x513 3
    [⟨S8x3x514x1, Host.reverse [3] (extractStridedSlice S8x3x514x1 ![0, 0, 0, 1] z slices_S8x3x514x512_S8x3x514x1_0_0_0_1)⟩,
     ⟨S8x3x514x512, z⟩]
    concatenates_S8x3x514x1_S8x3x514x512_S8x3x514x513_d3

/-- And one column to the right: column 511 of the 513 (the rows' column 510), flipped likewise. -/
def padCols (z : FVec F S8x3x514x512 .f32) : FVec F S8x3x514x514 .f32 :=
  concatenate S8x3x514x514 3
    [⟨S8x3x514x513, padLeft z⟩,
     ⟨S8x3x514x1, Host.reverse [3] (extractStridedSlice S8x3x514x1 ![0, 0, 0, 511] (padLeft z) slices_S8x3x514x513_S8x3x514x1_0_0_0_511)⟩]
    concatenates_S8x3x514x513_S8x3x514x1_S8x3x514x514_d3

/-- The padded image: rows, then columns. -/
def padFn (x : FVec F S8x3x512x512 .f32) : FVec F S8x3x514x514 .f32 :=
  padCols (padRows x)

/-! ## Differences to the nine neighbours -/

/-- The image minus its padded copy read from offset `o` = (0, 0, r, c). -/
def shiftFn (o : Fin S8x3x514x514.rank → ℕ) (hs : S8x3x514x514.Slices o S8x3x512x512)
    (x : FVec F S8x3x512x512 .f32) : FVec F S8x3x512x512 .f32 :=
  subf x (extractStridedSlice S8x3x512x512 o (padFn x) hs)

/-- A difference image with a new axis of length one in position 1. -/
def bc5 (v : FVec F S8x3x512x512 .f32) : FVec F S8x1x3x512x512 .f32 :=
  broadcastInDim S8x1x3x512x512 ![0, 2, 3, 4] bcast_S8x3x512x512_S8x1x3x512x512_0_2_3_4 v

/-- The nine differences along axis 1: position 3·c + r holds offset (r, c). -/
def stackFn (x : FVec F S8x3x512x512 .f32) : FVec F S8x9x3x512x512 .f32 :=
  concatenate S8x9x3x512x512 1
    [⟨S8x1x3x512x512, bc5 (shiftFn ![0, 0, 0, 0] slices_S8x3x514x514_S8x3x512x512_0_0_0_0 x)⟩,
     ⟨S8x1x3x512x512, bc5 (shiftFn ![0, 0, 1, 0] slices_S8x3x514x514_S8x3x512x512_0_0_1_0 x)⟩,
     ⟨S8x1x3x512x512, bc5 (shiftFn ![0, 0, 2, 0] slices_S8x3x514x514_S8x3x512x512_0_0_2_0 x)⟩,
     ⟨S8x1x3x512x512, bc5 (shiftFn ![0, 0, 0, 1] slices_S8x3x514x514_S8x3x512x512_0_0_0_1 x)⟩,
     ⟨S8x1x3x512x512, bc5 (shiftFn ![0, 0, 1, 1] slices_S8x3x514x514_S8x3x512x512_0_0_1_1 x)⟩,
     ⟨S8x1x3x512x512, bc5 (shiftFn ![0, 0, 2, 1] slices_S8x3x514x514_S8x3x512x512_0_0_2_1 x)⟩,
     ⟨S8x1x3x512x512, bc5 (shiftFn ![0, 0, 0, 2] slices_S8x3x514x514_S8x3x512x512_0_0_0_2 x)⟩,
     ⟨S8x1x3x512x512, bc5 (shiftFn ![0, 0, 1, 2] slices_S8x3x514x514_S8x3x512x512_0_0_1_2 x)⟩,
     ⟨S8x1x3x512x512, bc5 (shiftFn ![0, 0, 2, 2] slices_S8x3x514x514_S8x3x512x512_0_0_2_2 x)⟩]
    concatenates_S8x1x3x512x512_S8x1x3x512x512_S8x1x3x512x512_S8x1x3x512x512_S8x1x3x512x512_S8x1x3x512x512_S8x1x3x512x512_S8x1x3x512x512_S8x1x3x512x512_S8x9x3x512x512_d1

/-! ## Scalars spread over a shape -/

/-- A scalar f32 literal at every index of `t`. -/
def splat (t : Shape) (h : S_.BroadcastsInDim t (![] : Fin 0 → Fin t.rank)) (b : BitVec 32) : FVec F t .f32 :=
  broadcastInDim t ![] h (constant S_ .f32 b)

/-! ## The weights -/

/-- The colour weight exp(Σ_channels (-½ · d) · d) of the stack's differences, on [8,9,1,512,512]. -/
def wrFn (x : FVec F S8x3x512x512 .f32) : FVec F S8x9x1x512x512 .f32 :=
  Host.exp
    (broadcastInDim S8x9x1x512x512 ![0, 1, 3, 4] bcast_S8x9x512x512_S8x9x1x512x512_0_1_3_4
      (Host.reduceAdd
        (mulf (mulf (splat S8x9x3x512x512 bcast_S_S8x9x3x512x512 0xBF000000#32) (stackFn x)) (stackFn x))
        (constant S_ .f32 0x00000000#32)
        reducesTo_S8x9x3x512x512_S8x9x512x512_d2 h_S_))

/-- The nine Gaussian weights of the literal table, on [1,9,1,1,1]. -/
def wsFn : FVec F S1x9x1x1x1 .f32 :=
  broadcastInDim S1x9x1x1x1 ![1] bcast_S9_S1x9x1x1x1_1
    (fun i => FloatOps.ofBits .f32 (lit0 (S9.rowMajor i)))

/-! ## The flat mask -/

/-- Σ_channels (d₍₂,₁₎² + d₍₁,₂₎²) on [8,512,512]. -/
def edgeFn (x : FVec F S8x3x512x512 .f32) : FVec F S8x512x512 .f32 :=
  Host.reduceAdd
    (addf
      (mulf (shiftFn ![0, 0, 2, 1] slices_S8x3x514x514_S8x3x512x512_0_0_2_1 x)
            (shiftFn ![0, 0, 2, 1] slices_S8x3x514x514_S8x3x512x512_0_0_2_1 x))
      (mulf (shiftFn ![0, 0, 1, 2] slices_S8x3x514x514_S8x3x512x512_0_0_1_2 x)
            (shiftFn ![0, 0, 1, 2] slices_S8x3x514x514_S8x3x512x512_0_0_1_2 x)))
    (constant S_ .f32 0x00000000#32)
    reducesTo_S8x3x512x512_S8x512x512_d1 h_S_

/-- The mask as a 1-bit tensor: the original's edge below one, and the smooth one's above it by more than one. -/
def flatBit (x y : FVec F S8x3x512x512 .f32) : IVec S8x512x512 1 :=
  andi
    (cmpf .olt (edgeFn x) (splat S8x512x512 bcast_S_S8x512x512 0x3F800000#32))
    (cmpf .ogt (subf (edgeFn y) (edgeFn x)) (splat S8x512x512 bcast_S_S8x512x512 0x3F800000#32))

/-- The mask as a float 0 / 1 on [8,1,1,512,512]. -/
def flatFn (x y : FVec F S8x3x512x512 .f32) : FVec F S8x1x1x512x512 .f32 :=
  uitofp .f32 (broadcastInDim S8x1x1x512x512 ![0, 3, 4] bcast_S8x512x512_S8x1x1x512x512_0_3_4 (flatBit x y))

/-! ## The two penalties, their blend, the mean -/

/-- |d| + ε of the smooth stack's differences. -/
def absEps (y : FVec F S8x3x512x512 .f32) : FVec F S8x9x3x512x512 .f32 :=
  addf (Host.absf (stackFn y)) (splat S8x9x3x512x512 bcast_S_S8x9x3x512x512 0x322BCC77#32)

/-- Gaussian weight · (|d| + ε)². -/
def sqTerm (y : FVec F S8x3x512x512 .f32) : FVec F S8x9x3x512x512 .f32 :=
  mulf
    (broadcastInDim S8x9x3x512x512 ![0, 1, 2, 3, 4] bcast_S1x9x1x1x1_S8x9x3x512x512_0_1_2_3_4 wsFn)
    (Host.powf (absEps y) (splat S8x9x3x512x512 bcast_S_S8x9x3x512x512 0x40000000#32))

/-- Colour weight (of the original) · (|d| + ε)^0.8. -/
def pTerm (x y : FVec F S8x3x512x512 .f32) : FVec F S8x9x3x512x512 .f32 :=
  mulf
    (broadcastInDim S8x9x3x512x512 ![0, 1, 2, 3, 4] bcast_S8x9x1x512x512_S8x9x3x512x512_0_1_2_3_4 (wrFn x))
    (Host.powf (absEps y) (splat S8x9x3x512x512 bcast_S_S8x9x3x512x512 0x3F4CCCCD#32))

/-- mask · sqTerm + (1 − mask) · pTerm. -/
def blendFn (x y : FVec F S8x3x512x512 .f32) : FVec F S8x9x3x512x512 .f32 :=
  addf
    (mulf
      (broadcastInDim S8x9x3x512x512 ![0, 1, 2, 3, 4] bcast_S8x1x1x512x512_S8x9x3x512x512_0_1_2_3_4 (flatFn x y))
      (sqTerm y))
    (mulf
      (broadcastInDim S8x9x3x512x512 ![0, 1, 2, 3, 4] bcast_S8x1x1x512x512_S8x9x3x512x512_0_1_2_3_4
        (subf (splat S8x1x1x512x512 bcast_S_S8x1x1x512x512 0x3F800000#32) (flatFn x y)))
      (pTerm x y))

/-- The program's result: the sum of the blend over all five axes, divided by the literal count. -/
def refFn (x y : FVec F S8x3x512x512 .f32) : FVec F S_ .f32 :=
  Host.divf
    (Host.reduceAdd (blendFn x y) (constant S_ .f32 0x00000000#32) reducesTo_S8x9x3x512x512_S_d0_1_2_3_4 h_S_)
    (constant S_ .f32 0x4C580000#32)

end Cert.ReferenceIdeal.Fn

end
-- ==== Proof.RefOps.lean ====
/-
  The reference program as a list of host operations, cut where few values are live.

  @main's own 128 operations and, at each of its four calls of the padding function, that function's 16 (each flip
  one `reverse` among them) over the call's buffers: 192 in all. The list is cut into the table of Gaussian
  constants, a padding, the smooth stack's nine shifted differences with their absolute value, a padding, the
  original stack's nine differences and its colour weight, a padding, the original's edge response, a padding, the
  smooth stack's edge response and the flat mask, the two power terms, and the blend with its mean: after each cut
  only a handful of values are read again, so each piece can be evaluated by itself from any contents.
-/
import proofs.«122793_j4587025072325_2_alg».proof.Proof.RefFn
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo

/-! ## Two general facts about a line of operations -/

section General

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- An operation of nine operands given as a literal family leaves its result buffer at its function of the nine
    operands' contents, each read AT ITS OWN reference (so that what each operand holds can be rewritten further). -/
theorem nary9_result' {x0 x1 x2 x3 x4 x5 x6 x7 x8 y : Ref sig .tc}
    (f : ((k : Fin 9) → ((![x0, x1, x2, x3, x4, x5, x6, x7, x8] : Fin 9 → Ref sig .tc) k).ty.Contents Val) → y.ty.Contents Val)
    (hxs hy) (V : Valuation τ sig Val) :
    (nary (τ := τ) ![x0, x1, x2, x3, x4, x5, x6, x7, x8] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
          (Fin.cons (V (Proc.devRef .tc x6)) (Fin.cons (V (Proc.devRef .tc x7)) (Fin.cons (V (Proc.devRef .tc x8))
          (fun i => i.elim0)))))))))) := by
  rw [nary_result]; congr 1; funext k; fin_cases k <;> rfl

end General

variable {F : FTy → Type} [FloatOps F] [Facts]
open Facts₀ Facts

-- the contents types of the program's tensor values, by shape
set_option quotPrecheck false
local notation "C4" => ((⟨S8x3x512x512, .f32⟩ : BufTy).Contents (Elt F))
local notation "C4p" => ((⟨S8x3x514x514, .f32⟩ : BufTy).Contents (Elt F))
local notation "C5" => ((⟨S8x1x3x512x512, .f32⟩ : BufTy).Contents (Elt F))
local notation "C9" => ((⟨S8x9x3x512x512, .f32⟩ : BufTy).Contents (Elt F))
local notation "C0" => ((⟨S_, .f32⟩ : BufTy).Contents (Elt F))
local notation "C9r" => ((⟨S8x9x512x512, .f32⟩ : BufTy).Contents (Elt F))
local notation "C9e" => ((⟨S8x9x1x512x512, .f32⟩ : BufTy).Contents (Elt F))
local notation "C9l" => ((⟨S9, .f32⟩ : BufTy).Contents (Elt F))
local notation "C9w" => ((⟨S1x9x1x1x1, .f32⟩ : BufTy).Contents (Elt F))
local notation "C3" => ((⟨S8x512x512, .f32⟩ : BufTy).Contents (Elt F))
local notation "B3" => ((⟨S8x512x512, .i1⟩ : BufTy).Contents (Elt F))
local notation "B5" => ((⟨S8x1x1x512x512, .i1⟩ : BufTy).Contents (Elt F))
local notation "C5m" => ((⟨S8x1x1x512x512, .f32⟩ : BufTy).Contents (Elt F))
set_option quotPrecheck true

/-! ## The operations -/

/-- The padding function's 16 operations over its operand `x0` and one call's buffers `φ`, the four flips inline
    (each one `reverse` into the nested call's buffer). -/
abbrev padOps (x0 : TRef sig ⟨S8x3x512x512, .f32⟩) (φ : fn_pad.Bufs) : List (HloOp τ sig (Elt F)) :=
  [ TRef.unary x0 φ.v0 (extractStridedSlice S8x3x1x512 ![0, 0, 0, 0] · slices_S8x3x512x512_S8x3x1x512_0_0_0_0),
    TRef.unary x0 φ.v1 (extractStridedSlice S8x3x1x512 ![0, 0, 1, 0] · slices_S8x3x512x512_S8x3x1x512_0_0_1_0),
    TRef.unary φ.v1 φ.call0.v0 (Host.reverse [2]),
    TRef.binary φ.call0.v0 x0 φ.v3 (fun a b => concatenate S8x3x513x512 2 [⟨S8x3x1x512, a⟩, ⟨S8x3x512x512, b⟩] concatenates_S8x3x1x512_S8x3x512x512_S8x3x513x512_d2),
    TRef.unary φ.v3 φ.v4 (extractStridedSlice S8x3x1x512 ![0, 0, 512, 0] · slices_S8x3x513x512_S8x3x1x512_0_0_512_0),
    TRef.unary φ.v3 φ.v5 (extractStridedSlice S8x3x1x512 ![0, 0, 511, 0] · slices_S8x3x513x512_S8x3x1x512_0_0_511_0),
    TRef.unary φ.v5 φ.call1.v0 (Host.reverse [2]),
    TRef.binary φ.v3 φ.call1.v0 φ.v7 (fun a b => concatenate S8x3x514x512 2 [⟨S8x3x513x512, a⟩, ⟨S8x3x1x512, b⟩] concatenates_S8x3x513x512_S8x3x1x512_S8x3x514x512_d2),
    TRef.unary φ.v7 φ.v8 (extractStridedSlice S8x3x514x1 ![0, 0, 0, 0] · slices_S8x3x514x512_S8x3x514x1_0_0_0_0),
    TRef.unary φ.v7 φ.v9 (extractStridedSlice S8x3x514x1 ![0, 0, 0, 1] · slices_S8x3x514x512_S8x3x514x1_0_0_0_1),
    TRef.unary φ.v9 φ.call2.v0 (Host.reverse [3]),
    TRef.binary φ.call2.v0 φ.v7 φ.v11 (fun a b => concatenate S8x3x514x513 3 [⟨S8x3x514x1, a⟩, ⟨S8x3x514x512, b⟩] concatenates_S8x3x514x1_S8x3x514x512_S8x3x514x513_d3),
    TRef.unary φ.v11 φ.v12 (extractStridedSlice S8x3x514x1 ![0, 0, 0, 512] · slices_S8x3x514x513_S8x3x514x1_0_0_0_512),
    TRef.unary φ.v11 φ.v13 (extractStridedSlice S8x3x514x1 ![0, 0, 0, 511] · slices_S8x3x514x513_S8x3x514x1_0_0_0_511),
    TRef.unary φ.v13 φ.call3.v0 (Host.reverse [3]),
    TRef.binary φ.v11 φ.call3.v0 φ.v15 (fun a b => concatenate S8x3x514x514 3 [⟨S8x3x514x513, a⟩, ⟨S8x3x514x1, b⟩] concatenates_S8x3x514x513_S8x3x514x1_S8x3x514x514_d3) ]

/-- The table of nine constants and the first padding's unused integer. -/
abbrev segA1 : List (HloOp τ sig (Elt F)) :=
  [ nullary main_cst (fun i => FloatOps.ofBits .f32 (lit0 (S9.rowMajor i))),
    nullary main_c (constantI S_ 32 0#32) ]

/-- The smooth image's nine differences from its padded copy, stacked, and their absolute value. -/
abbrev segD0 : List (HloOp τ sig (Elt F)) :=
  [ unary main_v0 main_v1 ((extractStridedSlice S8x3x512x512 ![0, 0, 0, 0] · slices_S8x3x514x514_S8x3x512x512_0_0_0_0) : C4p → C4),
    binary main_arg1 main_v1 main_v2 (subf : C4 → C4 → C4),
    unary main_v0 main_v3 ((extractStridedSlice S8x3x512x512 ![0, 0, 1, 0] · slices_S8x3x514x514_S8x3x512x512_0_0_1_0) : C4p → C4),
    binary main_arg1 main_v3 main_v4 (subf : C4 → C4 → C4),
    unary main_v0 main_v5 ((extractStridedSlice S8x3x512x512 ![0, 0, 2, 0] · slices_S8x3x514x514_S8x3x512x512_0_0_2_0) : C4p → C4),
    binary main_arg1 main_v5 main_v6 (subf : C4 → C4 → C4),
    unary main_v0 main_v7 ((extractStridedSlice S8x3x512x512 ![0, 0, 0, 1] · slices_S8x3x514x514_S8x3x512x512_0_0_0_1) : C4p → C4),
    binary main_arg1 main_v7 main_v8 (subf : C4 → C4 → C4),
    unary main_v0 main_v9 ((extractStridedSlice S8x3x512x512 ![0, 0, 1, 1] · slices_S8x3x514x514_S8x3x512x512_0_0_1_1) : C4p → C4),
    binary main_arg1 main_v9 main_v10 (subf : C4 → C4 → C4),
    unary main_v0 main_v11 ((extractStridedSlice S8x3x512x512 ![0, 0, 2, 1] · slices_S8x3x514x514_S8x3x512x512_0_0_2_1) : C4p → C4),
    binary main_arg1 main_v11 main_v12 (subf : C4 → C4 → C4),
    unary main_v0 main_v13 ((extractStridedSlice S8x3x512x512 ![0, 0, 0, 2] · slices_S8x3x514x514_S8x3x512x512_0_0_0_2) : C4p → C4),
    binary main_arg1 main_v13 main_v14 (subf : C4 → C4 → C4),
    unary main_v0 main_v15 ((extractStridedSlice S8x3x512x512 ![0, 0, 1, 2] · slices_S8x3x514x514_S8x3x512x512_0_0_1_2) : C4p → C4),
    binary main_arg1 main_v15 main_v16 (subf : C4 → C4 → C4),
    unary main_v0 main_v17 ((extractStridedSlice S8x3x512x512 ![0, 0, 2, 2] · slices_S8x3x514x514_S8x3x512x512_0_0_2_2) : C4p → C4),
    binary main_arg1 main_v17 main_v18 (subf : C4 → C4 → C4),
    unary main_v2 main_v19 (broadcastInDim S8x1x3x512x512 ![0, 2, 3, 4] bcast_S8x3x512x512_S8x1x3x512x512_0_2_3_4 : C4 → C5),
    unary main_v4 main_v20 (broadcastInDim S8x1x3x512x512 ![0, 2, 3, 4] bcast_S8x3x512x512_S8x1x3x512x512_0_2_3_4 : C4 → C5),
    unary main_v6 main_v21 (broadcastInDim S8x1x3x512x512 ![0, 2, 3, 4] bcast_S8x3x512x512_S8x1x3x512x512_0_2_3_4 : C4 → C5),
    unary main_v8 main_v22 (broadcastInDim S8x1x3x512x512 ![0, 2, 3, 4] bcast_S8x3x512x512_S8x1x3x512x512_0_2_3_4 : C4 → C5),
    unary main_v10 main_v23 (broadcastInDim S8x1x3x512x512 ![0, 2, 3, 4] bcast_S8x3x512x512_S8x1x3x512x512_0_2_3_4 : C4 → C5),
    unary main_v12 main_v24 (broadcastInDim S8x1x3x512x512 ![0, 2, 3, 4] bcast_S8x3x512x512_S8x1x3x512x512_0_2_3_4 : C4 → C5),
    unary main_v14 main_v25 (broadcastInDim S8x1x3x512x512 ![0, 2, 3, 4] bcast_S8x3x512x512_S8x1x3x512x512_0_2_3_4 : C4 → C5),
    unary main_v16 main_v26 (broadcastInDim S8x1x3x512x512 ![0, 2, 3, 4] bcast_S8x3x512x512_S8x1x3x512x512_0_2_3_4 : C4 → C5),
    unary main_v18 main_v27 (broadcastInDim S8x1x3x512x512 ![0, 2, 3, 4] bcast_S8x3x512x512_S8x1x3x512x512_0_2_3_4 : C4 → C5),
    nary ![main_v19, main_v20, main_v21, main_v22, main_v23, main_v24, main_v25, main_v26, main_v27] main_v28 (fun u => concatenate S8x9x3x512x512 1 [⟨S8x1x3x512x512, u 0⟩, ⟨S8x1x3x512x512, u 1⟩, ⟨S8x1x3x512x512, u 2⟩, ⟨S8x1x3x512x512, u 3⟩, ⟨S8x1x3x512x512, u 4⟩, ⟨S8x1x3x512x512, u 5⟩, ⟨S8x1x3x512x512, u 6⟩, ⟨S8x1x3x512x512, u 7⟩, ⟨S8x1x3x512x512, u 8⟩] concatenates_S8x1x3x512x512_S8x1x3x512x512_S8x1x3x512x512_S8x1x3x512x512_S8x1x3x512x512_S8x1x3x512x512_S8x1x3x512x512_S8x1x3x512x512_S8x1x3x512x512_S8x9x3x512x512_d1),
    unary main_v28 main_v29 (Host.absf : C9 → C9),
    nullary main_c_0 (constantI S_ 32 0#32) ]

/-- The original image's nine differences from its padded copy and the first eight of their broadcasts. -/
abbrev segD1a : List (HloOp τ sig (Elt F)) :=
  [ unary main_v30 main_v31 ((extractStridedSlice S8x3x512x512 ![0, 0, 0, 0] · slices_S8x3x514x514_S8x3x512x512_0_0_0_0) : C4p → C4),
    binary main_arg0 main_v31 main_v32 (subf : C4 → C4 → C4),
    unary main_v30 main_v33 ((extractStridedSlice S8x3x512x512 ![0, 0, 1, 0] · slices_S8x3x514x514_S8x3x512x512_0_0_1_0) : C4p → C4),
    binary main_arg0 main_v33 main_v34 (subf : C4 → C4 → C4),
    unary main_v30 main_v35 ((extractStridedSlice S8x3x512x512 ![0, 0, 2, 0] · slices_S8x3x514x514_S8x3x512x512_0_0_2_0) : C4p → C4),
    binary main_arg0 main_v35 main_v36 (subf : C4 → C4 → C4),
    unary main_v30 main_v37 ((extractStridedSlice S8x3x512x512 ![0, 0, 0, 1] · slices_S8x3x514x514_S8x3x512x512_0_0_0_1) : C4p → C4),
    binary main_arg0 main_v37 main_v38 (subf : C4 → C4 → C4),
    unary main_v30 main_v39 ((extractStridedSlice S8x3x512x512 ![0, 0, 1, 1] · slices_S8x3x514x514_S8x3x512x512_0_0_1_1) : C4p → C4),
    binary main_arg0 main_v39 main_v40 (subf : C4 → C4 → C4),
    unary main_v30 main_v41 ((extractStridedSlice S8x3x512x512 ![0, 0, 2, 1] · slices_S8x3x514x514_S8x3x512x512_0_0_2_1) : C4p → C4),
    binary main_arg0 main_v41 main_v42 (subf : C4 → C4 → C4),
    unary main_v30 main_v43 ((extractStridedSlice S8x3x512x512 ![0, 0, 0, 2] · slices_S8x3x514x514_S8x3x512x512_0_0_0_2) : C4p → C4),
    binary main_arg0 main_v43 main_v44 (subf : C4 → C4 → C4),
    unary main_v30 main_v45 ((extractStridedSlice S8x3x512x512 ![0, 0, 1, 2] · slices_S8x3x514x514_S8x3x512x512_0_0_1_2) : C4p → C4),
    binary main_arg0 main_v45 main_v46 (subf : C4 → C4 → C4),
    unary main_v30 main_v47 ((extractStridedSlice S8x3x512x512 ![0, 0, 2, 2] · slices_S8x3x514x514_S8x3x512x512_0_0_2_2) : C4p → C4),
    binary main_arg0 main_v47 main_v48 (subf : C4 → C4 → C4),
    unary main_v32 main_v49 (broadcastInDim S8x1x3x512x512 ![0, 2, 3, 4] bcast_S8x3x512x512_S8x1x3x512x512_0_2_3_4 : C4 → C5),
    unary main_v34 main_v50 (broadcastInDim S8x1x3x512x512 ![0, 2, 3, 4] bcast_S8x3x512x512_S8x1x3x512x512_0_2_3_4 : C4 → C5),
    unary main_v36 main_v51 (broadcastInDim S8x1x3x512x512 ![0, 2, 3, 4] bcast_S8x3x512x512_S8x1x3x512x512_0_2_3_4 : C4 → C5),
    unary main_v38 main_v52 (broadcastInDim S8x1x3x512x512 ![0, 2, 3, 4] bcast_S8x3x512x512_S8x1x3x512x512_0_2_3_4 : C4 → C5),
    unary main_v40 main_v53 (broadcastInDim S8x1x3x512x512 ![0, 2, 3, 4] bcast_S8x3x512x512_S8x1x3x512x512_0_2_3_4 : C4 → C5),
    unary main_v42 main_v54 (broadcastInDim S8x1x3x512x512 ![0, 2, 3, 4] bcast_S8x3x512x512_S8x1x3x512x512_0_2_3_4 : C4 → C5),
    unary main_v44 main_v55 (broadcastInDim S8x1x3x512x512 ![0, 2, 3, 4] bcast_S8x3x512x512_S8x1x3x512x512_0_2_3_4 : C4 → C5),
    unary main_v46 main_v56 (broadcastInDim S8x1x3x512x512 ![0, 2, 3, 4] bcast_S8x3x512x512_S8x1x3x512x512_0_2_3_4 : C4 → C5) ]

/-- @main's statements 1 … 60: the table and the first two paddings, the smooth image's nine differences stacked and
    their absolute value, the original's nine differences and the first eight of their broadcasts. -/
abbrev opsA : List (HloOp τ sig (Elt F)) :=
  segA1 ++ padOps (.of main_arg1) main_call0 ++ segD0 ++ padOps (.of main_arg0) main_call1 ++ segD1a

/-- The ninth broadcast, the original's stack, its colour weight, and the table's broadcast. -/
abbrev segD1b : List (HloOp τ sig (Elt F)) :=
  [ unary main_v48 main_v57 (broadcastInDim S8x1x3x512x512 ![0, 2, 3, 4] bcast_S8x3x512x512_S8x1x3x512x512_0_2_3_4 : C4 → C5),
    nary ![main_v49, main_v50, main_v51, main_v52, main_v53, main_v54, main_v55, main_v56, main_v57] main_v58 (fun u => concatenate S8x9x3x512x512 1 [⟨S8x1x3x512x512, u 0⟩, ⟨S8x1x3x512x512, u 1⟩, ⟨S8x1x3x512x512, u 2⟩, ⟨S8x1x3x512x512, u 3⟩, ⟨S8x1x3x512x512, u 4⟩, ⟨S8x1x3x512x512, u 5⟩, ⟨S8x1x3x512x512, u 6⟩, ⟨S8x1x3x512x512, u 7⟩, ⟨S8x1x3x512x512, u 8⟩] concatenates_S8x1x3x512x512_S8x1x3x512x512_S8x1x3x512x512_S8x1x3x512x512_S8x1x3x512x512_S8x1x3x512x512_S8x1x3x512x512_S8x1x3x512x512_S8x1x3x512x512_S8x9x3x512x512_d1),
    nullary main_cst_1 (constant S_ .f32 0xBF000000#32),
    unary main_cst_1 main_v59 (broadcastInDim S8x9x3x512x512 ![] bcast_S_S8x9x3x512x512 : C0 → C9),
    binary main_v59 main_v58 main_v60 (mulf : C9 → C9 → C9),
    binary main_v60 main_v58 main_v61 (mulf : C9 → C9 → C9),
    nullary main_cst_2 (constant S_ .f32 0x00000000#32),
    binary main_v61 main_cst_2 main_v62 ((fun x v => Host.reduceAdd x v reducesTo_S8x9x3x512x512_S8x9x512x512_d2 h_S_) : C9 → C0 → C9r),
    unary main_v62 main_v63 (broadcastInDim S8x9x1x512x512 ![0, 1, 3, 4] bcast_S8x9x512x512_S8x9x1x512x512_0_1_3_4 : C9r → C9e),
    unary main_v63 main_v64 (Host.exp : C9e → C9e),
    unary main_cst main_v65 (broadcastInDim S1x9x1x1x1 ![1] bcast_S9_S1x9x1x1x1_1 : C9l → C9w),
    nullary main_c_3 (constantI S_ 32 0#32) ]

/-- The original's edge response from its padded copy. -/
abbrev segE0 : List (HloOp τ sig (Elt F)) :=
  [ unary main_v66 main_v67 ((extractStridedSlice S8x3x512x512 ![0, 0, 2, 1] · slices_S8x3x514x514_S8x3x512x512_0_0_2_1) : C4p → C4),
    binary main_arg0 main_v67 main_v68 (subf : C4 → C4 → C4),
    unary main_v66 main_v69 ((extractStridedSlice S8x3x512x512 ![0, 0, 1, 2] · slices_S8x3x514x514_S8x3x512x512_0_0_1_2) : C4p → C4),
    binary main_arg0 main_v69 main_v70 (subf : C4 → C4 → C4),
    binary main_v68 main_v68 main_v71 (mulf : C4 → C4 → C4),
    binary main_v70 main_v70 main_v72 (mulf : C4 → C4 → C4),
    binary main_v71 main_v72 main_v73 (addf : C4 → C4 → C4),
    nullary main_cst_4 (constant S_ .f32 0x00000000#32),
    binary main_v73 main_cst_4 main_v74 ((fun x v => Host.reduceAdd x v reducesTo_S8x3x512x512_S8x512x512_d1 h_S_) : C4 → C0 → C3),
    nullary main_c_5 (constantI S_ 32 0#32) ]

/-- The smooth image's edge response from its padded copy, and the flat mask as a number. -/
abbrev segE1M : List (HloOp τ sig (Elt F)) :=
  [ unary main_v75 main_v76 ((extractStridedSlice S8x3x512x512 ![0, 0, 2, 1] · slices_S8x3x514x514_S8x3x512x512_0_0_2_1) : C4p → C4),
    binary main_arg1 main_v76 main_v77 (subf : C4 → C4 → C4),
    unary main_v75 main_v78 ((extractStridedSlice S8x3x512x512 ![0, 0, 1, 2] · slices_S8x3x514x514_S8x3x512x512_0_0_1_2) : C4p → C4),
    binary main_arg1 main_v78 main_v79 (subf : C4 → C4 → C4),
    binary main_v77 main_v77 main_v80 (mulf : C4 → C4 → C4),
    binary main_v79 main_v79 main_v81 (mulf : C4 → C4 → C4),
    binary main_v80 main_v81 main_v82 (addf : C4 → C4 → C4),
    nullary main_cst_6 (constant S_ .f32 0x00000000#32),
    binary main_v82 main_cst_6 main_v83 ((fun x v => Host.reduceAdd x v reducesTo_S8x3x512x512_S8x512x512_d1 h_S_) : C4 → C0 → C3),
    nullary main_cst_7 (constant S_ .f32 0x3F800000#32),
    unary main_cst_7 main_v84 (broadcastInDim S8x512x512 ![] bcast_S_S8x512x512 : C0 → C3),
    binary main_v74 main_v84 main_v85 (cmpf .olt : C3 → C3 → B3),
    binary main_v83 main_v74 main_v86 (subf : C3 → C3 → C3),
    nullary main_cst_8 (constant S_ .f32 0x3F800000#32),
    unary main_cst_8 main_v87 (broadcastInDim S8x512x512 ![] bcast_S_S8x512x512 : C0 → C3),
    binary main_v86 main_v87 main_v88 (cmpf .ogt : C3 → C3 → B3),
    binary main_v85 main_v88 main_v89 (andi : B3 → B3 → B3),
    unary main_v89 main_v90 (broadcastInDim S8x1x1x512x512 ![0, 3, 4] bcast_S8x512x512_S8x1x1x512x512_0_3_4 : B3 → B5),
    unary main_v90 main_v91 (uitofp .f32 : B5 → C5m) ]

/-- The two power terms with their weights, and the mask's broadcast. -/
abbrev segT : List (HloOp τ sig (Elt F)) :=
  [ nullary main_cst_9 (constant S_ .f32 0x322BCC77#32),
    unary main_cst_9 main_v92 (broadcastInDim S8x9x3x512x512 ![] bcast_S_S8x9x3x512x512 : C0 → C9),
    binary main_v29 main_v92 main_v93 (addf : C9 → C9 → C9),
    nullary main_cst_10 (constant S_ .f32 0x40000000#32),
    unary main_cst_10 main_v94 (broadcastInDim S8x9x3x512x512 ![] bcast_S_S8x9x3x512x512 : C0 → C9),
    binary main_v93 main_v94 main_v95 (Host.powf : C9 → C9 → C9),
    unary main_v65 main_v96 (broadcastInDim S8x9x3x512x512 ![0, 1, 2, 3, 4] bcast_S1x9x1x1x1_S8x9x3x512x512_0_1_2_3_4 : C9w → C9),
    binary main_v96 main_v95 main_v97 (mulf : C9 → C9 → C9),
    nullary main_cst_11 (constant S_ .f32 0x322BCC77#32),
    unary main_cst_11 main_v98 (broadcastInDim S8x9x3x512x512 ![] bcast_S_S8x9x3x512x512 : C0 → C9),
    binary main_v29 main_v98 main_v99 (addf : C9 → C9 → C9),
    nullary main_cst_12 (constant S_ .f32 0x3F4CCCCD#32),
    unary main_cst_12 main_v100 (broadcastInDim S8x9x3x512x512 ![] bcast_S_S8x9x3x512x512 : C0 → C9),
    binary main_v99 main_v100 main_v101 (Host.powf : C9 → C9 → C9),
    unary main_v64 main_v102 (broadcastInDim S8x9x3x512x512 ![0, 1, 2, 3, 4] bcast_S8x9x1x512x512_S8x9x3x512x512_0_1_2_3_4 : C9e → C9),
    binary main_v102 main_v101 main_v103 (mulf : C9 → C9 → C9),
    unary main_v91 main_v104 (broadcastInDim S8x9x3x512x512 ![0, 1, 2, 3, 4] bcast_S8x1x1x512x512_S8x9x3x512x512_0_1_2_3_4 : C5m → C9) ]

/-- @main's statements 61 … 120: the original's stack, its colour weight, the table's broadcast, the two edge
    responses (a padding each), the flat mask, the two power terms and the mask's broadcast. -/
abbrev opsB : List (HloOp τ sig (Elt F)) :=
  segD1b ++ padOps (.of main_arg0) main_call2 ++ segE0 ++ padOps (.of main_arg1) main_call3 ++ (segE1M ++ segT)

/-- @main's statements 121 … 131: the blend, its full sum, the division by the count. -/
abbrev opsC : List (HloOp τ sig (Elt F)) :=
  [ binary main_v104 main_v97 main_v105 (mulf : C9 → C9 → C9),
    nullary main_cst_13 (constant S_ .f32 0x3F800000#32),
    unary main_cst_13 main_v106 (broadcastInDim S8x1x1x512x512 ![] bcast_S_S8x1x1x512x512 : C0 → C5m),
    binary main_v106 main_v91 main_v107 (subf : C5m → C5m → C5m),
    unary main_v107 main_v108 (broadcastInDim S8x9x3x512x512 ![0, 1, 2, 3, 4] bcast_S8x1x1x512x512_S8x9x3x512x512_0_1_2_3_4 : C5m → C9),
    binary main_v108 main_v103 main_v109 (mulf : C9 → C9 → C9),
    binary main_v105 main_v109 main_v110 (addf : C9 → C9 → C9),
    nullary main_cst_14 (constant S_ .f32 0x00000000#32),
    binary main_v110 main_cst_14 main_v111 ((fun x v => Host.reduceAdd x v reducesTo_S8x9x3x512x512_S_d0_1_2_3_4 h_S_) : C9 → C0 → C0),
    nullary main_cst_15 (constant S_ .f32 0x4C580000#32),
    binary main_v111 main_cst_15 main_v112 (Host.divf : C0 → C0 → C0) ]

/-- @main's 192 operations, in order. -/
abbrev ops : List (HloOp τ sig (Elt F)) := opsA ++ (opsB ++ opsC)

/-- Every operation's result at its own buffer is its function of its operands' contents; any other buffer keeps its
    contents. -/
macro "ref_results" : tactic => `(tactic|
  simp (disch := decide) only [segA1, segD0, segD1a, segD1b, segE0, segE1M, segT, opsC, padOps,
    after_append, after_cons, after_nil, nullary_result', unary_result', binary_result', nary9_result',
    nullary_result_ne', unary_result_ne', binary_result_ne', nary_result_ne'])

/-- A buffer no operation of the piece writes keeps its contents. -/
macro "ref_frame" : tactic => `(tactic|
  simp (disch := decide) only [segA1, segD0, segD1a, segD1b, segE0, segE1M, segT, opsC, padOps,
    after_append, after_cons, after_nil, nullary_result_ne', unary_result_ne', binary_result_ne', nary_result_ne'])

end Cert.ReferenceIdeal.HandRun

end
-- ==== Proof.RefSeg.lean ====
/-
  The reference's pieces, each evaluated by itself.

  From ANY contents `W` of the buffers: the table of constants spread along the offsets' axis, an edge response read
  off a padded copy and its image, the flat mask from the two edge responses, and the two power terms with their
  blended mean each come out as the named function of the few values that enter the piece (given as hypotheses on
  `W`); and each piece leaves alone the values the later pieces still read. (The paddings and the two nine-fold
  stacks have modules of their own.)
-/
import proofs.«122793_j4587025072325_2_alg».proof.Proof.RefOps

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-! ## The pieces' values -/
set_option maxHeartbeats 8000000 in
set_option maxRecDepth 8192 in
/-- The table of constants spread along the offsets' axis. -/
theorem segD1_ws (W : Valuation τ sig (Elt F))
    (hc : W (main_cst : DevRef τ sig) = fun i => FloatOps.ofBits .f32 (lit0 (S9.rowMajor i))) :
    after (segD1a ++ segD1b) W (main_v65 : DevRef τ sig) = Fn.wsFn := by
  ref_results
  rw [hc]
  rfl

set_option maxHeartbeats 8000000 in
set_option maxRecDepth 8192 in
/-- The original's edge response. -/
theorem segE0_val (W : Valuation τ sig (Elt F)) (x : FVec F S8x3x512x512 .f32)
    (h66 : W (main_v66 : DevRef τ sig) = Fn.padFn x) (ha : W (main_arg0 : DevRef τ sig) = x) :
    after segE0 W (main_v74 : DevRef τ sig) = Fn.edgeFn x := by
  ref_results
  rw [h66, ha]
  rfl

set_option maxHeartbeats 8000000 in
set_option maxRecDepth 8192 in
/-- The flat mask as a number, from the original's edge response and the smooth stack's padded copy. -/
theorem segE1M_val (W : Valuation τ sig (Elt F)) (x y : FVec F S8x3x512x512 .f32)
    (h74 : W (main_v74 : DevRef τ sig) = Fn.edgeFn x) (h75 : W (main_v75 : DevRef τ sig) = Fn.padFn y)
    (ha : W (main_arg1 : DevRef τ sig) = y) :
    after segE1M W (main_v91 : DevRef τ sig) = Fn.flatFn x y := by
  ref_results
  rw [h74, h75, ha]
  rfl

set_option maxHeartbeats 8000000 in
set_option maxRecDepth 8192 in
/-- The two power terms, their blend by the mask, the sum over everything and the division by the count. -/
theorem segTC_val (W : Valuation τ sig (Elt F)) (x y : FVec F S8x3x512x512 .f32)
    (h29 : W (main_v29 : DevRef τ sig) = Host.absf (Fn.stackFn y)) (h64 : W (main_v64 : DevRef τ sig) = Fn.wrFn x)
    (h65 : W (main_v65 : DevRef τ sig) = Fn.wsFn) (h91 : W (main_v91 : DevRef τ sig) = Fn.flatFn x y) :
    after (segT ++ opsC) W (main_v112 : DevRef τ sig) = Fn.refFn x y := by
  ref_results
  rw [h29, h64, h65, h91]
  rfl

/-! ## What each piece leaves alone -/

theorem A1_cst (W : Valuation τ sig (Elt F)) :
    after segA1 W (main_cst : DevRef τ sig) = fun i => FloatOps.ofBits .f32 (lit0 (S9.rowMajor i)) := by
  ref_results
  rfl
theorem A1_arg0 (W : Valuation τ sig (Elt F)) : after segA1 W (main_arg0 : DevRef τ sig) = W (main_arg0 : DevRef τ sig) := by
  ref_frame
theorem A1_arg1 (W : Valuation τ sig (Elt F)) : after segA1 W (main_arg1 : DevRef τ sig) = W (main_arg1 : DevRef τ sig) := by
  ref_frame

theorem P0_arg0 (W : Valuation τ sig (Elt F)) :
    after (padOps (.of main_arg1) main_call0) W (main_arg0 : DevRef τ sig) = W (main_arg0 : DevRef τ sig) := by ref_frame
theorem P0_arg1 (W : Valuation τ sig (Elt F)) :
    after (padOps (.of main_arg1) main_call0) W (main_arg1 : DevRef τ sig) = W (main_arg1 : DevRef τ sig) := by ref_frame
theorem P0_cst (W : Valuation τ sig (Elt F)) :
    after (padOps (.of main_arg1) main_call0) W (main_cst : DevRef τ sig) = W (main_cst : DevRef τ sig) := by ref_frame

theorem D0_arg0 (W : Valuation τ sig (Elt F)) : after segD0 W (main_arg0 : DevRef τ sig) = W (main_arg0 : DevRef τ sig) := by
  ref_frame
theorem D0_arg1 (W : Valuation τ sig (Elt F)) : after segD0 W (main_arg1 : DevRef τ sig) = W (main_arg1 : DevRef τ sig) := by
  ref_frame
theorem D0_cst (W : Valuation τ sig (Elt F)) : after segD0 W (main_cst : DevRef τ sig) = W (main_cst : DevRef τ sig) := by
  ref_frame

theorem P1_arg0 (W : Valuation τ sig (Elt F)) :
    after (padOps (.of main_arg0) main_call1) W (main_arg0 : DevRef τ sig) = W (main_arg0 : DevRef τ sig) := by ref_frame
theorem P1_arg1 (W : Valuation τ sig (Elt F)) :
    after (padOps (.of main_arg0) main_call1) W (main_arg1 : DevRef τ sig) = W (main_arg1 : DevRef τ sig) := by ref_frame
theorem P1_cst (W : Valuation τ sig (Elt F)) :
    after (padOps (.of main_arg0) main_call1) W (main_cst : DevRef τ sig) = W (main_cst : DevRef τ sig) := by ref_frame
theorem P1_v29 (W : Valuation τ sig (Elt F)) :
    after (padOps (.of main_arg0) main_call1) W (main_v29 : DevRef τ sig) = W (main_v29 : DevRef τ sig) := by ref_frame

theorem D1_arg0 (W : Valuation τ sig (Elt F)) :
    after (segD1a ++ segD1b) W (main_arg0 : DevRef τ sig) = W (main_arg0 : DevRef τ sig) := by ref_frame
theorem D1_arg1 (W : Valuation τ sig (Elt F)) :
    after (segD1a ++ segD1b) W (main_arg1 : DevRef τ sig) = W (main_arg1 : DevRef τ sig) := by ref_frame
theorem D1_v29 (W : Valuation τ sig (Elt F)) :
    after (segD1a ++ segD1b) W (main_v29 : DevRef τ sig) = W (main_v29 : DevRef τ sig) := by ref_frame

theorem P2_arg0 (W : Valuation τ sig (Elt F)) :
    after (padOps (.of main_arg0) main_call2) W (main_arg0 : DevRef τ sig) = W (main_arg0 : DevRef τ sig) := by ref_frame
theorem P2_arg1 (W : Valuation τ sig (Elt F)) :
    after (padOps (.of main_arg0) main_call2) W (main_arg1 : DevRef τ sig) = W (main_arg1 : DevRef τ sig) := by ref_frame
theorem P2_v29 (W : Valuation τ sig (Elt F)) :
    after (padOps (.of main_arg0) main_call2) W (main_v29 : DevRef τ sig) = W (main_v29 : DevRef τ sig) := by ref_frame
theorem P2_v64 (W : Valuation τ sig (Elt F)) :
    after (padOps (.of main_arg0) main_call2) W (main_v64 : DevRef τ sig) = W (main_v64 : DevRef τ sig) := by ref_frame
theorem P2_v65 (W : Valuation τ sig (Elt F)) :
    after (padOps (.of main_arg0) main_call2) W (main_v65 : DevRef τ sig) = W (main_v65 : DevRef τ sig) := by ref_frame

theorem E0_arg1 (W : Valuation τ sig (Elt F)) : after segE0 W (main_arg1 : DevRef τ sig) = W (main_arg1 : DevRef τ sig) := by
  ref_frame
theorem E0_v29 (W : Valuation τ sig (Elt F)) : after segE0 W (main_v29 : DevRef τ sig) = W (main_v29 : DevRef τ sig) := by
  ref_frame
theorem E0_v64 (W : Valuation τ sig (Elt F)) : after segE0 W (main_v64 : DevRef τ sig) = W (main_v64 : DevRef τ sig) := by
  ref_frame
theorem E0_v65 (W : Valuation τ sig (Elt F)) : after segE0 W (main_v65 : DevRef τ sig) = W (main_v65 : DevRef τ sig) := by
  ref_frame

theorem P3_arg1 (W : Valuation τ sig (Elt F)) :
    after (padOps (.of main_arg1) main_call3) W (main_arg1 : DevRef τ sig) = W (main_arg1 : DevRef τ sig) := by ref_frame
theorem P3_v29 (W : Valuation τ sig (Elt F)) :
    after (padOps (.of main_arg1) main_call3) W (main_v29 : DevRef τ sig) = W (main_v29 : DevRef τ sig) := by ref_frame
theorem P3_v64 (W : Valuation τ sig (Elt F)) :
    after (padOps (.of main_arg1) main_call3) W (main_v64 : DevRef τ sig) = W (main_v64 : DevRef τ sig) := by ref_frame
theorem P3_v65 (W : Valuation τ sig (Elt F)) :
    after (padOps (.of main_arg1) main_call3) W (main_v65 : DevRef τ sig) = W (main_v65 : DevRef τ sig) := by ref_frame
theorem P3_v74 (W : Valuation τ sig (Elt F)) :
    after (padOps (.of main_arg1) main_call3) W (main_v74 : DevRef τ sig) = W (main_v74 : DevRef τ sig) := by ref_frame

theorem E1_v29 (W : Valuation τ sig (Elt F)) : after segE1M W (main_v29 : DevRef τ sig) = W (main_v29 : DevRef τ sig) := by
  ref_frame
theorem E1_v64 (W : Valuation τ sig (Elt F)) : after segE1M W (main_v64 : DevRef τ sig) = W (main_v64 : DevRef τ sig) := by
  ref_frame
theorem E1_v65 (W : Valuation τ sig (Elt F)) : after segE1M W (main_v65 : DevRef τ sig) = W (main_v65 : DevRef τ sig) := by
  ref_frame

end Cert.ReferenceIdeal.HandRun

end
-- ==== Proof.RefPad.lean ====
/-
  The reflection padding's run, stage by stage.

  The padding's sixteen operations are four stages of four: a row above, a row below, a column on the left, a column on
  the right. Each stage's result is read three times by the next, so each stage is evaluated on its own, over any
  contents, from the previous stage's buffer; chained, the four give the padded stack as the one function `Fn.padFn`
  of the operand's contents.
-/
import proofs.«122793_j4587025072325_2_alg».proof.Proof.RefOps

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- The padding's first four operations: the row above. -/
abbrev padA (x0 : TRef sig ⟨S8x3x512x512, .f32⟩) (φ : fn_pad.Bufs) : List (HloOp τ sig (Elt F)) :=
  [ TRef.unary x0 φ.v0 (extractStridedSlice S8x3x1x512 ![0, 0, 0, 0] · slices_S8x3x512x512_S8x3x1x512_0_0_0_0),
    TRef.unary x0 φ.v1 (extractStridedSlice S8x3x1x512 ![0, 0, 1, 0] · slices_S8x3x512x512_S8x3x1x512_0_0_1_0),
    TRef.unary φ.v1 φ.call0.v0 (Host.reverse [2]),
    TRef.binary φ.call0.v0 x0 φ.v3 (fun a b => concatenate S8x3x513x512 2 [⟨S8x3x1x512, a⟩, ⟨S8x3x512x512, b⟩] concatenates_S8x3x1x512_S8x3x512x512_S8x3x513x512_d2) ]

/-- Its next four: the row below. -/
abbrev padB (φ : fn_pad.Bufs) : List (HloOp τ sig (Elt F)) :=
  [ TRef.unary φ.v3 φ.v4 (extractStridedSlice S8x3x1x512 ![0, 0, 512, 0] · slices_S8x3x513x512_S8x3x1x512_0_0_512_0),
    TRef.unary φ.v3 φ.v5 (extractStridedSlice S8x3x1x512 ![0, 0, 511, 0] · slices_S8x3x513x512_S8x3x1x512_0_0_511_0),
    TRef.unary φ.v5 φ.call1.v0 (Host.reverse [2]),
    TRef.binary φ.v3 φ.call1.v0 φ.v7 (fun a b => concatenate S8x3x514x512 2 [⟨S8x3x513x512, a⟩, ⟨S8x3x1x512, b⟩] concatenates_S8x3x513x512_S8x3x1x512_S8x3x514x512_d2) ]

/-- Its next four: the column on the left. -/
abbrev padC (φ : fn_pad.Bufs) : List (HloOp τ sig (Elt F)) :=
  [ TRef.unary φ.v7 φ.v8 (extractStridedSlice S8x3x514x1 ![0, 0, 0, 0] · slices_S8x3x514x512_S8x3x514x1_0_0_0_0),
    TRef.unary φ.v7 φ.v9 (extractStridedSlice S8x3x514x1 ![0, 0, 0, 1] · slices_S8x3x514x512_S8x3x514x1_0_0_0_1),
    TRef.unary φ.v9 φ.call2.v0 (Host.reverse [3]),
    TRef.binary φ.call2.v0 φ.v7 φ.v11 (fun a b => concatenate S8x3x514x513 3 [⟨S8x3x514x1, a⟩, ⟨S8x3x514x512, b⟩] concatenates_S8x3x514x1_S8x3x514x512_S8x3x514x513_d3) ]

/-- Its last four: the column on the right. -/
abbrev padD (φ : fn_pad.Bufs) : List (HloOp τ sig (Elt F)) :=
  [ TRef.unary φ.v11 φ.v12 (extractStridedSlice S8x3x514x1 ![0, 0, 0, 512] · slices_S8x3x514x513_S8x3x514x1_0_0_0_512),
    TRef.unary φ.v11 φ.v13 (extractStridedSlice S8x3x514x1 ![0, 0, 0, 511] · slices_S8x3x514x513_S8x3x514x1_0_0_0_511),
    TRef.unary φ.v13 φ.call3.v0 (Host.reverse [3]),
    TRef.binary φ.v11 φ.call3.v0 φ.v15 (fun a b => concatenate S8x3x514x514 3 [⟨S8x3x514x513, a⟩, ⟨S8x3x514x1, b⟩] concatenates_S8x3x514x513_S8x3x514x1_S8x3x514x514_d3) ]

/-- The sixteen are the four stages in order. -/
theorem padOps_eq (x0 : TRef sig ⟨S8x3x512x512, .f32⟩) (φ : fn_pad.Bufs) :
    (padOps x0 φ : List (HloOp τ sig (Elt F))) = padA x0 φ ++ (padB φ ++ (padC φ ++ padD φ)) := rfl

/-- The row below, from the stack already padded above. -/
def rowsOf (t : FVec F S8x3x513x512 .f32) : FVec F S8x3x514x512 .f32 :=
  concatenate S8x3x514x512 2
    [⟨S8x3x513x512, t⟩,
     ⟨S8x3x1x512, Host.reverse [2] (extractStridedSlice S8x3x1x512 ![0, 0, 511, 0] t slices_S8x3x513x512_S8x3x1x512_0_0_511_0)⟩]
    concatenates_S8x3x513x512_S8x3x1x512_S8x3x514x512_d2

/-- The column on the right, from the stack already padded on the left. -/
def colsOf (l : FVec F S8x3x514x513 .f32) : FVec F S8x3x514x514 .f32 :=
  concatenate S8x3x514x514 3
    [⟨S8x3x514x513, l⟩,
     ⟨S8x3x514x1, Host.reverse [3] (extractStridedSlice S8x3x514x1 ![0, 0, 0, 511] l slices_S8x3x514x513_S8x3x514x1_0_0_0_511)⟩]
    concatenates_S8x3x514x513_S8x3x514x1_S8x3x514x514_d3

/-- The padded stack is the four stages composed. -/
theorem padFn_eq (x : FVec F S8x3x512x512 .f32) :
    Fn.padFn x = colsOf (Fn.padLeft (rowsOf (Fn.padTop x))) := rfl

/-- One stage: each operation's result at its own buffer is its function of its operands' contents, any other buffer
    keeps its contents. -/
macro "pad_results" : tactic => `(tactic|
  simp (disch := decide) only [padA, padB, padC, padD,
    after_cons, after_nil, unary_result', binary_result', unary_result_ne', binary_result_ne'])

/-! ## The first call: the smooth stack -/

theorem pad0_A (W : Valuation τ sig (Elt F)) :
    after (padA (.of main_arg1) main_call0) W (main_call0_v3 : DevRef τ sig) = Fn.padTop (W (main_arg1 : DevRef τ sig)) := by
  pad_results
  rfl

theorem pad0_B (W : Valuation τ sig (Elt F)) :
    after (padB main_call0) W (main_call0_v7 : DevRef τ sig) = rowsOf (W (main_call0_v3 : DevRef τ sig)) := by
  pad_results
  rfl

theorem pad0_C (W : Valuation τ sig (Elt F)) :
    after (padC main_call0) W (main_call0_v11 : DevRef τ sig) = Fn.padLeft (W (main_call0_v7 : DevRef τ sig)) := by
  pad_results
  rfl

theorem pad0_D (W : Valuation τ sig (Elt F)) :
    after (padD main_call0) W (main_v0 : DevRef τ sig) = colsOf (W (main_call0_v11 : DevRef τ sig)) := by
  pad_results
  rfl

/-- The first padding leaves the padded smooth stack. -/
theorem pad0_val (W : Valuation τ sig (Elt F)) :
    after (padOps (.of main_arg1) main_call0) W (main_v0 : DevRef τ sig) = Fn.padFn (W (main_arg1 : DevRef τ sig)) := by
  rw [padOps_eq, after_append, after_append, after_append, pad0_D, pad0_C, pad0_B, pad0_A, padFn_eq]

/-! ## The second call: the original stack, for its nine differences -/

theorem pad1_A (W : Valuation τ sig (Elt F)) :
    after (padA (.of main_arg0) main_call1) W (main_call1_v3 : DevRef τ sig) = Fn.padTop (W (main_arg0 : DevRef τ sig)) := by
  pad_results
  rfl

theorem pad1_B (W : Valuation τ sig (Elt F)) :
    after (padB main_call1) W (main_call1_v7 : DevRef τ sig) = rowsOf (W (main_call1_v3 : DevRef τ sig)) := by
  pad_results
  rfl

theorem pad1_C (W : Valuation τ sig (Elt F)) :
    after (padC main_call1) W (main_call1_v11 : DevRef τ sig) = Fn.padLeft (W (main_call1_v7 : DevRef τ sig)) := by
  pad_results
  rfl

theorem pad1_D (W : Valuation τ sig (Elt F)) :
    after (padD main_call1) W (main_v30 : DevRef τ sig) = colsOf (W (main_call1_v11 : DevRef τ sig)) := by
  pad_results
  rfl

/-- The second padding leaves the padded original stack. -/
theorem pad1_val (W : Valuation τ sig (Elt F)) :
    after (padOps (.of main_arg0) main_call1) W (main_v30 : DevRef τ sig) = Fn.padFn (W (main_arg0 : DevRef τ sig)) := by
  rw [padOps_eq, after_append, after_append, after_append, pad1_D, pad1_C, pad1_B, pad1_A, padFn_eq]

/-! ## The third call: the original stack, for its edge response -/

theorem pad2_A (W : Valuation τ sig (Elt F)) :
    after (padA (.of main_arg0) main_call2) W (main_call2_v3 : DevRef τ sig) = Fn.padTop (W (main_arg0 : DevRef τ sig)) := by
  pad_results
  rfl

theorem pad2_B (W : Valuation τ sig (Elt F)) :
    after (padB main_call2) W (main_call2_v7 : DevRef τ sig) = rowsOf (W (main_call2_v3 : DevRef τ sig)) := by
  pad_results
  rfl

theorem pad2_C (W : Valuation τ sig (Elt F)) :
    after (padC main_call2) W (main_call2_v11 : DevRef τ sig) = Fn.padLeft (W (main_call2_v7 : DevRef τ sig)) := by
  pad_results
  rfl

theorem pad2_D (W : Valuation τ sig (Elt F)) :
    after (padD main_call2) W (main_v66 : DevRef τ sig) = colsOf (W (main_call2_v11 : DevRef τ sig)) := by
  pad_results
  rfl

/-- The third padding leaves the padded original stack. -/
theorem pad2_val (W : Valuation τ sig (Elt F)) :
    after (padOps (.of main_arg0) main_call2) W (main_v66 : DevRef τ sig) = Fn.padFn (W (main_arg0 : DevRef τ sig)) := by
  rw [padOps_eq, after_append, after_append, after_append, pad2_D, pad2_C, pad2_B, pad2_A, padFn_eq]

/-! ## The fourth call: the smooth stack, for its edge response -/

theorem pad3_A (W : Valuation τ sig (Elt F)) :
    after (padA (.of main_arg1) main_call3) W (main_call3_v3 : DevRef τ sig) = Fn.padTop (W (main_arg1 : DevRef τ sig)) := by
  pad_results
  rfl

theorem pad3_B (W : Valuation τ sig (Elt F)) :
    after (padB main_call3) W (main_call3_v7 : DevRef τ sig) = rowsOf (W (main_call3_v3 : DevRef τ sig)) := by
  pad_results
  rfl

theorem pad3_C (W : Valuation τ sig (Elt F)) :
    after (padC main_call3) W (main_call3_v11 : DevRef τ sig) = Fn.padLeft (W (main_call3_v7 : DevRef τ sig)) := by
  pad_results
  rfl

theorem pad3_D (W : Valuation τ sig (Elt F)) :
    after (padD main_call3) W (main_v75 : DevRef τ sig) = colsOf (W (main_call3_v11 : DevRef τ sig)) := by
  pad_results
  rfl

/-- The fourth padding leaves the padded smooth stack. -/
theorem pad3_val (W : Valuation τ sig (Elt F)) :
    after (padOps (.of main_arg1) main_call3) W (main_v75 : DevRef τ sig) = Fn.padFn (W (main_arg1 : DevRef τ sig)) := by
  rw [padOps_eq, after_append, after_append, after_append, pad3_D, pad3_C, pad3_B, pad3_A, padFn_eq]

end Cert.ReferenceIdeal.HandRun

end
-- ==== Proof.RefStack.lean ====
/-
  The two nine-fold stacks' run.

  Each stack is built in two steps: nine differences of the image from its padded copy, each given a new unit axis
  (twenty-seven operations), then their concatenation along that axis and what follows it. The concatenation's shape
  relation depends on its list of operands, so the nine operands are settled first, over any contents that hold the
  padded copy and the image: each is the difference at its offset under the unit axis. Then the rest is evaluated with
  the nine operands as given values.
-/
import proofs.«122793_j4587025072325_2_alg».proof.Proof.RefOps

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

-- the contents types of the tensor values met here, by shape
set_option quotPrecheck false
local notation "C4" => ((⟨S8x3x512x512, .f32⟩ : BufTy).Contents (Elt F))
local notation "C4p" => ((⟨S8x3x514x514, .f32⟩ : BufTy).Contents (Elt F))
local notation "C5" => ((⟨S8x1x3x512x512, .f32⟩ : BufTy).Contents (Elt F))
local notation "C9" => ((⟨S8x9x3x512x512, .f32⟩ : BufTy).Contents (Elt F))
local notation "C0" => ((⟨S_, .f32⟩ : BufTy).Contents (Elt F))
local notation "C9r" => ((⟨S8x9x512x512, .f32⟩ : BufTy).Contents (Elt F))
local notation "C9e" => ((⟨S8x9x1x512x512, .f32⟩ : BufTy).Contents (Elt F))
local notation "C9l" => ((⟨S9, .f32⟩ : BufTy).Contents (Elt F))
local notation "C9w" => ((⟨S1x9x1x1x1, .f32⟩ : BufTy).Contents (Elt F))
set_option quotPrecheck true

/-! ## The pieces -/

/-- The smooth image's nine differences and their nine broadcasts. -/
abbrev segD0a : List (HloOp τ sig (Elt F)) :=
  [ unary main_v0 main_v1 ((extractStridedSlice S8x3x512x512 ![0, 0, 0, 0] · slices_S8x3x514x514_S8x3x512x512_0_0_0_0) : C4p → C4),
    binary main_arg1 main_v1 main_v2 (subf : C4 → C4 → C4),
    unary main_v0 main_v3 ((extractStridedSlice S8x3x512x512 ![0, 0, 1, 0] · slices_S8x3x514x514_S8x3x512x512_0_0_1_0) : C4p → C4),
    binary main_arg1 main_v3 main_v4 (subf : C4 → C4 → C4),
    unary main_v0 main_v5 ((extractStridedSlice S8x3x512x512 ![0, 0, 2, 0] · slices_S8x3x514x514_S8x3x512x512_0_0_2_0) : C4p → C4),
    binary main_arg1 main_v5 main_v6 (subf : C4 → C4 → C4),
    unary main_v0 main_v7 ((extractStridedSlice S8x3x512x512 ![0, 0, 0, 1] · slices_S8x3x514x514_S8x3x512x512_0_0_0_1) : C4p → C4),
    binary main_arg1 main_v7 main_v8 (subf : C4 → C4 → C4),
    unary main_v0 main_v9 ((extractStridedSlice S8x3x512x512 ![0, 0, 1, 1] · slices_S8x3x514x514_S8x3x512x512_0_0_1_1) : C4p → C4),
    binary main_arg1 main_v9 main_v10 (subf : C4 → C4 → C4),
    unary main_v0 main_v11 ((extractStridedSlice S8x3x512x512 ![0, 0, 2, 1] · slices_S8x3x514x514_S8x3x512x512_0_0_2_1) : C4p → C4),
    binary main_arg1 main_v11 main_v12 (subf : C4 → C4 → C4),
    unary main_v0 main_v13 ((extractStridedSlice S8x3x512x512 ![0, 0, 0, 2] · slices_S8x3x514x514_S8x3x512x512_0_0_0_2) : C4p → C4),
    binary main_arg1 main_v13 main_v14 (subf : C4 → C4 → C4),
    unary main_v0 main_v15 ((extractStridedSlice S8x3x512x512 ![0, 0, 1, 2] · slices_S8x3x514x514_S8x3x512x512_0_0_1_2) : C4p → C4),
    binary main_arg1 main_v15 main_v16 (subf : C4 → C4 → C4),
    unary main_v0 main_v17 ((extractStridedSlice S8x3x512x512 ![0, 0, 2, 2] · slices_S8x3x514x514_S8x3x512x512_0_0_2_2) : C4p → C4),
    binary main_arg1 main_v17 main_v18 (subf : C4 → C4 → C4),
    unary main_v2 main_v19 (broadcastInDim S8x1x3x512x512 ![0, 2, 3, 4] bcast_S8x3x512x512_S8x1x3x512x512_0_2_3_4 : C4 → C5),
    unary main_v4 main_v20 (broadcastInDim S8x1x3x512x512 ![0, 2, 3, 4] bcast_S8x3x512x512_S8x1x3x512x512_0_2_3_4 : C4 → C5),
    unary main_v6 main_v21 (broadcastInDim S8x1x3x512x512 ![0, 2, 3, 4] bcast_S8x3x512x512_S8x1x3x512x512_0_2_3_4 : C4 → C5),
    unary main_v8 main_v22 (broadcastInDim S8x1x3x512x512 ![0, 2, 3, 4] bcast_S8x3x512x512_S8x1x3x512x512_0_2_3_4 : C4 → C5),
    unary main_v10 main_v23 (broadcastInDim S8x1x3x512x512 ![0, 2, 3, 4] bcast_S8x3x512x512_S8x1x3x512x512_0_2_3_4 : C4 → C5),
    unary main_v12 main_v24 (broadcastInDim S8x1x3x512x512 ![0, 2, 3, 4] bcast_S8x3x512x512_S8x1x3x512x512_0_2_3_4 : C4 → C5),
    unary main_v14 main_v25 (broadcastInDim S8x1x3x512x512 ![0, 2, 3, 4] bcast_S8x3x512x512_S8x1x3x512x512_0_2_3_4 : C4 → C5),
    unary main_v16 main_v26 (broadcastInDim S8x1x3x512x512 ![0, 2, 3, 4] bcast_S8x3x512x512_S8x1x3x512x512_0_2_3_4 : C4 → C5),
    unary main_v18 main_v27 (broadcastInDim S8x1x3x512x512 ![0, 2, 3, 4] bcast_S8x3x512x512_S8x1x3x512x512_0_2_3_4 : C4 → C5) ]

/-- Their concatenation, its absolute value, and the next padding's unused integer. -/
abbrev segD0b : List (HloOp τ sig (Elt F)) :=
  [ nary ![main_v19, main_v20, main_v21, main_v22, main_v23, main_v24, main_v25, main_v26, main_v27] main_v28 (fun u => concatenate S8x9x3x512x512 1 [⟨S8x1x3x512x512, u 0⟩, ⟨S8x1x3x512x512, u 1⟩, ⟨S8x1x3x512x512, u 2⟩, ⟨S8x1x3x512x512, u 3⟩, ⟨S8x1x3x512x512, u 4⟩, ⟨S8x1x3x512x512, u 5⟩, ⟨S8x1x3x512x512, u 6⟩, ⟨S8x1x3x512x512, u 7⟩, ⟨S8x1x3x512x512, u 8⟩] concatenates_S8x1x3x512x512_S8x1x3x512x512_S8x1x3x512x512_S8x1x3x512x512_S8x1x3x512x512_S8x1x3x512x512_S8x1x3x512x512_S8x1x3x512x512_S8x1x3x512x512_S8x9x3x512x512_d1),
    unary main_v28 main_v29 (Host.absf : C9 → C9),
    nullary main_c_0 (constantI S_ 32 0#32) ]

theorem segD0_eq : (segD0 : List (HloOp τ sig (Elt F))) = segD0a ++ segD0b := rfl

/-- The original image's nine differences and their nine broadcasts. -/
abbrev segD1p : List (HloOp τ sig (Elt F)) :=
  [ unary main_v30 main_v31 ((extractStridedSlice S8x3x512x512 ![0, 0, 0, 0] · slices_S8x3x514x514_S8x3x512x512_0_0_0_0) : C4p → C4),
    binary main_arg0 main_v31 main_v32 (subf : C4 → C4 → C4),
    unary main_v30 main_v33 ((extractStridedSlice S8x3x512x512 ![0, 0, 1, 0] · slices_S8x3x514x514_S8x3x512x512_0_0_1_0) : C4p → C4),
    binary main_arg0 main_v33 main_v34 (subf : C4 → C4 → C4),
    unary main_v30 main_v35 ((extractStridedSlice S8x3x512x512 ![0, 0, 2, 0] · slices_S8x3x514x514_S8x3x512x512_0_0_2_0) : C4p → C4),
    binary main_arg0 main_v35 main_v36 (subf : C4 → C4 → C4),
    unary main_v30 main_v37 ((extractStridedSlice S8x3x512x512 ![0, 0, 0, 1] · slices_S8x3x514x514_S8x3x512x512_0_0_0_1) : C4p → C4),
    binary main_arg0 main_v37 main_v38 (subf : C4 → C4 → C4),
    unary main_v30 main_v39 ((extractStridedSlice S8x3x512x512 ![0, 0, 1, 1] · slices_S8x3x514x514_S8x3x512x512_0_0_1_1) : C4p → C4),
    binary main_arg0 main_v39 main_v40 (subf : C4 → C4 → C4),
    unary main_v30 main_v41 ((extractStridedSlice S8x3x512x512 ![0, 0, 2, 1] · slices_S8x3x514x514_S8x3x512x512_0_0_2_1) : C4p → C4),
    binary main_arg0 main_v41 main_v42 (subf : C4 → C4 → C4),
    unary main_v30 main_v43 ((extractStridedSlice S8x3x512x512 ![0, 0, 0, 2] · slices_S8x3x514x514_S8x3x512x512_0_0_0_2) : C4p → C4),
    binary main_arg0 main_v43 main_v44 (subf : C4 → C4 → C4),
    unary main_v30 main_v45 ((extractStridedSlice S8x3x512x512 ![0, 0, 1, 2] · slices_S8x3x514x514_S8x3x512x512_0_0_1_2) : C4p → C4),
    binary main_arg0 main_v45 main_v46 (subf : C4 → C4 → C4),
    unary main_v30 main_v47 ((extractStridedSlice S8x3x512x512 ![0, 0, 2, 2] · slices_S8x3x514x514_S8x3x512x512_0_0_2_2) : C4p → C4),
    binary main_arg0 main_v47 main_v48 (subf : C4 → C4 → C4),
    unary main_v32 main_v49 (broadcastInDim S8x1x3x512x512 ![0, 2, 3, 4] bcast_S8x3x512x512_S8x1x3x512x512_0_2_3_4 : C4 → C5),
    unary main_v34 main_v50 (broadcastInDim S8x1x3x512x512 ![0, 2, 3, 4] bcast_S8x3x512x512_S8x1x3x512x512_0_2_3_4 : C4 → C5),
    unary main_v36 main_v51 (broadcastInDim S8x1x3x512x512 ![0, 2, 3, 4] bcast_S8x3x512x512_S8x1x3x512x512_0_2_3_4 : C4 → C5),
    unary main_v38 main_v52 (broadcastInDim S8x1x3x512x512 ![0, 2, 3, 4] bcast_S8x3x512x512_S8x1x3x512x512_0_2_3_4 : C4 → C5),
    unary main_v40 main_v53 (broadcastInDim S8x1x3x512x512 ![0, 2, 3, 4] bcast_S8x3x512x512_S8x1x3x512x512_0_2_3_4 : C4 → C5),
    unary main_v42 main_v54 (broadcastInDim S8x1x3x512x512 ![0, 2, 3, 4] bcast_S8x3x512x512_S8x1x3x512x512_0_2_3_4 : C4 → C5),
    unary main_v44 main_v55 (broadcastInDim S8x1x3x512x512 ![0, 2, 3, 4] bcast_S8x3x512x512_S8x1x3x512x512_0_2_3_4 : C4 → C5),
    unary main_v46 main_v56 (broadcastInDim S8x1x3x512x512 ![0, 2, 3, 4] bcast_S8x3x512x512_S8x1x3x512x512_0_2_3_4 : C4 → C5),
    unary main_v48 main_v57 (broadcastInDim S8x1x3x512x512 ![0, 2, 3, 4] bcast_S8x3x512x512_S8x1x3x512x512_0_2_3_4 : C4 → C5) ]

/-- Their concatenation, the colour weight from it, the table's broadcast and the next padding's unused integer. -/
abbrev segD1r : List (HloOp τ sig (Elt F)) :=
  [ nary ![main_v49, main_v50, main_v51, main_v52, main_v53, main_v54, main_v55, main_v56, main_v57] main_v58 (fun u => concatenate S8x9x3x512x512 1 [⟨S8x1x3x512x512, u 0⟩, ⟨S8x1x3x512x512, u 1⟩, ⟨S8x1x3x512x512, u 2⟩, ⟨S8x1x3x512x512, u 3⟩, ⟨S8x1x3x512x512, u 4⟩, ⟨S8x1x3x512x512, u 5⟩, ⟨S8x1x3x512x512, u 6⟩, ⟨S8x1x3x512x512, u 7⟩, ⟨S8x1x3x512x512, u 8⟩] concatenates_S8x1x3x512x512_S8x1x3x512x512_S8x1x3x512x512_S8x1x3x512x512_S8x1x3x512x512_S8x1x3x512x512_S8x1x3x512x512_S8x1x3x512x512_S8x1x3x512x512_S8x9x3x512x512_d1),
    nullary main_cst_1 (constant S_ .f32 0xBF000000#32),
    unary main_cst_1 main_v59 (broadcastInDim S8x9x3x512x512 ![] bcast_S_S8x9x3x512x512 : C0 → C9),
    binary main_v59 main_v58 main_v60 (mulf : C9 → C9 → C9),
    binary main_v60 main_v58 main_v61 (mulf : C9 → C9 → C9),
    nullary main_cst_2 (constant S_ .f32 0x00000000#32),
    binary main_v61 main_cst_2 main_v62 ((fun x v => Host.reduceAdd x v reducesTo_S8x9x3x512x512_S8x9x512x512_d2 h_S_) : C9 → C0 → C9r),
    unary main_v62 main_v63 (broadcastInDim S8x9x1x512x512 ![0, 1, 3, 4] bcast_S8x9x512x512_S8x9x1x512x512_0_1_3_4 : C9r → C9e),
    unary main_v63 main_v64 (Host.exp : C9e → C9e),
    unary main_cst main_v65 (broadcastInDim S1x9x1x1x1 ![1] bcast_S9_S1x9x1x1x1_1 : C9l → C9w),
    nullary main_c_3 (constantI S_ 32 0#32) ]

theorem segD1_eq : (segD1a ++ segD1b : List (HloOp τ sig (Elt F))) = segD1p ++ segD1r := rfl

/-- Nine arrays with a unit axis, concatenated along it. -/
def stackOf (t0 t1 t2 t3 t4 t5 t6 t7 t8 : FVec F S8x1x3x512x512 .f32) : FVec F S8x9x3x512x512 .f32 :=
  concatenate S8x9x3x512x512 1
    [⟨S8x1x3x512x512, t0⟩, ⟨S8x1x3x512x512, t1⟩, ⟨S8x1x3x512x512, t2⟩, ⟨S8x1x3x512x512, t3⟩, ⟨S8x1x3x512x512, t4⟩,
     ⟨S8x1x3x512x512, t5⟩, ⟨S8x1x3x512x512, t6⟩, ⟨S8x1x3x512x512, t7⟩, ⟨S8x1x3x512x512, t8⟩]
    concatenates_S8x1x3x512x512_S8x1x3x512x512_S8x1x3x512x512_S8x1x3x512x512_S8x1x3x512x512_S8x1x3x512x512_S8x1x3x512x512_S8x1x3x512x512_S8x1x3x512x512_S8x9x3x512x512_d1

/-- The colour weight of a stack of differences: the exponential of the sum over the channels of (−½ · d) · d. -/
def wrOf (s : FVec F S8x9x3x512x512 .f32) : FVec F S8x9x1x512x512 .f32 :=
  Host.exp
    (broadcastInDim S8x9x1x512x512 ![0, 1, 3, 4] bcast_S8x9x512x512_S8x9x1x512x512_0_1_3_4
      (Host.reduceAdd
        (mulf (mulf (Fn.splat S8x9x3x512x512 bcast_S_S8x9x3x512x512 0xBF000000#32) s) s)
        (constant S_ .f32 0x00000000#32)
        reducesTo_S8x9x3x512x512_S8x9x512x512_d2 h_S_))

/-- Each operation's result at its own buffer is its function of its operands' contents; any other buffer keeps its
    contents. -/
macro "stack_results" : tactic => `(tactic|
  simp (disch := decide) only [segD0a, segD0b, segD1p, segD1r,
    after_cons, after_nil, nullary_result', unary_result', binary_result', nary9_result',
    nullary_result_ne', unary_result_ne', binary_result_ne', nary_result_ne'])

/-! ## The smooth stack -/

section Smooth

variable (W : Valuation τ sig (Elt F)) (y : FVec F S8x3x512x512 .f32)
  (h0 : W (main_v0 : DevRef τ sig) = Fn.padFn y) (ha : W (main_arg1 : DevRef τ sig) = y)
include h0 ha

theorem d0_19 : after segD0a W (main_v19 : DevRef τ sig)
    = Fn.bc5 (Fn.shiftFn ![0, 0, 0, 0] slices_S8x3x514x514_S8x3x512x512_0_0_0_0 y) := by
  stack_results
  rw [h0, ha]
  rfl

theorem d0_20 : after segD0a W (main_v20 : DevRef τ sig)
    = Fn.bc5 (Fn.shiftFn ![0, 0, 1, 0] slices_S8x3x514x514_S8x3x512x512_0_0_1_0 y) := by
  stack_results
  rw [h0, ha]
  rfl

theorem d0_21 : after segD0a W (main_v21 : DevRef τ sig)
    = Fn.bc5 (Fn.shiftFn ![0, 0, 2, 0] slices_S8x3x514x514_S8x3x512x512_0_0_2_0 y) := by
  stack_results
  rw [h0, ha]
  rfl

theorem d0_22 : after segD0a W (main_v22 : DevRef τ sig)
    = Fn.bc5 (Fn.shiftFn ![0, 0, 0, 1] slices_S8x3x514x514_S8x3x512x512_0_0_0_1 y) := by
  stack_results
  rw [h0, ha]
  rfl

theorem d0_23 : after segD0a W (main_v23 : DevRef τ sig)
    = Fn.bc5 (Fn.shiftFn ![0, 0, 1, 1] slices_S8x3x514x514_S8x3x512x512_0_0_1_1 y) := by
  stack_results
  rw [h0, ha]
  rfl

theorem d0_24 : after segD0a W (main_v24 : DevRef τ sig)
    = Fn.bc5 (Fn.shiftFn ![0, 0, 2, 1] slices_S8x3x514x514_S8x3x512x512_0_0_2_1 y) := by
  stack_results
  rw [h0, ha]
  rfl

theorem d0_25 : after segD0a W (main_v25 : DevRef τ sig)
    = Fn.bc5 (Fn.shiftFn ![0, 0, 0, 2] slices_S8x3x514x514_S8x3x512x512_0_0_0_2 y) := by
  stack_results
  rw [h0, ha]
  rfl

theorem d0_26 : after segD0a W (main_v26 : DevRef τ sig)
    = Fn.bc5 (Fn.shiftFn ![0, 0, 1, 2] slices_S8x3x514x514_S8x3x512x512_0_0_1_2 y) := by
  stack_results
  rw [h0, ha]
  rfl

theorem d0_27 : after segD0a W (main_v27 : DevRef τ sig)
    = Fn.bc5 (Fn.shiftFn ![0, 0, 2, 2] slices_S8x3x514x514_S8x3x512x512_0_0_2_2 y) := by
  stack_results
  rw [h0, ha]
  rfl

end Smooth

/-- The concatenation of nine given arrays and its absolute value. -/
theorem segD0b_val (W : Valuation τ sig (Elt F)) (t0 t1 t2 t3 t4 t5 t6 t7 t8 : FVec F S8x1x3x512x512 .f32)
    (e0 : W (main_v19 : DevRef τ sig) = t0) (e1 : W (main_v20 : DevRef τ sig) = t1)
    (e2 : W (main_v21 : DevRef τ sig) = t2) (e3 : W (main_v22 : DevRef τ sig) = t3)
    (e4 : W (main_v23 : DevRef τ sig) = t4) (e5 : W (main_v24 : DevRef τ sig) = t5)
    (e6 : W (main_v25 : DevRef τ sig) = t6) (e7 : W (main_v26 : DevRef τ sig) = t7)
    (e8 : W (main_v27 : DevRef τ sig) = t8) :
    after segD0b W (main_v29 : DevRef τ sig) = Host.absf (stackOf t0 t1 t2 t3 t4 t5 t6 t7 t8) := by
  subst e0 e1 e2 e3 e4 e5 e6 e7 e8
  stack_results
  rfl

/-- Over contents that hold the padded smooth stack and the smooth stack, the piece leaves the absolute differences. -/
theorem segD0_val (W : Valuation τ sig (Elt F)) (y : FVec F S8x3x512x512 .f32)
    (h0 : W (main_v0 : DevRef τ sig) = Fn.padFn y) (ha : W (main_arg1 : DevRef τ sig) = y) :
    after segD0 W (main_v29 : DevRef τ sig) = Host.absf (Fn.stackFn y) := by
  rw [segD0_eq, after_append]
  exact (segD0b_val (after segD0a W) _ _ _ _ _ _ _ _ _
    (d0_19 W y h0 ha) (d0_20 W y h0 ha) (d0_21 W y h0 ha) (d0_22 W y h0 ha) (d0_23 W y h0 ha)
    (d0_24 W y h0 ha) (d0_25 W y h0 ha) (d0_26 W y h0 ha) (d0_27 W y h0 ha)).trans rfl

/-! ## The original stack and its colour weight -/

section Original

variable (W : Valuation τ sig (Elt F)) (x : FVec F S8x3x512x512 .f32)
  (h30 : W (main_v30 : DevRef τ sig) = Fn.padFn x) (ha : W (main_arg0 : DevRef τ sig) = x)
include h30 ha

theorem d1_49 : after segD1p W (main_v49 : DevRef τ sig)
    = Fn.bc5 (Fn.shiftFn ![0, 0, 0, 0] slices_S8x3x514x514_S8x3x512x512_0_0_0_0 x) := by
  stack_results
  rw [h30, ha]
  rfl

theorem d1_50 : after segD1p W (main_v50 : DevRef τ sig)
    = Fn.bc5 (Fn.shiftFn ![0, 0, 1, 0] slices_S8x3x514x514_S8x3x512x512_0_0_1_0 x) := by
  stack_results
  rw [h30, ha]
  rfl

theorem d1_51 : after segD1p W (main_v51 : DevRef τ sig)
    = Fn.bc5 (Fn.shiftFn ![0, 0, 2, 0] slices_S8x3x514x514_S8x3x512x512_0_0_2_0 x) := by
  stack_results
  rw [h30, ha]
  rfl

theorem d1_52 : after segD1p W (main_v52 : DevRef τ sig)
    = Fn.bc5 (Fn.shiftFn ![0, 0, 0, 1] slices_S8x3x514x514_S8x3x512x512_0_0_0_1 x) := by
  stack_results
  rw [h30, ha]
  rfl

theorem d1_53 : after segD1p W (main_v53 : DevRef τ sig)
    = Fn.bc5 (Fn.shiftFn ![0, 0, 1, 1] slices_S8x3x514x514_S8x3x512x512_0_0_1_1 x) := by
  stack_results
  rw [h30, ha]
  rfl

theorem d1_54 : after segD1p W (main_v54 : DevRef τ sig)
    = Fn.bc5 (Fn.shiftFn ![0, 0, 2, 1] slices_S8x3x514x514_S8x3x512x512_0_0_2_1 x) := by
  stack_results
  rw [h30, ha]
  rfl

theorem d1_55 : after segD1p W (main_v55 : DevRef τ sig)
    = Fn.bc5 (Fn.shiftFn ![0, 0, 0, 2] slices_S8x3x514x514_S8x3x512x512_0_0_0_2 x) := by
  stack_results
  rw [h30, ha]
  rfl

theorem d1_56 : after segD1p W (main_v56 : DevRef τ sig)
    = Fn.bc5 (Fn.shiftFn ![0, 0, 1, 2] slices_S8x3x514x514_S8x3x512x512_0_0_1_2 x) := by
  stack_results
  rw [h30, ha]
  rfl

theorem d1_57 : after segD1p W (main_v57 : DevRef τ sig)
    = Fn.bc5 (Fn.shiftFn ![0, 0, 2, 2] slices_S8x3x514x514_S8x3x512x512_0_0_2_2 x) := by
  stack_results
  rw [h30, ha]
  rfl

end Original

/-- The concatenation of nine given arrays and the colour weight from it. -/
theorem segD1r_val (W : Valuation τ sig (Elt F)) (t0 t1 t2 t3 t4 t5 t6 t7 t8 : FVec F S8x1x3x512x512 .f32)
    (e0 : W (main_v49 : DevRef τ sig) = t0) (e1 : W (main_v50 : DevRef τ sig) = t1)
    (e2 : W (main_v51 : DevRef τ sig) = t2) (e3 : W (main_v52 : DevRef τ sig) = t3)
    (e4 : W (main_v53 : DevRef τ sig) = t4) (e5 : W (main_v54 : DevRef τ sig) = t5)
    (e6 : W (main_v55 : DevRef τ sig) = t6) (e7 : W (main_v56 : DevRef τ sig) = t7)
    (e8 : W (main_v57 : DevRef τ sig) = t8) :
    after segD1r W (main_v64 : DevRef τ sig) = wrOf (stackOf t0 t1 t2 t3 t4 t5 t6 t7 t8) := by
  subst e0 e1 e2 e3 e4 e5 e6 e7 e8
  stack_results
  rfl

/-- Over contents that hold the padded original stack and the original stack, the piece leaves the colour weight. -/
theorem segD1_val (W : Valuation τ sig (Elt F)) (x : FVec F S8x3x512x512 .f32)
    (h30 : W (main_v30 : DevRef τ sig) = Fn.padFn x) (ha : W (main_arg0 : DevRef τ sig) = x) :
    after (segD1a ++ segD1b) W (main_v64 : DevRef τ sig) = Fn.wrFn x := by
  rw [segD1_eq, after_append]
  exact (segD1r_val (after segD1p W) _ _ _ _ _ _ _ _ _
    (d1_49 W x h30 ha) (d1_50 W x h30 ha) (d1_51 W x h30 ha) (d1_52 W x h30 ha) (d1_53 W x h30 ha)
    (d1_54 W x h30 ha) (d1_55 W x h30 ha) (d1_56 W x h30 ha) (d1_57 W x h30 ha)).trans rfl

end Cert.ReferenceIdeal.HandRun

end
-- ==== Proof.RefRun.lean ====
/-
  The reference program's run.

  @main is the list of its 192 host operations run in order (window by window the printed program computes to the
  same chain of steps: a call is its body on the call's buffers). After the list the result buffer holds the one pure
  function `Fn.refFn` of the two argument stacks: the list is cut into nine pieces, each piece's value is known from
  any contents of the few values that enter it, every piece leaves alone the values later pieces read, and the pieces
  are threaded one after the other. No operation writes an argument.
-/
import proofs.«122793_j4587025072325_2_alg».proof.Proof.RefSeg
import proofs.«122793_j4587025072325_2_alg».proof.Proof.RefPad
import proofs.«122793_j4587025072325_2_alg».proof.Proof.RefStack

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-! ## @main is that line -/

-- a window's sixty binds unfolded one inside the other: the default recursion depth ends sooner
set_option maxRecDepth 4096 in
/-- Window by window the printed program IS the list run in order: both sides compute to the same chain of steps
    (a call is its body on the call's buffers, a body's closing return the next step). -/
theorem part0_eq (c : Dev nD) : main_part0 (F := F) c = seq opsA := rfl

set_option maxRecDepth 4096 in
theorem part1_eq (c : Dev nD) : main_part1 (F := F) c = seq opsB := rfl

theorem part2_eq (c : Dev nD) : main_part2 (F := F) c = seq opsC := rfl

theorem main_eq (c : Dev nD) : main (F := F) c = seq ops := by
  show main (F := F) c = seq (opsA ++ (opsB ++ opsC))
  rw [seq_append opsA (opsB ++ opsC), seq_append opsB opsC, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, opsA, opsB, opsC, padOps, segA1, segD0, segD1a, segD1b, segE0, segE1M, segT,
    List.forall_append, List.forall_cons, List.Forall,
    nullary_bufs_sub, unary_bufs_sub, binary_bufs_sub, nary_bufs_sub, and_self]

/-! ## What the buffers hold afterwards -/

/-- The list, regrouped into its nine pieces. -/
theorem after_ops (V : Valuation τ sig (Elt F)) :
    after ops V
      = after (segT ++ opsC) (after segE1M (after (padOps (.of main_arg1) main_call3) (after segE0
          (after (padOps (.of main_arg0) main_call2) (after (segD1a ++ segD1b) (after (padOps (.of main_arg0) main_call1)
            (after segD0 (after (padOps (.of main_arg1) main_call0) (after segA1 V))))))))) := by
  simp only [ops, opsA, opsB, after_append]

/-- The result buffer after the line, from any contents `V`, is `Fn.refFn` of the two arguments' contents: piece by
    piece, each piece's inputs being what the earlier pieces left. -/
theorem out_eq (V : Valuation τ sig (Elt F)) :
    after ops V (main_v112 : DevRef τ sig)
      = Fn.refFn (V (main_arg0 : DevRef τ sig)) (V (main_arg1 : DevRef τ sig)) := by
  rw [after_ops]
  -- the table, and the arguments kept
  have c1 := A1_cst V
  have x1 := A1_arg0 V
  have y1 := A1_arg1 V
  generalize after segA1 V = W1 at *
  -- the smooth stack's padded copy
  have p2 := (pad0_val W1).trans (congrArg Fn.padFn y1)
  have x2 := (P0_arg0 W1).trans x1
  have y2 := (P0_arg1 W1).trans y1
  have c2 := (P0_cst W1).trans c1
  generalize after (padOps (.of main_arg1) main_call0) W1 = W2 at *
  -- its nine differences
  have s3 := segD0_val W2 _ p2 y2
  have x3 := (D0_arg0 W2).trans x2
  have y3 := (D0_arg1 W2).trans y2
  have c3 := (D0_cst W2).trans c2
  generalize after segD0 W2 = W3 at *
  -- the original stack's padded copy
  have p4 := (pad1_val W3).trans (congrArg Fn.padFn x3)
  have x4 := (P1_arg0 W3).trans x3
  have y4 := (P1_arg1 W3).trans y3
  have c4 := (P1_cst W3).trans c3
  have s4 := (P1_v29 W3).trans s3
  generalize after (padOps (.of main_arg0) main_call1) W3 = W4 at *
  -- its colour weight, and the table spread
  have w5 := segD1_val W4 _ p4 x4
  have g5 := segD1_ws W4 c4
  have x5 := (D1_arg0 W4).trans x4
  have y5 := (D1_arg1 W4).trans y4
  have s5 := (D1_v29 W4).trans s4
  generalize after (segD1a ++ segD1b) W4 = W5 at *
  -- the original's padded copy again
  have p6 := (pad2_val W5).trans (congrArg Fn.padFn x5)
  have x6 := (P2_arg0 W5).trans x5
  have y6 := (P2_arg1 W5).trans y5
  have s6 := (P2_v29 W5).trans s5
  have w6 := (P2_v64 W5).trans w5
  have g6 := (P2_v65 W5).trans g5
  generalize after (padOps (.of main_arg0) main_call2) W5 = W6 at *
  -- its edge response
  have e7 := segE0_val W6 _ p6 x6
  have y7 := (E0_arg1 W6).trans y6
  have s7 := (E0_v29 W6).trans s6
  have w7 := (E0_v64 W6).trans w6
  have g7 := (E0_v65 W6).trans g6
  generalize after segE0 W6 = W7 at *
  -- the smooth stack's padded copy again
  have p8 := (pad3_val W7).trans (congrArg Fn.padFn y7)
  have y8 := (P3_arg1 W7).trans y7
  have s8 := (P3_v29 W7).trans s7
  have w8 := (P3_v64 W7).trans w7
  have g8 := (P3_v65 W7).trans g7
  have e8 := (P3_v74 W7).trans e7
  generalize after (padOps (.of main_arg1) main_call3) W7 = W8 at *
  -- the flat mask
  have m9 := segE1M_val W8 _ _ e8 p8 y8
  have s9 := (E1_v29 W8).trans s8
  have w9 := (E1_v64 W8).trans w8
  have g9 := (E1_v65 W8).trans g8
  generalize after segE1M W8 = W9 at *
  -- the terms, the blend, the mean
  exact segTC_val W9 _ _ s9 w9 g9 m9

/-- No operation writes the first argument. -/
theorem arg0_eq (V : Valuation τ sig (Elt F)) :
    after ops V (main_arg0 : DevRef τ sig) = V (main_arg0 : DevRef τ sig) := by
  simp only [ops, opsA, opsB]
  ref_frame

/-- Nor the second. -/
theorem arg1_eq (V : Valuation τ sig (Elt F)) :
    after ops V (main_arg1 : DevRef τ sig) = V (main_arg1 : DevRef τ sig) := by
  simp only [ops, opsA, opsB]
  ref_frame

/-! ## The run -/

/-- On every device, for any float values, from any memory with zero counters: every weakly fair execution of
    @main terminates with the result buffer at `Fn.refFn` of the two arguments' launch contents (the first the
    original stack, the second the smooth one) and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v112)
          = Fn.refFn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v112).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.HandRun

end
-- ==== Proof.RefReadPad.lean ====
/-
  The reflection padding read at an index.

  The padded stack is built in four steps: a copy of row 1 is put above the image, then a copy of the new row 511 (the
  image's row 510) below it, and the same on the columns. A one-element axis reversed is itself. So the padded stack at
  padded coordinates (r, s) is the image at source coordinates (refl r, refl s), the reflection of the specification.
-/
import proofs.«122793_j4587025072325_2_alg».proof.Proof.RefFn
import proofs.«122793_j4587025072325_2_alg».proof.Proof.Spec
import Idealize.ShloMosaic.Lib.Pipeline.Value
import Idealize.ShloMosaic.Lib.IdealHost

noncomputable section

namespace Cert.ReferenceIdeal.Read

open Idealize.ShloMosaic Idealize.ShloMosaic.ValueIdx
open Cert.ReferenceIdeal Cert.ReferenceIdeal.Fn Cert.Smooth

variable [Facts]
open Facts₀ Facts

/-- The source row of a row of the stack padded above only. -/
def srcTop (r : Fin 513) : Fin 512 :=
  ⟨if r.val = 0 then 1 else r.val - 1, by have := r.isLt; split_ifs <;> omega⟩

/-- One row above: padded row 0 is row 1, padded row r + 1 is row r. -/
theorem padTop_apply (x : Img) (b : Fin 8) (c : Fin 3) (r : Fin 513) (s : Fin 512) :
    padTop (F := Ideal) x (ix4 b c r s) = x (ix4 b c (srcTop r) s) := by
  unfold padTop
  by_cases h0 : r.val = 0
  · refine (concatenate_pair_apply_left (t := S8x3x513x512) (s₁ := S8x3x1x512) (s₂ := S8x3x512x512) (2 : Fin 4) _ _ _
      (ix4 b c r s) rfl (ix4 b c (0 : Fin 1) s) ?_).trans ?_
    · intro a
      match a with
      | ⟨0, _⟩ => rfl
      | ⟨1, _⟩ => rfl
      | ⟨2, _⟩ => exact h0.symm
      | ⟨3, _⟩ => rfl
    · unfold Host.reverse
      refine (extractStridedSlice_apply _ x _ _ (ix4 b c (srcTop r) s) ?_).trans rfl
      intro a
      match a with
      | ⟨0, _⟩ => simp
      | ⟨1, _⟩ => simp
      | ⟨2, _⟩ => simp [srcTop, h0]
      | ⟨3, _⟩ => simp
  · refine (concatenate_pair_apply_right (t := S8x3x513x512) (s₁ := S8x3x1x512) (s₂ := S8x3x512x512) (2 : Fin 4) _ _ _
      (ix4 b c r s) rfl rfl (ix4 b c (srcTop r) s) ?_ ?_).trans rfl
    · intro a ha
      match a with
      | ⟨0, _⟩ => rfl
      | ⟨1, _⟩ => rfl
      | ⟨2, _⟩ => exact absurd rfl ha
      | ⟨3, _⟩ => rfl
    · show (srcTop r).val + 1 = r.val
      simp only [srcTop, if_neg h0]; omega

/-- And one row below: padded row 513 is row 510; the reflection of the specification on the rows. -/
theorem padRows_apply (x : Img) (b : Fin 8) (c : Fin 3) (r : Fin 514) (s : Fin 512) :
    padRows (F := Ideal) x (ix4 b c r s) = x (ix4 b c (refl r) s) := by
  unfold padRows
  by_cases h0 : r.val < 513
  · refine (concatenate_pair_apply_left (t := S8x3x514x512) (s₁ := S8x3x513x512) (s₂ := S8x3x1x512) (2 : Fin 4) _ _ _
      (ix4 b c r s) rfl (ix4 b c (⟨r.val, h0⟩ : Fin 513) s) ?_).trans ?_
    · intro a
      match a with
      | ⟨0, _⟩ => rfl
      | ⟨1, _⟩ => rfl
      | ⟨2, _⟩ => rfl
      | ⟨3, _⟩ => rfl
    · refine (padTop_apply x b c _ s).trans (congrArg x ?_)
      have e : srcTop ⟨r.val, h0⟩ = refl r := Fin.ext (by
        show (if r.val = 0 then 1 else r.val - 1) = (if r.val = 0 then 1 else if r.val = 513 then 510 else r.val - 1)
        split_ifs <;> omega)
      rw [e]
  · have h513 : r.val = 513 := by have := r.isLt; omega
    refine (concatenate_pair_apply_right (t := S8x3x514x512) (s₁ := S8x3x513x512) (s₂ := S8x3x1x512) (2 : Fin 4) _ _ _
      (ix4 b c r s) rfl rfl (ix4 b c (0 : Fin 1) s) ?_ ?_).trans ?_
    · intro a ha
      match a with
      | ⟨0, _⟩ => rfl
      | ⟨1, _⟩ => rfl
      | ⟨2, _⟩ => exact absurd rfl ha
      | ⟨3, _⟩ => rfl
    · show 0 + 513 = r.val
      omega
    · unfold Host.reverse
      refine (extractStridedSlice_apply _ (padTop (F := Ideal) x) _ _ (ix4 b c (511 : Fin 513) s) ?_).trans ?_
      · intro a
        match a with
        | ⟨0, _⟩ => simp
        | ⟨1, _⟩ => simp
        | ⟨2, _⟩ => simp
        | ⟨3, _⟩ => simp
      · refine (padTop_apply x b c _ s).trans (congrArg x ?_)
        have e : srcTop (511 : Fin 513) = refl r := Fin.ext (by
          show (if (511 : Fin 513).val = 0 then 1 else (511 : Fin 513).val - 1)
            = (if r.val = 0 then 1 else if r.val = 513 then 510 else r.val - 1)
          rw [h513]; rfl)
        rw [e]

/-- One column to the left: padded column 0 is column 1, padded column s + 1 is column s. -/
theorem padLeft_apply (z : FVec Ideal S8x3x514x512 .f32) (b : Fin 8) (c : Fin 3) (r : Fin 514) (s : Fin 513) :
    padLeft (F := Ideal) z (ix4 b c r s) = z (ix4 b c r (srcTop s)) := by
  unfold padLeft
  by_cases h0 : s.val = 0
  · refine (concatenate_pair_apply_left (t := S8x3x514x513) (s₁ := S8x3x514x1) (s₂ := S8x3x514x512) (3 : Fin 4) _ _ _
      (ix4 b c r s) rfl (ix4 b c r (0 : Fin 1)) ?_).trans ?_
    · intro a
      match a with
      | ⟨0, _⟩ => rfl
      | ⟨1, _⟩ => rfl
      | ⟨2, _⟩ => rfl
      | ⟨3, _⟩ => exact h0.symm
    · unfold Host.reverse
      refine (extractStridedSlice_apply _ z _ _ (ix4 b c r (srcTop s)) ?_).trans rfl
      intro a
      match a with
      | ⟨0, _⟩ => simp
      | ⟨1, _⟩ => simp
      | ⟨2, _⟩ => simp
      | ⟨3, _⟩ => simp [srcTop, h0]
  · refine (concatenate_pair_apply_right (t := S8x3x514x513) (s₁ := S8x3x514x1) (s₂ := S8x3x514x512) (3 : Fin 4) _ _ _
      (ix4 b c r s) rfl rfl (ix4 b c r (srcTop s)) ?_ ?_).trans rfl
    · intro a ha
      match a with
      | ⟨0, _⟩ => rfl
      | ⟨1, _⟩ => rfl
      | ⟨2, _⟩ => rfl
      | ⟨3, _⟩ => exact absurd rfl ha
    · show (srcTop s).val + 1 = s.val
      simp only [srcTop, if_neg h0]; omega

/-- And one column to the right: the reflection of the specification on the columns. -/
theorem padCols_apply (z : FVec Ideal S8x3x514x512 .f32) (b : Fin 8) (c : Fin 3) (r : Fin 514) (s : Fin 514) :
    padCols (F := Ideal) z (ix4 b c r s) = z (ix4 b c r (refl s)) := by
  unfold padCols
  by_cases h0 : s.val < 513
  · refine (concatenate_pair_apply_left (t := S8x3x514x514) (s₁ := S8x3x514x513) (s₂ := S8x3x514x1) (3 : Fin 4) _ _ _
      (ix4 b c r s) rfl (ix4 b c r (⟨s.val, h0⟩ : Fin 513)) ?_).trans ?_
    · intro a
      match a with
      | ⟨0, _⟩ => rfl
      | ⟨1, _⟩ => rfl
      | ⟨2, _⟩ => rfl
      | ⟨3, _⟩ => rfl
    · refine (padLeft_apply z b c r _).trans (congrArg z ?_)
      have e : srcTop ⟨s.val, h0⟩ = refl s := Fin.ext (by
        show (if s.val = 0 then 1 else s.val - 1) = (if s.val = 0 then 1 else if s.val = 513 then 510 else s.val - 1)
        split_ifs <;> omega)
      rw [e]
  · have h513 : s.val = 513 := by have := s.isLt; omega
    refine (concatenate_pair_apply_right (t := S8x3x514x514) (s₁ := S8x3x514x513) (s₂ := S8x3x514x1) (3 : Fin 4) _ _ _
      (ix4 b c r s) rfl rfl (ix4 b c r (0 : Fin 1)) ?_ ?_).trans ?_
    · intro a ha
      match a with
      | ⟨0, _⟩ => rfl
      | ⟨1, _⟩ => rfl
      | ⟨2, _⟩ => rfl
      | ⟨3, _⟩ => exact absurd rfl ha
    · show 0 + 513 = s.val
      omega
    · unfold Host.reverse
      refine (extractStridedSlice_apply _ (padLeft (F := Ideal) z) _ _ (ix4 b c r (511 : Fin 513)) ?_).trans ?_
      · intro a
        match a with
        | ⟨0, _⟩ => simp
        | ⟨1, _⟩ => simp
        | ⟨2, _⟩ => simp
        | ⟨3, _⟩ => simp
      · refine (padLeft_apply z b c r _).trans (congrArg z ?_)
        have e : srcTop (511 : Fin 513) = refl s := Fin.ext (by
          show (if (511 : Fin 513).val = 0 then 1 else (511 : Fin 513).val - 1)
            = (if s.val = 0 then 1 else if s.val = 513 then 510 else s.val - 1)
          rw [h513]; rfl)
        rw [e]

/-- The padded stack at padded coordinates (r, s) is the image at the reflected coordinates. -/
theorem padFn_apply (x : Img) (b : Fin 8) (c : Fin 3) (r s : Fin 514) :
    padFn (F := Ideal) x (ix4 b c r s) = x (ix4 b c (refl r) (refl s)) := by
  unfold padFn
  exact (padCols_apply _ b c r s).trans (padRows_apply x b c r (refl s))

end Cert.ReferenceIdeal.Read

end
-- ==== Proof.RefReadSum.lean ====
/-
  The sum over the stack's index set, by coordinates.

  A sum over every index of a [8, 9, 3, 512, 512] array is the five-fold sum over its coordinates; the offset axis of
  length nine is the set of pairs (row offset, column offset) with the row offset varying fastest; and in a
  commutative monoid the five sums may be taken in the order batch, row, column, offset, channel.
-/
import Idealize.ShloMosaic.Lib.ValueIdx

noncomputable section

open scoped BigOperators

namespace Cert.ReferenceIdeal.Read

open Idealize.ShloMosaic Idealize.ShloMosaic.ValueIdx

/-- A rank-5 index set is the product of its five coordinate ranges. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- A sum over a rank-5 index set is the five-fold sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-- The position of an offset on the stacked axis: the row offset plus three times the column offset. -/
def kOf (o : Fin 3 × Fin 3) : Fin 9 := ⟨o.1.val + 3 * o.2.val, by have := o.1.isLt; have := o.2.isLt; omega⟩

/-- The nine positions are the nine offsets. -/
def kEquiv : Fin 3 × Fin 3 ≃ Fin 9 where
  toFun := kOf
  invFun k := (⟨k.val % 3, Nat.mod_lt _ (by decide)⟩, ⟨k.val / 3, by have := k.isLt; omega⟩)
  left_inv o := by
    obtain ⟨⟨a, ha⟩, ⟨b, hb⟩⟩ := o
    simp only [kOf, Prod.mk.injEq, Fin.mk.injEq]
    constructor <;> omega
  right_inv k := by
    apply Fin.ext
    simp only [kOf]
    omega

/-- A sum over the stacked axis is the sum over the offsets. -/
theorem sum_kOf {M : Type*} [AddCommMonoid M] (f : Fin 9 → M) : ∑ k, f k = ∑ o : Fin 3 × Fin 3, f (kOf o) :=
  (Equiv.sum_comp kEquiv f).symm

/-- The sum over every index of the stack, in the order batch, row, column, offset, channel. -/
theorem sum_stack {M : Type*} [AddCommMonoid M] (f : (⟨5, ![8, 9, 3, 512, 512]⟩ : Shape).Idx → M) :
    ∑ i, f i = ∑ b : Fin 8, ∑ h : Fin 512, ∑ w : Fin 512, ∑ o : Fin 3 × Fin 3, ∑ c : Fin 3, f (ix5 b (kOf o) c h w) := by
  rw [sum_idx5]
  refine Finset.sum_congr rfl fun b _ => ?_
  -- k c h w → k h c w → h k c w → h k w c → h w k c
  calc ∑ k : Fin 9, ∑ c : Fin 3, ∑ h : Fin 512, ∑ w : Fin 512, f (ix5 b k c h w)
      = ∑ k : Fin 9, ∑ h : Fin 512, ∑ c : Fin 3, ∑ w : Fin 512, f (ix5 b k c h w) :=
        Finset.sum_congr rfl fun k _ => Finset.sum_comm
    _ = ∑ h : Fin 512, ∑ k : Fin 9, ∑ c : Fin 3, ∑ w : Fin 512, f (ix5 b k c h w) := Finset.sum_comm
    _ = ∑ h : Fin 512, ∑ k : Fin 9, ∑ w : Fin 512, ∑ c : Fin 3, f (ix5 b k c h w) :=
        Finset.sum_congr rfl fun h _ => Finset.sum_congr rfl fun k _ => Finset.sum_comm
    _ = ∑ h : Fin 512, ∑ w : Fin 512, ∑ k : Fin 9, ∑ c : Fin 3, f (ix5 b k c h w) :=
        Finset.sum_congr rfl fun h _ => Finset.sum_comm
    _ = ∑ h : Fin 512, ∑ w : Fin 512, ∑ o : Fin 3 × Fin 3, ∑ c : Fin 3, f (ix5 b (kOf o) c h w) :=
        Finset.sum_congr rfl fun h _ => Finset.sum_congr rfl fun w _ => sum_kOf _

end Cert.ReferenceIdeal.Read

end
-- ==== Proof.RefReadElem.lean ====
/-
  The reference's stages read at an index.

  The image minus its padded copy read from offset (r, c) is, at a pixel, the pixel minus its neighbour at that offset
  in the reflection-padded image: the specification's difference. The nine differences are stacked with the row offset
  varying fastest, so position r + 3 c of the stacked axis holds offset (r, c).
-/
import proofs.«122793_j4587025072325_2_alg».proof.Proof.RefReadPad
import proofs.«122793_j4587025072325_2_alg».proof.Proof.RefReadSum

noncomputable section

open scoped BigOperators

namespace Cert.ReferenceIdeal.Read

open Idealize.ShloMosaic Idealize.ShloMosaic.ValueIdx
open Cert.ReferenceIdeal Cert.ReferenceIdeal.Fn Cert.Smooth

variable [Facts]
open Facts₀ Facts

/-- The shifted difference at a pixel is the specification's difference at that offset. -/
theorem shiftFn_apply (off : Fin S8x3x514x514.rank → ℕ) (hs : S8x3x514x514.Slices off S8x3x512x512) (o : Fin 3 × Fin 3)
    (h0 : off 0 = 0) (h1 : off 1 = 0) (h2 : off 2 = o.1.val) (h3 : off 3 = o.2.val)
    (x : Img) (b : Fin 8) (c : Fin 3) (h w : Fin 512) :
    shiftFn (F := Ideal) off hs x (ix4 b c h w) = dif x o b c h w := by
  unfold shiftFn dif nbr
  refine congrArg (x (ix4 b c h w) - ·) ?_
  refine (extractStridedSlice_apply off _ hs _
    (ix4 b c (⟨h.val + o.1.val, by have := h.isLt; have := o.1.isLt; omega⟩ : Fin 514)
      (⟨w.val + o.2.val, by have := w.isLt; have := o.2.isLt; omega⟩ : Fin 514)) ?_).trans (padFn_apply x b c _ _)
  intro a
  match a with
  | ⟨0, _⟩ => show b.val = off 0 + b.val; omega
  | ⟨1, _⟩ => show c.val = off 1 + c.val; omega
  | ⟨2, _⟩ => show h.val + o.1.val = off 2 + h.val; omega
  | ⟨3, _⟩ => show w.val + o.2.val = off 3 + w.val; omega

/-- A difference image under the new unit axis reads the image. -/
theorem bc5_apply (v : Img) (b : Fin 8) (c : Fin 3) (h w : Fin 512) :
    bc5 (F := Ideal) v (ix5 b (0 : Fin 1) c h w) = v (ix4 b c h w) := by
  unfold bc5
  refine broadcastInDim_apply _ _ _ _ (ix4 b c h w) ?_
  intro a
  match a with
  | ⟨0, _⟩ => rfl
  | ⟨1, _⟩ => rfl
  | ⟨2, _⟩ => rfl
  | ⟨3, _⟩ => rfl

set_option hygiene false in
/-- Piece `K` of the stack at its own position. -/
local macro "stack_case" K:num : tactic => `(tactic| (
  unfold stackFn
  refine (concatenate_apply_piece (t := S8x9x3x512x512) (1 : Fin 5) _ _ (ix5 b _ c h w) $K (by show ($K : ℕ) < 9; omega) S8x1x3x512x512 _ rfl rfl
    $K rfl (ix5 b (0 : Fin 1) c h w) ?_ ?_).trans ?_
  · intro a ha
    match a with
    | ⟨0, _⟩ => rfl
    | ⟨1, _⟩ => exact absurd rfl ha
    | ⟨2, _⟩ => rfl
    | ⟨3, _⟩ => rfl
    | ⟨4, _⟩ => rfl
  · rfl
  · exact (bc5_apply _ b c h w).trans (shiftFn_apply _ _ _ rfl rfl rfl rfl x b c h w)))

/-- The stack at position r + 3 c of its offset axis is the difference at offset (r, c). -/
theorem stackFn_apply (x : Img) (o : Fin 3 × Fin 3) (b : Fin 8) (c : Fin 3) (h w : Fin 512) :
    stackFn (F := Ideal) x (ix5 b (kOf o) c h w) = dif x o b c h w := by
  obtain ⟨⟨o1, h1⟩, ⟨o2, h2⟩⟩ := o
  interval_cases o1 <;> interval_cases o2
  · stack_case 0
  · stack_case 3
  · stack_case 6
  · stack_case 1
  · stack_case 4
  · stack_case 7
  · stack_case 2
  · stack_case 5
  · stack_case 8

end Cert.ReferenceIdeal.Read

end
-- ==== Proof.PixelLaw.lean ====
/-
  The element law that joins the two programs.

  One program weighs a summand by a choice: on a flat pixel the offset's constant times the base squared, elsewhere the
  colour weight times the base to the power p, each power written exp (exponent · log base). The other blends the two
  with the flatness bit as a number M ∈ {0, 1}: M · (constant · base ^ 2) + (1 − M) · (colour weight · base ^ p). With
  every quantity a real and the base positive the two agree, since x ^ p = exp (p · log x) for x > 0, and M kills
  exactly the branch not chosen. The colour weight is the exponential of minus one half of the summed squares, written
  either with the factor inside the sum or outside it.

  Also here: every quantity of the specification is a real when every entry of the two stacks is.
-/
import proofs.«122793_j4587025072325_2_alg».proof.Proof.Spec
import Idealize.ShloMosaic.PureOps.Ideal
import Idealize.ShloMosaic.Lib.IdealHost

noncomputable section

open scoped BigOperators

namespace Cert.Smooth

open Idealize.ShloMosaic Idealize.ShloMosaic.ValueIdx

/-! ## Words that denote reals -/

/-- A 32-bit pattern whose exponent field is not all ones denotes a real. -/
theorem f32_real (b : BitVec 32) (h : (b.extractLsb' 23 8).toNat ≠ 255) : ∃ r : ℝ, Ideal.ofBits .f32 b = (r : EReal) := by
  unfold Ideal.ofBits Ideal.ieee
  dsimp only
  rw [if_neg (by simpa using h)]
  split_ifs <;> exact ⟨_, rfl⟩

/-- A 32-bit pattern of a normal number with the sign bit clear denotes a positive real. -/
theorem f32_pos (b : BitVec 32) (hs : b.extractLsb' 31 1 = 0#1) (h : (b.extractLsb' 23 8).toNat ≠ 255)
    (h0 : (b.extractLsb' 23 8).toNat ≠ 0) : ∃ r : ℝ, 0 < r ∧ Ideal.ofBits .f32 b = (r : EReal) := by
  unfold Ideal.ofBits Ideal.ieee
  dsimp only
  rw [if_neg (by simpa using h), if_neg (by simpa using h0)]
  refine ⟨_, ?_, rfl⟩
  have hs' : (b.extractLsb' (8 + 23) 1 == 1#1) = false := by
    show (b.extractLsb' 31 1 == 1#1) = false
    rw [hs]; decide
  rw [hs']
  simp only [Bool.false_eq_true, if_false, one_mul]
  positivity

theorem cHalf_real : ∃ r : ℝ, cHalf = (r : EReal) := f32_real _ (by decide)
theorem cTwo_real : ∃ r : ℝ, cTwo = (r : EReal) := f32_real _ (by decide)
theorem cP_real : ∃ r : ℝ, cP = (r : EReal) := f32_real _ (by decide)
theorem cOne_eq : cOne = 1 := Ideal.ofBits_one_f32
theorem cEps_pos : ∃ e : ℝ, 0 < e ∧ cEps = (e : EReal) := f32_pos _ (by decide) (by decide) (by decide)

theorem wsLit_real (o : Fin 3 × Fin 3) : ∃ r : ℝ, wsLit o = (r : EReal) := by
  unfold wsLit
  split_ifs
  · exact f32_real _ (by decide)
  · exact f32_real _ (by decide)
  · exact f32_real _ (by decide)

/-! ## A power of a positive real as an exponential -/

theorem pow_eq_exp_log (x p : ℝ) (hx : 0 < x) :
    Ideal.pow (x : EReal) (p : EReal) = Ideal.exp ((p : EReal) * Ideal.log (x : EReal)) := by
  rw [Ideal.pow_coe_coe, Ideal.log_coe, if_neg (not_le.2 hx), ← EReal.coe_mul, Ideal.exp_coe]
  congr 1
  show x ^ p = Real.exp (p * Real.log x)
  rw [Real.rpow_def_of_pos hx, mul_comm]

/-! ## The blend is the choice -/

theorem blend_eq (f : Bool) (ws wrv : EReal) (a : EReal) (hws : ∃ r : ℝ, ws = r) (hwr : ∃ r : ℝ, wrv = r)
    (ha : ∃ r : ℝ, 0 ≤ r ∧ a = r) :
    (((BitVec.ofBool f).toNat : ℝ) : EReal) * (ws * Ideal.pow (a + cEps) cTwo)
      + (cOne - (((BitVec.ofBool f).toNat : ℝ) : EReal)) * (wrv * Ideal.pow (a + cEps) cP)
    = (if f then ws else wrv) * Ideal.exp ((if f then cTwo else cP) * Ideal.log (a + cEps)) := by
  obtain ⟨r, hr, rfl⟩ := ha
  obtain ⟨e, he, hE⟩ := cEps_pos
  obtain ⟨t, hT⟩ := cTwo_real
  obtain ⟨p, hP⟩ := cP_real
  rw [hE, hT, hP, cOne_eq, ← EReal.coe_add]
  have hpos : 0 < r + e := by linarith
  rw [pow_eq_exp_log _ t hpos, pow_eq_exp_log _ p hpos]
  have h11 : (1 : EReal) - 1 = 0 := by rw [← EReal.coe_one, ← EReal.coe_sub, sub_self, EReal.coe_zero]
  cases f
  · simp
  · simp [h11]

/-! ## The colour weight, the factor inside or outside the sum -/

theorem wr_eq (d : Fin 3 → EReal) (hd : ∀ c, ∃ r : ℝ, d c = r) :
    Ideal.exp (∑ c, (cHalf * d c) * d c) = Ideal.exp (cHalf * ∑ c, d c * d c) := by
  obtain ⟨k, hk⟩ := cHalf_real
  obtain ⟨r0, h0⟩ := hd 0
  obtain ⟨r1, h1⟩ := hd 1
  obtain ⟨r2, h2⟩ := hd 2
  rw [Fin.sum_univ_three, Fin.sum_univ_three, h0, h1, h2, hk]
  simp only [← EReal.coe_mul, ← EReal.coe_add]
  congr 2
  ring

/-! ## Every quantity of the specification is a real when every entry is -/

section Reals

variable (x : Img) (hx : ∀ i, ∃ r : ℝ, x i = (r : EReal))
include hx

theorem dif_real (o : Fin 3 × Fin 3) (b : Fin 8) (c : Fin 3) (h w : Fin 512) :
    ∃ r : ℝ, dif x o b c h w = (r : EReal) := by
  unfold dif nbr
  obtain ⟨r1, h1⟩ := hx (ix4 b c h w)
  obtain ⟨r2, h2⟩ := hx (ix4 b c (refl ⟨h.val + o.1.val, by have := h.isLt; have := o.1.isLt; omega⟩)
    (refl ⟨w.val + o.2.val, by have := w.isLt; have := o.2.isLt; omega⟩))
  exact ⟨r1 - r2, by rw [h1, h2]; exact (EReal.coe_sub _ _).symm⟩

theorem sq_real (o : Fin 3 × Fin 3) (b : Fin 8) (h w : Fin 512) :
    ∃ r : ℝ, 0 ≤ r ∧ sq x o b h w = (r : EReal) := by
  unfold sq
  obtain ⟨r0, h0⟩ := dif_real x hx o b 0 h w
  obtain ⟨r1, h1⟩ := dif_real x hx o b 1 h w
  obtain ⟨r2, h2⟩ := dif_real x hx o b 2 h w
  refine ⟨r0 * r0 + r1 * r1 + r2 * r2,
    add_nonneg (add_nonneg (mul_self_nonneg _) (mul_self_nonneg _)) (mul_self_nonneg _), ?_⟩
  rw [Fin.sum_univ_three, h0, h1, h2]
  simp only [EReal.coe_add, EReal.coe_mul]

theorem edge_real (b : Fin 8) (h w : Fin 512) : ∃ r : ℝ, 0 ≤ r ∧ edge x b h w = (r : EReal) := by
  unfold edge
  obtain ⟨r0, p0, h0⟩ := sq_real x hx (2, 1) b h w
  obtain ⟨r1, p1, h1⟩ := sq_real x hx (1, 2) b h w
  exact ⟨r0 + r1, by positivity, by rw [h0, h1, EReal.coe_add]⟩

theorem wr_real (o : Fin 3 × Fin 3) (b : Fin 8) (h w : Fin 512) : ∃ r : ℝ, wr x o b h w = (r : EReal) := by
  unfold wr
  obtain ⟨k, hk⟩ := cHalf_real
  obtain ⟨r, _, hr⟩ := sq_real x hx o b h w
  exact ⟨Real.exp (k * r), by rw [hk, hr, ← EReal.coe_mul, Ideal.exp_coe]⟩

theorem absdif_real (o : Fin 3 × Fin 3) (b : Fin 8) (c : Fin 3) (h w : Fin 512) :
    ∃ r : ℝ, 0 ≤ r ∧ max (dif x o b c h w) (-(dif x o b c h w)) = (r : EReal) := by
  obtain ⟨r, hr⟩ := dif_real x hx o b c h w
  refine ⟨max r (-r), le_max_iff.2 (by rcases le_total 0 r with h0 | h0; exacts [Or.inl h0, Or.inr (by linarith)]), ?_⟩
  rw [hr, ← EReal.coe_neg]
  exact (EReal.coe_strictMono.monotone.map_max).symm

theorem base_pos (o : Fin 3 × Fin 3) (b : Fin 8) (c : Fin 3) (h w : Fin 512) :
    ∃ r : ℝ, 0 < r ∧ base x o b c h w = (r : EReal) := by
  unfold base
  obtain ⟨r, p, hr⟩ := absdif_real x hx o b c h w
  obtain ⟨e, he, hE⟩ := cEps_pos
  exact ⟨r + e, by linarith, by rw [hr, hE, EReal.coe_add]⟩

end Reals

/-- One summand is a real when every entry of both stacks is. -/
theorem val_real (x y : Img) (hx : ∀ i, ∃ r : ℝ, x i = (r : EReal)) (hy : ∀ i, ∃ r : ℝ, y i = (r : EReal))
    (o : Fin 3 × Fin 3) (b : Fin 8) (c : Fin 3) (h w : Fin 512) : ∃ r : ℝ, val x y o b c h w = (r : EReal) := by
  unfold val
  obtain ⟨s, hs⟩ := wsLit_real o
  obtain ⟨u, hu⟩ := wr_real x hx o b h w
  obtain ⟨t, hT⟩ := cTwo_real
  obtain ⟨p, hP⟩ := cP_real
  obtain ⟨g, hg, hG⟩ := base_pos y hy o b c h w
  rw [hs, hu, hT, hP, hG, Ideal.log_coe, if_neg (not_le.2 hg)]
  split_ifs
  · exact ⟨s * Real.exp (t * Real.log g), by rw [← EReal.coe_mul, Ideal.exp_coe, ← EReal.coe_mul]⟩
  · exact ⟨u * Real.exp (p * Real.log g), by rw [← EReal.coe_mul, Ideal.exp_coe, ← EReal.coe_mul]⟩

end Cert.Smooth

end
-- ==== Proof.RefReadTerms.lean ====
/-
  The reference's weights, mask and base read at an index, as the specification's quantities.

  A scalar literal spread over a shape reads the literal. The colour weight is the exponential of the sum over the
  channels of (minus one half times the difference) times the difference, from the initial value zero: the
  specification's weight once the factor is taken out of the sum. The table of nine constants on the offset axis reads
  the specification's constant of the offset. The edge response sums, over the channels and from zero, the two squared
  differences: the specification's two sums added. The mask is the conjunction of the two comparisons as a number. The
  base is the absolute difference of the smooth stack plus the small shift.
-/
import proofs.«122793_j4587025072325_2_alg».proof.Proof.RefReadElem
import proofs.«122793_j4587025072325_2_alg».proof.Proof.PixelLaw
import Idealize.ShloMosaic.Lib.WordArith

noncomputable section

open scoped BigOperators

namespace Cert.ReferenceIdeal.Read

open Idealize.ShloMosaic Idealize.ShloMosaic.ValueIdx
open Cert.ReferenceIdeal Cert.ReferenceIdeal.Fn Cert.Smooth

variable [Facts]
open Facts₀ Facts

/-- A scalar literal spread over a shape reads the literal's value everywhere. -/
theorem splat_apply (t : Shape) (h : S_.BroadcastsInDim t (![] : Fin 0 → Fin t.rank)) (bits : BitVec 32) (j : t.Idx) :
    splat (F := Ideal) t h bits j = Ideal.ofBits .f32 bits := by
  unfold splat
  exact (broadcastInDim_scalar_apply h _ j).trans rfl

/-- The reduced sum of the colour weight at (b, k, h, w): from zero, over the channels. -/
theorem wrSum_apply (x : Img) (o : Fin 3 × Fin 3) (b : Fin 8) (h w : Fin 512) :
    Host.reduceAdd (F := Ideal)
        (mulf (mulf (splat S8x9x3x512x512 bcast_S_S8x9x3x512x512 0xBF000000#32) (stackFn x)) (stackFn x))
        (constant S_ .f32 0x00000000#32) reducesTo_S8x9x3x512x512_S8x9x512x512_d2 h_S_ (ix4 b (kOf o) h w)
      = ∑ c : Fin 3, (cHalf * dif x o b c h w) * dif x o b c h w := by
  rw [hostReduceAdd_apply,
    Ideal.hostReduceAdd_single _ (by decide : S8x9x3x512x512.Reduces [2] S8x9x512x512)]
  rw [constant_apply, Ideal.ofBits_zero_f32, zero_add]
  refine Finset.sum_congr rfl fun (c : Fin 3) _ => ?_
  have e : (by decide : S8x9x3x512x512.Reduces [2] S8x9x512x512).lift (ix4 b (kOf o) h w) c = ix5 b (kOf o) c h w := by
    funext a
    match a with
    | ⟨0, _⟩ => rfl
    | ⟨1, _⟩ => rfl
    | ⟨2, _⟩ => rfl
    | ⟨3, _⟩ => rfl
    | ⟨4, _⟩ => rfl
  rw [e, mulf_apply, mulf_apply, splat_apply, stackFn_apply]
  rfl

/-- The colour weight at (b, k, h, w) is the specification's. -/
theorem wrFn_apply (x : Img) (hx : ∀ i, ∃ r : ℝ, x i = (r : EReal)) (o : Fin 3 × Fin 3) (b : Fin 8) (h w : Fin 512) :
    wrFn (F := Ideal) x (ix5 b (kOf o) (0 : Fin 1) h w) = wr x o b h w := by
  unfold wrFn
  refine Eq.trans (congrArg Ideal.exp ((broadcastInDim_apply _ _ _ _ (ix4 b (kOf o) h w) ?_).trans (wrSum_apply x o b h w)))
    (wr_eq (fun c => dif x o b c h w) (fun c => dif_real x hx o b c h w))
  intro a
  match a with
  | ⟨0, _⟩ => rfl
  | ⟨1, _⟩ => rfl
  | ⟨2, _⟩ => rfl
  | ⟨3, _⟩ => rfl

/-- The word of the constant of an offset. -/
def wsBits (o : Fin 3 × Fin 3) : BitVec 32 :=
  if o.1.val = 1 ∧ o.2.val = 1 then 0x3F800000#32
  else if o.1.val = 1 ∨ o.2.val = 1 then 0x3F1B4598#32
  else 0x3EBC5AB2#32

theorem wsLit_eq (o : Fin 3 × Fin 3) : wsLit o = Ideal.ofBits .f32 (wsBits o) := by
  unfold wsLit wsBits
  split_ifs <;> rfl

/-- The table at position r + 3 c holds the word of offset (r, c). -/
theorem lit0_kOf (o : Fin 3 × Fin 3) : lit0 (kOf o) = wsBits o := by
  obtain ⟨⟨o1, h1⟩, ⟨o2, h2⟩⟩ := o
  interval_cases o1 <;> interval_cases o2 <;> rfl

/-- The table of nine constants, spread over the stack, reads the constant of the offset. -/
theorem wsB_apply (o : Fin 3 × Fin 3) (b : Fin 8) (c : Fin 3) (h w : Fin 512) :
    broadcastInDim S8x9x3x512x512 ![0, 1, 2, 3, 4] bcast_S1x9x1x1x1_S8x9x3x512x512_0_1_2_3_4 (wsFn (F := Ideal))
      (ix5 b (kOf o) c h w) = wsLit o := by
  refine (broadcastInDim_apply _ _ _ _ (ix5 (0 : Fin 1) (kOf o) (0 : Fin 1) (0 : Fin 1) (0 : Fin 1)) ?_).trans ?_
  · intro a
    match a with
    | ⟨0, _⟩ => rfl
    | ⟨1, _⟩ => rfl
    | ⟨2, _⟩ => rfl
    | ⟨3, _⟩ => rfl
    | ⟨4, _⟩ => rfl
  · unfold wsFn
    refine (broadcastInDim_apply _ _ _ _ (ix1 (kOf o)) ?_).trans ?_
    · intro a
      match a with
      | ⟨0, _⟩ => rfl
    · show Ideal.ofBits .f32 (lit0 (S9.rowMajor (ix1 (kOf o)))) = wsLit o
      have hk : S9.rowMajor (ix1 (kOf o)) = kOf o := Fin.ext (Shape.rowMajor_val_one _)
      rw [hk, lit0_kOf, wsLit_eq]

/-- The edge response at a pixel is the specification's. -/
theorem edgeFn_apply (x : Img) (b : Fin 8) (h w : Fin 512) : edgeFn (F := Ideal) x (ix3 b h w) = edge x b h w := by
  unfold edgeFn
  rw [hostReduceAdd_apply, Ideal.hostReduceAdd_single _ (by decide : S8x3x512x512.Reduces [1] S8x512x512)]
  rw [constant_apply, Ideal.ofBits_zero_f32, zero_add]
  unfold edge Cert.Smooth.sq
  rw [← Finset.sum_add_distrib]
  refine Finset.sum_congr rfl fun (c : Fin 3) _ => ?_
  have e : (by decide : S8x3x512x512.Reduces [1] S8x512x512).lift (ix3 b h w) c = ix4 b c h w := by
    funext a
    match a with
    | ⟨0, _⟩ => rfl
    | ⟨1, _⟩ => rfl
    | ⟨2, _⟩ => rfl
    | ⟨3, _⟩ => rfl
  rw [e, addf_apply, mulf_apply, mulf_apply,
    shiftFn_apply ![0, 0, 2, 1] slices_S8x3x514x514_S8x3x512x512_0_0_2_1 (2, 1) rfl rfl rfl rfl x b c h w,
    shiftFn_apply ![0, 0, 1, 2] slices_S8x3x514x514_S8x3x512x512_0_0_1_2 (1, 2) rfl rfl rfl rfl x b c h w]

/-- The mask bit at a pixel is the specification's flatness. -/
theorem flatBit_apply (x y : Img) (b : Fin 8) (h w : Fin 512) :
    flatBit (F := Ideal) x y (ix3 b h w) = BitVec.ofBool (flat x y b h w) := by
  unfold flatBit flat
  show IntOp.andi
      (Ideal.cmp .olt (edgeFn (F := Ideal) x (ix3 b h w))
        (splat (F := Ideal) S8x512x512 bcast_S_S8x512x512 0x3F800000#32 (ix3 b h w)))
      (Ideal.cmp .ogt (edgeFn (F := Ideal) y (ix3 b h w) - edgeFn (F := Ideal) x (ix3 b h w))
        (splat (F := Ideal) S8x512x512 bcast_S_S8x512x512 0x3F800000#32 (ix3 b h w))) = _
  rw [splat_apply, edgeFn_apply, edgeFn_apply]
  exact WordArith.andi_ofBool _ _

/-- The mask as a number at (b, 0, 0, h, w): one on a flat pixel, zero elsewhere. -/
theorem flatFn_apply (x y : Img) (b : Fin 8) (h w : Fin 512) :
    flatFn (F := Ideal) x y (ix5 b (0 : Fin 1) (0 : Fin 1) h w)
      = (((BitVec.ofBool (flat x y b h w)).toNat : ℝ) : EReal) := by
  unfold flatFn
  show (((broadcastInDim S8x1x1x512x512 ![0, 3, 4] bcast_S8x512x512_S8x1x1x512x512_0_3_4 (flatBit (F := Ideal) x y)
    (ix5 b (0 : Fin 1) (0 : Fin 1) h w)).toNat : ℝ) : EReal) = _
  rw [broadcastInDim_apply _ _ _ _ (ix3 b h w) (by
    intro a
    match a with
    | ⟨0, _⟩ => rfl
    | ⟨1, _⟩ => rfl
    | ⟨2, _⟩ => rfl), flatBit_apply]

/-- The base at (b, k, c, h, w): the absolute difference of the smooth stack plus the small shift. -/
theorem absEps_apply (y : Img) (o : Fin 3 × Fin 3) (b : Fin 8) (c : Fin 3) (h w : Fin 512) :
    absEps (F := Ideal) y (ix5 b (kOf o) c h w) = base y o b c h w := by
  unfold absEps base
  show max (stackFn (F := Ideal) y (ix5 b (kOf o) c h w)) (-(stackFn (F := Ideal) y (ix5 b (kOf o) c h w)))
      + splat (F := Ideal) S8x9x3x512x512 bcast_S_S8x9x3x512x512 0x322BCC77#32 (ix5 b (kOf o) c h w) = _
  rw [stackFn_apply, splat_apply]
  rfl

end Cert.ReferenceIdeal.Read

end
-- ==== Proof.RefRead.lean ====
/-
  The reference's function is the loss of the specification.

  At an index (b, r + 3 c, channel, h, w) of the stack the blend is the mask times (constant · base²) plus (one minus
  the mask) times (colour weight · base^p): by the element law, the specification's summand at offset (r, c). The sum
  over all indices from the initial value zero is then the specification's total, in the order batch, row, column,
  offset, channel; both sides divide it by the same count.
-/
import proofs.«122793_j4587025072325_2_alg».proof.Proof.RefReadTerms

noncomputable section

open scoped BigOperators

namespace Cert.ReferenceIdeal.Read

open Idealize.ShloMosaic Idealize.ShloMosaic.ValueIdx
open Cert.ReferenceIdeal Cert.ReferenceIdeal.Fn Cert.Smooth

variable [Facts]
open Facts₀ Facts

/-- The host's power at an index is the power of the elements. -/
theorem hostPowf_apply {s : Shape} (a e : FVec Ideal s .f32) (i : s.Idx) : Host.powf a e i = Ideal.pow (a i) (e i) := rfl

/-- An array constant along the offset and channel axes, spread over the stack, reads it at (b, 0, 0, h, w). -/
theorem bcastM_apply (v : FVec Ideal S8x1x1x512x512 .f32) (b : Fin 8) (k : Fin 9) (c : Fin 3) (h w : Fin 512) :
    broadcastInDim S8x9x3x512x512 ![0, 1, 2, 3, 4] bcast_S8x1x1x512x512_S8x9x3x512x512_0_1_2_3_4 v (ix5 b k c h w)
      = v (ix5 b (0 : Fin 1) (0 : Fin 1) h w) := by
  refine broadcastInDim_apply _ _ _ _ _ ?_
  intro a
  match a with
  | ⟨0, _⟩ => rfl
  | ⟨1, _⟩ => rfl
  | ⟨2, _⟩ => rfl
  | ⟨3, _⟩ => rfl
  | ⟨4, _⟩ => rfl

/-- An array constant along the channel axis, spread over the stack, reads it at (b, k, 0, h, w). -/
theorem bcastW_apply (v : FVec Ideal S8x9x1x512x512 .f32) (b : Fin 8) (k : Fin 9) (c : Fin 3) (h w : Fin 512) :
    broadcastInDim S8x9x3x512x512 ![0, 1, 2, 3, 4] bcast_S8x9x1x512x512_S8x9x3x512x512_0_1_2_3_4 v (ix5 b k c h w)
      = v (ix5 b k (0 : Fin 1) h w) := by
  refine broadcastInDim_apply _ _ _ _ _ ?_
  intro a
  match a with
  | ⟨0, _⟩ => rfl
  | ⟨1, _⟩ => rfl
  | ⟨2, _⟩ => rfl
  | ⟨3, _⟩ => rfl
  | ⟨4, _⟩ => rfl

/-- The blend at an index of the stack is the specification's summand. -/
theorem blendFn_apply (x y : Img) (hx : ∀ i, ∃ r : ℝ, x i = (r : EReal)) (hy : ∀ i, ∃ r : ℝ, y i = (r : EReal))
    (o : Fin 3 × Fin 3) (b : Fin 8) (c : Fin 3) (h w : Fin 512) :
    blendFn (F := Ideal) x y (ix5 b (kOf o) c h w) = val x y o b c h w := by
  unfold blendFn sqTerm pTerm
  simp only [addf_apply, mulf_apply, subf_apply, hostPowf_apply]
  rw [bcastM_apply, bcastM_apply, bcastW_apply, wsB_apply, subf_apply, splat_apply, splat_apply, splat_apply,
    flatFn_apply, wrFn_apply x hx, absEps_apply]
  exact blend_eq (flat x y b h w) (wsLit o) (wr x o b h w) (max (dif y o b c h w) (-(dif y o b c h w)))
    (wsLit_real o) (wr_real x hx o b h w) (absdif_real y hy o b c h w)

/-- The reference's function is the loss. -/
theorem refFn_eq (x y : Img) (hx : ∀ i, ∃ r : ℝ, x i = (r : EReal)) (hy : ∀ i, ∃ r : ℝ, y i = (r : EReal)) :
    refFn (F := Ideal) x y = fun _ => loss x y := by
  funext j
  unfold refFn loss total pix
  rw [hostDivf_apply, hostReduceAdd_apply, Ideal.hostReduceAdd_total _ (fun a => a.elim0), constant_apply, constant_apply,
    Ideal.ofBits_zero_f32, zero_add, sum_stack]
  refine congrArg (Ideal.div · cN) ?_
  exact Finset.sum_congr rfl fun b _ => Finset.sum_congr rfl fun h _ => Finset.sum_congr rfl fun w _ =>
    Finset.sum_congr rfl fun o _ => Finset.sum_congr rfl fun c _ => blendFn_apply x y hx hy o b c h w

end Cert.ReferenceIdeal.Read

end
-- ==== Proof.Finite.lean ====
/-
  From the stated precondition to "every entry of both image stacks is a real number".

  The precondition is the conjunction of two tests, one per stack: every entry's absolute value is below plus
  infinity. Over the extended reals an entry whose absolute value is below plus infinity is neither infinity, so it is
  the image of a real.
-/
import proofs.«122793_j4587025072325_2_alg».proof.Pre_finite_inputs
import proofs.«122793_j4587025072325_2_alg».proof.Proof.Gen.Pre_finite_inputs
import Idealize.ShloMosaic.Lib.ReduceAll
import Idealize.ShloMosaic.Lib.IdealHost

noncomputable section

namespace Cert.Smooth

open Idealize.ShloMosaic Idealize.ShloMosaic.ValueIdx

instance : Subsingleton Cert.Pre_finite_inputs.S_.Idx := ⟨fun a b => funext fun d => d.elim0⟩

/-- An extended real whose absolute value compares below the word of plus infinity is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- The precondition gives: every entry of both stacks is a real. -/
theorem finite_of_pre [Cert.Pre_finite_inputs.Facts]
    (a0 a1 : FVec Ideal Cert.Pre_finite_inputs.S8x3x512x512 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨e0, e1⟩ := IntOp.andi_eq_one.1 h0
  refine ⟨fun i => ?_, fun i => ?_⟩
  · have := Host.reduce_andi_all _ _ _ _ _ e0 i
    exact real_of_abs_lt_inf (a0 i) this
  · have := Host.reduce_andi_all _ _ _ _ _ e1 i
    exact real_of_abs_lt_inf (a1 i) this

end Cert.Smooth

end
-- ==== Proof.lean ====
/-
  The certificate's claims, assembled.

  Both programs compute the smoothness loss of an original and a smooth image stack (Proof/Spec.lean): the mean, over
  batch members, the nine offsets of a 3×3 window, channels and pixels, of a weight times a power of the shifted
  absolute difference of the smooth image to its reflected neighbour; on a flat pixel the weight is the offset's
  Gaussian constant and the exponent 2, elsewhere the weight is the colour weight of the original image and the
  exponent 0.8.

  The kernel accumulates the pixel sums of a core's four members in a carried buffer and sums it at the core's last
  step; the host adds the two cores' totals and divides (Proof/KernValue.lean, over the step read element by element
  in Proof/KernRead.lean). The reference builds all summands as one five-axis array and takes its mean
  (Proof/RefRun.lean, Proof/RefRead.lean). The two meet element by element by one law on the reals
  (Proof/PixelLaw.lean): with the mask a number in {0, 1}, `M · (ws · a²) + (1 − M) · (wr · a^p)` is the selected
  weight times `exp (p' · log a)` for `a > 0`, and `exp (Σ (−½ d) d) = exp (−½ Σ d²)`; both need the inputs finite,
  which is the precondition (Proof/Finite.lean). The idealized kernel is the kernel's own text read over the extended
  reals: nothing was rewritten, so there is nothing to preserve.
-/
import proofs.«122793_j4587025072325_2_alg».proof.Defs
import proofs.«122793_j4587025072325_2_alg».proof.Proof.Gen.Kernel
import proofs.«122793_j4587025072325_2_alg».proof.Proof.Gen.Kernel.Frame
import proofs.«122793_j4587025072325_2_alg».proof.Proof.Gen.KernelIdeal
import proofs.«122793_j4587025072325_2_alg».proof.Proof.Gen.KernelIdeal.Frame
import proofs.«122793_j4587025072325_2_alg».proof.Proof.Gen.ReferenceIdeal
import proofs.«122793_j4587025072325_2_alg».proof.Proof.Gen.Pre_finite_inputs
import proofs.«122793_j4587025072325_2_alg».proof.Proof.KernValue
import proofs.«122793_j4587025072325_2_alg».proof.Proof.RefRun
import proofs.«122793_j4587025072325_2_alg».proof.Proof.RefRead
import proofs.«122793_j4587025072325_2_alg».proof.Proof.Finite
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2)
    (Cert.ReferenceIdeal.HandRun.run (F := Ideal) m ρ)

/-- Nothing was rewritten. -/
theorem preserves : Cert.preserves_Kernel_KernelIdeal := trivial

/-- From memories agreeing on the two stacks, finite by the precondition, both runs end at the loss of the stacks. -/
theorem algebraic : Cert.algebraic_KernelIdeal_ReferenceIdeal := by
  intro m ρ m' ρ' hpre hagree
  refine ⟨fun c => fun _ => Cert.Smooth.loss (Cert.KernelIdeal.Value.imgX m c) (Cert.KernelIdeal.Value.imgY m c),
    Cert.KernelIdeal.Value.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2]
  obtain ⟨hx, hy⟩ := Cert.Smooth.finite_of_pre _ _ (hpre c)
  exact Cert.ReferenceIdeal.Read.refFn_eq _ _ hx hy

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
